-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v39_2)) (v1 : (c : Dev Cert.KernelIdeal.nD) → Buf (Elt Ideal) ((c.tc : Thread Cert.KernelIdeal.nD Cert.KernelIdeal.τ).loc Cert.KernelIdeal.main_v39_0)) (v2 : (c : Dev Cert.KernelIdeal.nD) → Buf (Elt Ideal) ((c.tc : Thread Cert.KernelIdeal.nD Cert.KernelIdeal.τ).loc Cert.KernelIdeal.main_v39_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_2) = v0 c
          ∧ r.2.mem ((c.tc : Thread Cert.KernelIdeal.nD Cert.KernelIdeal.τ).loc Cert.KernelIdeal.main_v39_0) = v1 c
          ∧ r.2.mem ((c.tc : Thread Cert.KernelIdeal.nD Cert.KernelIdeal.τ).loc Cert.KernelIdeal.main_v39_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v136) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000x64 : Shape := ⟨2, ![100000, 64]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S64 .f32) (main_arg9 : FVec F S64x128 .f32) (main_arg10 : FVec F S128 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x64 .f32) (main_arg8 : FVec F S64 .f32) (main_arg9 : FVec F S64x128 .f32) (main_arg10 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S100000x64 .f32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000x64 : Shape := ⟨2, ![100000, 64]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩
abbrev S1x128 : Shape := ⟨2, ![1, 128]⟩
abbrev S4000x128 : Shape := ⟨2, ![4000, 128]⟩
abbrev S4000x1 : Shape := ⟨2, ![4000, 1]⟩
abbrev S4000x64 : Shape := ⟨2, ![4000, 64]⟩
abbrev S1600000x64 : Shape := ⟨2, ![1600000, 64]⟩

abbrev nBuf : Space → Nat
  | .hbm => 63
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000x64, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S1x128, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x1, .f32⟩
  | .local _ .vmem, ⟨4, _⟩ => ⟨S4000x1, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x1, .f32⟩
  | .local _ .vmem, ⟨12, _⟩ => ⟨S4000x1, .f32⟩
  | .local _ .vmem, ⟨13, _⟩ => ⟨S1x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S4000x1, .f32⟩
  | .local _ .vmem, ⟨23, _⟩ => ⟨S4000x1, .f32⟩
  | .local _ .vmem, ⟨24, _⟩ => ⟨S4000x64, .f32⟩
  | .local _ .vmem, ⟨25, _⟩ => ⟨S4000x64, .f32⟩
  | .local _ .vmem, ⟨26, _⟩ => ⟨S4000x64, .f32⟩
  | .local _ .vmem, ⟨27, _⟩ => ⟨S4000x64, .f32⟩
  | .local _ .vmem, ⟨28, _⟩ => ⟨S4000x64, .f32⟩
  | .local _ .vmem, ⟨29, _⟩ => ⟨S4000x64, .f32⟩
  | .local _ .vmem, ⟨30, _⟩ => ⟨S64x64, .f32⟩
  | .local _ .vmem, ⟨31, _⟩ => ⟨S1x64, .f32⟩
  | .local _ .vmem, ⟨32, _⟩ => ⟨S64x64, .f32⟩
  | .local _ .vmem, ⟨33, _⟩ => ⟨S1x64, .f32⟩
  | .local _ .vmem, ⟨34, _⟩ => ⟨S64x128, .f32⟩
  | .local _ .vmem, ⟨35, _⟩ => ⟨S1x128, .f32⟩
  | .local _ .vmem, ⟨36, _⟩ => ⟨S4000x64, .f32⟩
  | .local _ .vmem, ⟨37, _⟩ => ⟨S4000x64, .f32⟩
  | .local _ .vmem, ⟨38, _⟩ => ⟨S4000x64, .f32⟩
  | .local _ .vmem, ⟨39, _⟩ => ⟨S4000x64, .f32⟩
  | .local _ .vmem, ⟨40, _⟩ => ⟨S4000x128, .f32⟩
  | .local _ .vmem, ⟨41, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27_0 : Ref sig .tc := ⟨.hbm, 44, rfl⟩
abbrev main_v27_1 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39_0 : Ref sig .tc := ⟨.hbm, 60, rfl⟩
abbrev main_v39_1 : Ref sig .tc := ⟨.hbm, 61, rfl⟩
abbrev main_v39_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg8_1 : Ref sig .tc := ⟨.vmem, 37, rfl⟩
abbrev cc3_stg9_0 : Ref sig .tc := ⟨.vmem, 38, rfl⟩
abbrev cc3_stg9_1 : Ref sig .tc := ⟨.vmem, 39, rfl⟩
abbrev cc3_stg10_0 : Ref sig .tc := ⟨.vmem, 40, rfl⟩
abbrev cc3_stg10_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem8_1 : DmaSem sig := 37
abbrev cc3_sem9_0 : DmaSem sig := 38
abbrev cc3_sem9_1 : DmaSem sig := 39
abbrev cc3_sem10_0 : DmaSem sig := 40
abbrev cc3_sem10_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S4000x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S4000x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S4000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S128_S1x128_1 : S128.BroadcastsInDim S1x128 (![1] : Fin 1 → Fin S1x128.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S100000_S1600000x1_S1600000_n_0_0_1_wf : ScatterDims.WF S100000 S1600000x1 S1600000 [] [0] [0] 1
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  dot_S4000x64_S64x128_S4000x128_1_0_0_1_n_n_wf : DotDims.WF S4000x64 S64x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .f32 = 32 ∨ (Rect.block (s := S100000x64) S4000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .f32 = 32 ∨ (Rect.block (s := S100000x64) S4000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S100000x64.size a
  hwx3_1 : ∀ i : grid3.Coords, EltTy.bits .f32 = 32 ∨ (Rect.block (s := S100000x64) S4000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x128.size a ≤ S64x128.size a
  hwx3_6 : ∀ i : grid3.Coords, EltTy.bits .f32 = 32 ∨ (Rect.block (s := S64x128) S64x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S4000x64.size a ≤ S100000x64.size a
  hwx3_8 : ∀ i : grid3.Coords, EltTy.bits .f32 = 32 ∨ (Rect.block (s := S100000x64) S4000x64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S4000x64.size a ≤ S100000x64.size a
  hwx3_9 : ∀ i : grid3.Coords, EltTy.bits .f32 = 32 ∨ (Rect.block (s := S100000x64) S4000x64.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S4000x128.size a ≤ S100000x128.size a
  hwx3_10 : ∀ i : grid3.Coords, EltTy.bits .f32 = 32 ∨ (Rect.block (s := S100000x128) S4000x128.size (cc3_transform_10 i) (hinb3_10 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27_0) S4000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v27_1) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27_1) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S4000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v13) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg7) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v14) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg9) S64x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v15) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v39_0) S4000x64.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v39_1) S4000x64.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v39_2) S4000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000x64 : Shape := ⟨2, ![100000, 64]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S1x128 : Shape := ⟨2, ![1, 128]⟩

abbrev nBuf : Space → Nat
  | .hbm => 195
  | .vmem => 0
  | .smem => 0
  | _ => 0

abbrev hbmTy0_0 (i : Nat) : BufTy := match i % 128 with
  | 0 => ⟨S100000x128, .f32⟩
  | 1 => ⟨S2x1600000, .i32⟩
  | 2 => ⟨S100000x64, .f32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x128, .f32⟩
  | 10 => ⟨S128, .f32⟩
  | 11 => ⟨S1x1600000, .i32⟩
  | 12 => ⟨S1600000, .i32⟩
  | 13 => ⟨S1x1600000, .i32⟩
  | 14 => ⟨S1600000, .i32⟩
  | 15 => ⟨S100000x64, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S1600000x1, .f32⟩
  | 55 => ⟨S1600000x64, .f32⟩
  | 56 => ⟨S1600000x64, .f32⟩
  | 57 => ⟨S_, .f32⟩
  | 58 => ⟨S100000x64, .f32⟩
  | 59 => ⟨S1600000x1, .i32⟩
  | 60 => ⟨S100000x64, .f32⟩
  | 61 => ⟨S100000, .f32⟩
  | 62 => ⟨S100000x1, .f32⟩
  | 63 => ⟨S100000x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .f32⟩
  | 74 => ⟨S1600000, .f32⟩
  | 75 => ⟨S_, .f32⟩
  | 76 => ⟨S100000, .f32⟩
  | 77 => ⟨S1600000x1, .i32⟩
  | 78 => ⟨S100000, .f32⟩
  | 79 => ⟨S_, .f32⟩
  | 80 => ⟨S100000, .f32⟩
  | 81 => ⟨S100000, .f32⟩
  | 82 => ⟨S100000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000, .f32⟩
  | 101 => ⟨S1600000, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x64, .f32⟩
  | 111 => ⟨S1600000x1, .f32⟩
  | 112 => ⟨S1600000x64, .f32⟩
  | 113 => ⟨S1600000x64, .f32⟩
  | 114 => ⟨S_, .f32⟩
  | 115 => ⟨S100000x64, .f32⟩
  | 116 => ⟨S1600000x1, .i32⟩
  | 117 => ⟨S100000x64, .f32⟩
  | 118 => ⟨S100000, .f32⟩
  | 119 => ⟨S100000x1, .f32⟩
  | 120 => ⟨S100000x64, .f32⟩
  | 121 => ⟨S100000x64, .f32⟩
  | 122 => ⟨S100000x64, .f32⟩
  | 123 => ⟨S1x64, .f32⟩
  | 124 => ⟨S100000x64, .f32⟩
  | 125 => ⟨S100000x64, .f32⟩
  | 126 => ⟨S100000x64, .f32⟩
  | 127 => ⟨S_, .f32⟩
  | _ => ⟨S100000x128, .f32⟩

abbrev hbmTy0_1 (i : Nat) : BufTy := match i % 128 with
  | 0 => ⟨S1600000, .f32⟩
  | 1 => ⟨S_, .f32⟩
  | 2 => ⟨S100000, .f32⟩
  | 3 => ⟨S1600000x1, .i32⟩
  | 4 => ⟨S100000, .f32⟩
  | 5 => ⟨S_, .f32⟩
  | 6 => ⟨S100000, .f32⟩
  | 7 => ⟨S100000, .f32⟩
  | 8 => ⟨S100000, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000, .f32⟩
  | 27 => ⟨S1600000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x64, .f32⟩
  | 37 => ⟨S1600000x1, .f32⟩
  | 38 => ⟨S1600000x64, .f32⟩
  | 39 => ⟨S1600000x64, .f32⟩
  | 40 => ⟨S_, .f32⟩
  | 41 => ⟨S100000x64, .f32⟩
  | 42 => ⟨S1600000x1, .i32⟩
  | 43 => ⟨S100000x64, .f32⟩
  | 44 => ⟨S100000, .f32⟩
  | 45 => ⟨S100000x1, .f32⟩
  | 46 => ⟨S100000x64, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S100000x64, .f32⟩
  | 53 => ⟨S100000x64, .f32⟩
  | 54 => ⟨S100000x64, .f32⟩
  | 55 => ⟨S100000x128, .f32⟩
  | 56 => ⟨S1x128, .f32⟩
  | 57 => ⟨S100000x128, .f32⟩
  | 58 => ⟨S100000x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S_, .f32⟩
  | 65 => ⟨S100000x128, .f32⟩
  | 66 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_15 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_cst_19 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_20 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_c_21 : Ref sig .tc := ⟨.hbm, 137, rfl⟩
abbrev main_v101 : Ref sig .tc := ⟨.hbm, 138, rfl⟩
abbrev main_v102 : Ref sig .tc := ⟨.hbm, 139, rfl⟩
abbrev main_c_22 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_c_23 : Ref sig .tc := ⟨.hbm, 146, rfl⟩
abbrev main_v108 : Ref sig .tc := ⟨.hbm, 147, rfl⟩
abbrev main_v109 : Ref sig .tc := ⟨.hbm, 148, rfl⟩
abbrev main_c_24 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_c_25 : Ref sig .tc := ⟨.hbm, 156, rfl⟩
abbrev main_v116 : Ref sig .tc := ⟨.hbm, 157, rfl⟩
abbrev main_v117 : Ref sig .tc := ⟨.hbm, 158, rfl⟩
abbrev main_c_26 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_27 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_cst_28 : Ref sig .tc := ⟨.hbm, 189, rfl⟩
abbrev main_v146 : Ref sig .tc := ⟨.hbm, 190, rfl⟩
abbrev main_v147 : Ref sig .tc := ⟨.hbm, 191, rfl⟩
abbrev main_cst_29 : Ref sig .tc := ⟨.hbm, 192, rfl⟩
abbrev main_v148 : Ref sig .tc := ⟨.hbm, 193, rfl⟩
abbrev main_v149 : Ref sig .tc := ⟨.hbm, 194, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x128_S100000x128_1_0_0_1_n_n_wf : DotDims.WF S100000x64 S64x128 S100000x128 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.KernelRun.lean ====
/-
  The kernel program's run, with its three results read.

  The program is four kernel regions among stretches of host operations. The buffer contents at each boundary are a
  fold from the launch memory: a stretch applies its host operations, a region replaces each of its arrays by what
  its grid points write back. Every weakly fair execution terminates in a state whose unscoped buffers hold the last
  boundary's contents; read at the three result buffers this names the results, and read at the arguments it gives
  them back unchanged.
-/
import proofs.«111905_j23845658427756_2_alg».proof.Proof.Gen.KernelIdeal.Frame

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Bridge

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the three results at the last boundary's contents
    and the arguments as launched. -/
theorem run_results : θ_run defs (onTc (τ := τ) (main (F := F))) ⟨m, fun _ => 0, ρ⟩ (fun r => ∀ c : Dev nD,
      r.2.mem ((c.tc : Thread nD τ).loc main_v39_2) = W7 m ρ c (Proc.devRef .tc main_v39_2)
      ∧ r.2.mem ((c.tc : Thread nD τ).loc main_v39_0) = W7 m ρ c (Proc.devRef .tc main_v39_0)
      ∧ r.2.mem ((c.tc : Thread nD τ).loc main_v39_1) = W7 m ρ c (Proc.devRef .tc main_v39_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v39_2 (by decide)),
       h c _ (mem_uc main_v39_0 (by decide)),
       h c _ (mem_uc main_v39_1 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.Bridge

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.Payloads.lean ====
/-
  The four kernel bodies' arithmetic read at one entry, on the extended reals.

  Each body works on a block of 4000 rows. On the extended reals a change of float format is the identity and a
  matrix product into a zero accumulator is the plain sum of products, so each stored value at row p, column q is
  an explicit expression of the loaded blocks at row p (and of the whole small operands):
    scale:     (∑ₖ x(p,k)·w(k,q)) · d(p)
    finalize:  max (d(p)·(a(p,q) + s(p,q)) + b(q)) 0,   and that times d(p)
    aggregate: d(p)·(a(p,q) + s(p,q))
    decode:    mu(p,q) = ∑ₖ g(p,k)·wmu(k,q) + bmu(q),  lv likewise,
               and logistic (∑ₖ (mu(p,k) + eps(p,k)·exp lv(p,k))·wdec(k,q) + bdec(q)).
-/
import proofs.«111905_j23845658427756_2_alg».proof.Proof.Gen.KernelIdeal.Skeleton
import proofs.«111905_j23845658427756_2_alg».proof.Proof.LibPlainDot
import proofs.«111905_j23845658427756_2_alg».proof.Proof.LibKeepdims
import Idealize.ShloMosaic.Lib.ValueLayout
import Idealize.ShloMosaic.Lib.Pipeline.Value
import Idealize.ShloMosaic.PureOps.Ideal.Laws

noncomputable section

open scoped BigOperators

namespace Cert.KernelIdeal.Bridge

open Idealize.ShloMosaic Idealize.ShloMosaic.ValueIdx Idealize.ShloMosaic.ValueKeepdims
open Cert.KernelIdeal Cert.KernelIdeal.Gen

/-- The scale body: the row of the product, times the row's scale. -/
theorem scale_apply (v0 : Vec Ideal S4000x128 .f32) (v2 : Vec Ideal S128x64 .f32) (v5 : Vec Ideal S4000x1 .f32)
    (p : Fin 4000) (q : Fin 64) :
    k0_pay1 (F := Ideal) v0 v2 v5 (ix2 p q) = (∑ k : Fin 128, v0 (ix2 p k) * v2 (ix2 k q)) * v5 (ix2 p (0 : Fin 1)) := by
  unfold k0_pay1
  show FloatOps.matmul (F := Ideal) (DotDims.plain 4000 128 64) none (truncf .bf16 v0 bitsLt_bf16_f32) (truncf .bf16 v2 bitsLt_bf16_f32)
        (constant ⟨2, ![4000, 64]⟩ .f32 0x00000000#32) (ix2 p q)
      * broadcastTo S4000x64 (shapeCast S4000x1 v5 shapeCasts_S4000x1_S4000x1) broadcasts_S4000x1_S4000x64 (ix2 p q) = _
  rw [Cert.Lib.PlainDot.matmul_zero_apply, broadcastTo_a1_ab_apply, shapeCast_self]
  rfl

/-- The finalize body's first store: the rectified combination. -/
theorem finalize_apply (v0 : Vec Ideal S4000x1 .f32) (v2 v4 : Vec Ideal S4000x64 .f32) (v9 : Vec Ideal S1x64 .f32)
    (p : Fin 4000) (q : Fin 64) :
    k1_pay1 (F := Ideal) v0 v2 v4 v9 (ix2 p q)
      = max (v0 (ix2 p (0 : Fin 1)) * (v2 (ix2 p q) + v4 (ix2 p q)) + v9 (ix2 (0 : Fin 1) q)) (Ideal.ofBits .f32 0x00000000#32) := by
  unfold k1_pay1
  show max (broadcastTo S4000x64 (shapeCast S4000x1 v0 shapeCasts_S4000x1_S4000x1) broadcasts_S4000x1_S4000x64 (ix2 p q)
        * (shapeCast S4000x64 v2 shapeCasts_S4000x64_S4000x64 (ix2 p q) + shapeCast S4000x64 v4 shapeCasts_S4000x64_S4000x64 (ix2 p q))
        + broadcastTo S4000x64 (shapeCast S1x64 v9 shapeCasts_S1x64_S1x64) broadcasts_S1x64_S4000x64 (ix2 p q)) _ = _
  rw [broadcastTo_a1_ab_apply, broadcastTo_1b_ab_apply]
  simp only [shapeCast_self]
  rfl

/-- The finalize body's second store: the first, times the row's scale. -/
theorem finalize_scaled_apply (v0 : Vec Ideal S4000x1 .f32) (v2 v4 : Vec Ideal S4000x64 .f32) (v9 : Vec Ideal S1x64 .f32)
    (v16 : Vec Ideal S4000x1 .f32) (p : Fin 4000) (q : Fin 64) :
    k1_pay2 (F := Ideal) v0 v2 v4 v9 v16 (ix2 p q) = k1_pay1 (F := Ideal) v0 v2 v4 v9 (ix2 p q) * v16 (ix2 p (0 : Fin 1)) := by
  unfold k1_pay2
  show k1_pay1 (F := Ideal) v0 v2 v4 v9 (ix2 p q)
      * broadcastTo S4000x64 (shapeCast S4000x1 v16 shapeCasts_S4000x1_S4000x1) broadcasts_S4000x1_S4000x64 (ix2 p q) = _
  rw [broadcastTo_a1_ab_apply, shapeCast_self]

/-- The aggregate body: the row's scale times the sum of the two operands. -/
theorem aggregate_apply (v0 : Vec Ideal S4000x1 .f32) (v2 v4 : Vec Ideal S4000x64 .f32) (p : Fin 4000) (q : Fin 64) :
    k2_pay1 (F := Ideal) v0 v2 v4 (ix2 p q) = v0 (ix2 p (0 : Fin 1)) * (v2 (ix2 p q) + v4 (ix2 p q)) := by
  unfold k2_pay1
  show broadcastTo S4000x64 (shapeCast S4000x1 v0 shapeCasts_S4000x1_S4000x1) broadcasts_S4000x1_S4000x64 (ix2 p q)
        * (shapeCast S4000x64 v2 shapeCasts_S4000x64_S4000x64 (ix2 p q) + shapeCast S4000x64 v4 shapeCasts_S4000x64_S4000x64 (ix2 p q)) = _
  rw [broadcastTo_a1_ab_apply]
  simp only [shapeCast_self]

/-- The decode body's mean: a row of the product plus the bias. -/
theorem mean_apply (v0 : Vec Ideal S4000x64 .f32) (v3 : Vec Ideal S64x64 .f32) (v8 : Vec Ideal S1x64 .f32) (p : Fin 4000) (q : Fin 64) :
    k3_pay2 (F := Ideal) v0 v3 v8 (ix2 p q) = (∑ k : Fin 64, v0 (ix2 p k) * v3 (ix2 k q)) + v8 (ix2 (0 : Fin 1) q) := by
  unfold k3_pay2 k3_pay1
  show FloatOps.matmul (F := Ideal) (DotDims.plain 4000 64 64) none (truncf .bf16 (shapeCast S4000x64 v0 shapeCasts_S4000x64_S4000x64) bitsLt_bf16_f32)
        (truncf .bf16 v3 bitsLt_bf16_f32) (constant ⟨2, ![4000, 64]⟩ .f32 0x00000000#32) (ix2 p q)
      + broadcastTo S4000x64 (shapeCast S1x64 v8 shapeCasts_S1x64_S1x64) broadcasts_S1x64_S4000x64 (ix2 p q) = _
  rw [Cert.Lib.PlainDot.matmul_zero_apply, broadcastTo_1b_ab_apply]
  simp only [shapeCast_self]
  rfl

/-- The decode body's log-variance: the same with the other weights. -/
theorem logvar_apply (v0 : Vec Ideal S4000x64 .f32) (v5 : Vec Ideal S64x64 .f32) (v13 : Vec Ideal S1x64 .f32) (p : Fin 4000) (q : Fin 64) :
    k3_pay3 (F := Ideal) v0 v5 v13 (ix2 p q) = (∑ k : Fin 64, v0 (ix2 p k) * v5 (ix2 k q)) + v13 (ix2 (0 : Fin 1) q) := by
  unfold k3_pay3 k3_pay1
  show FloatOps.matmul (F := Ideal) (DotDims.plain 4000 64 64) none (truncf .bf16 (shapeCast S4000x64 v0 shapeCasts_S4000x64_S4000x64) bitsLt_bf16_f32)
        (truncf .bf16 v5 bitsLt_bf16_f32) (constant ⟨2, ![4000, 64]⟩ .f32 0x00000000#32) (ix2 p q)
      + broadcastTo S4000x64 (shapeCast S1x64 v13 shapeCasts_S1x64_S1x64) broadcasts_S1x64_S4000x64 (ix2 p q) = _
  rw [Cert.Lib.PlainDot.matmul_zero_apply, broadcastTo_1b_ab_apply]
  simp only [shapeCast_self]
  rfl

/-- The decode body's reconstruction: the logistic of the sampled row through the decoder, plus its bias. -/
theorem recon_apply (v0 : Vec Ideal S4000x64 .f32) (v3 v5 : Vec Ideal S64x64 .f32) (v8 v13 : Vec Ideal S1x64 .f32)
    (v17 : Vec Ideal S4000x64 .f32) (v22 : Vec Ideal S64x128 .f32) (v25 : Vec Ideal S1x128 .f32) (p : Fin 4000) (q : Fin 128) :
    k3_pay4 (F := Ideal) v0 v3 v5 v8 v13 v17 v22 v25 (ix2 p q)
      = Ideal.logistic ((∑ k : Fin 64, (k3_pay2 (F := Ideal) v0 v3 v8 (ix2 p k)
            + v17 (ix2 p k) * Ideal.exp (k3_pay3 (F := Ideal) v0 v5 v13 (ix2 p k))) * v22 (ix2 k q)) + v25 (ix2 (0 : Fin 1) q)) := by
  unfold k3_pay4
  show Ideal.logistic (FloatOps.matmul (DotDims.plain 4000 64 128) none
          (truncf .bf16 (addf (k3_pay2 (F := Ideal) v0 v3 v8) (mulf v17 (exp (k3_pay3 (F := Ideal) v0 v5 v13)))) bitsLt_bf16_f32)
          (truncf .bf16 v22 bitsLt_bf16_f32) (constant ⟨2, ![4000, 128]⟩ .f32 0x00000000#32) (ix2 p q)
        + broadcastTo S4000x128 (shapeCast S1x128 v25 shapeCasts_S1x128_S1x128) broadcasts_S1x128_S4000x128 (ix2 p q)) = _
  rw [Cert.Lib.PlainDot.matmul_zero_apply, broadcastTo_1b_ab_apply, shapeCast_self]
  rfl

end Cert.KernelIdeal.Bridge

end
-- ==== Proof.Region0.lean ====
/-
  The scale region's output array, as one function of the arrays the region finds.

  The grid has 25 points; point t reads rows 4000·t … 4000·t+3999 of the features and of the scale column, the
  whole weight matrix, and writes the same rows of the output. So the output array ends holding, at (n, f),
  (∑ₖ x(n,k)·w(k,f)) · d(n): each block written back is that function restricted to the block's rows, and the 25
  blocks tile the 100000 rows.
-/
import proofs.«111905_j23845658427756_2_alg».proof.Proof.Gen.KernelIdeal.Frame
import proofs.«111905_j23845658427756_2_alg».proof.Proof.Payloads

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

namespace Cert.KernelIdeal.Bridge

open Cert.KernelIdeal Cert.KernelIdeal.Gen Idealize.ShloMosaic.ValueIdx

variable (V : (c : Dev nD) → (b : Ref sig .tc) → Buf (Elt Ideal) ((c : Thread nD τ).loc b))

theorem origin2 : (![0, 0] : Fin 2 → Nat) = fun _ => 0 := funext fun a => by fin_cases a <;> rfl

/-- The rows of a product, each scaled by its row's factor. -/
def scaledRows (x : S100000x128.Idx → EReal) (w : S128x64.Idx → EReal) (d : S100000x1.Idx → EReal) : S100000x64.Idx → EReal :=
  fun i => (∑ k : Fin 128, x (ix2 (i 0) k) * w (ix2 k (i 1))) * d (ix2 (i 0) (0 : Fin 1))

/-- The index maps over the grid: the row-blocked windows move with the output's block, the weights stay. -/
theorem maps0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 24 :=
  (by decide +kernel : ∀ t : Fin grid0.N, _)

/-- Every block of rows is some point's. -/
theorem onto0 : ∀ q0 : Fin 25, ∃ t : Fin cfg0.N, win0_3.index t = ![q0.val, 0] :=
  (by decide +kernel : ∀ q0 : Fin 25, ∃ t : Fin grid0.N, win0_3.index t = ![q0.val, 0])

/-- What point t writes back is block t of the scaled product. -/
theorem flushed0 (c : Dev nD) (t : Fin cfg0.N) :
    (dat0 V c).flushed 3 t = ((cfg0.win 3).blk t).view.read (Elt Ideal) (scaledRows (V c main_arg0) (V c main_arg3) (V c main_v11)) := by
  show (cfg0.win 3).cut (grid0.coords t) ((dat0 V c).after 3 t) = _
  rw [after0_3]
  unfold out0_3
  rw [View.canon_unit_zero origin2]
  simp only [View.ld_unit_zero (S := S4000x128) origin2, View.ld_unit_zero (S := S128x64) origin2, View.ld_unit_zero (S := S4000x1) origin2]
  obtain ⟨e0, e1, e2, e3, e4, e5, e6, e7⟩ := maps0 t
  funext j
  obtain ⟨p, q, rfl⟩ : ∃ (p : Fin 4000) (q : Fin 64), j = ix2 p q := ⟨j 0, j 1, eq_ix2 j⟩
  refine (scale_apply _ _ _ p q).trans ?_
  have hx : ∀ k : Fin 128, iblk0 V c 0 t (ix2 p k) = V c main_arg0 (ix2 ((((cfg0.win 3).blk t).view.emb (ix2 p q)) 0) k) := fun k => by
    show V c main_arg0 (((cfg0.win 0).blk t).view.emb (ix2 p k)) = _
    refine congrArg (V c main_arg0) ?_
    funext a; apply Fin.ext
    match a with
    | ⟨0, _⟩ => show win0_0.index t (0 : Fin 2) * 4000 + 1 * p.val = win0_3.index t (0 : Fin 2) * 4000 + 1 * p.val; omega
    | ⟨1, _⟩ => show win0_0.index t (1 : Fin 2) * 128 + 1 * k.val = k.val; omega
  have hw : ∀ k : Fin 128, iblk0 V c 1 t (ix2 k q) = V c main_arg3 (ix2 k ((((cfg0.win 3).blk t).view.emb (ix2 p q)) 1)) := fun k => by
    show V c main_arg3 (((cfg0.win 1).blk t).view.emb (ix2 k q)) = _
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 64 + 1 * q.val = win0_3.index t (1 : Fin 2) * 64 + 1 * q.val; omega
  have hd : iblk0 V c 2 t (ix2 p (0 : Fin 1)) = V c main_v11 (ix2 ((((cfg0.win 3).blk t).view.emb (ix2 p q)) 0) (0 : Fin 1)) := by
    show V c main_v11 (((cfg0.win 2).blk t).view.emb (ix2 p (0 : Fin 1))) = _
    refine congrArg (V c main_v11) ?_
    funext a; apply Fin.ext
    match a with
    | ⟨0, _⟩ => show win0_2.index t (0 : Fin 2) * 4000 + 1 * p.val = win0_3.index t (0 : Fin 2) * 4000 + 1 * p.val; omega
    | ⟨1, _⟩ => show win0_2.index t (1 : Fin 2) * 1 + 1 * 0 = 0; omega
  exact congrArg₂ (fun a b : EReal => a * b) (Finset.sum_congr rfl fun k _ => congrArg₂ (fun a b : EReal => a * b) (hx k) (hw k)) hd

/-- An index of the array lies in point t's block iff its row does. -/
theorem mem_blk0 (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v16).slice (win0_3.rect t)).set ↔ _
  rw [View.set_slice_whole, Rect.mem_set_unit]
  exact Iff.rfl

/-- The 25 blocks of 4000 rows tile the array. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := onto0 ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 64 ≤ (i 1).val ∧ (i 1).val < win0_3.index t (1 : Fin 2) * 64 + 64; omega

/-- The output array after the region. -/
theorem scale_array (c : Dev nD) :
    (dat0 V c).arrAt 3 cfg0.N = scaledRows (V c main_arg0) (V c main_arg3) (V c main_v11) :=
  (dat0 V c).arrAt_eq_of_cover 3 _ (fun t _ => flushed0 V c t) cover0

end Cert.KernelIdeal.Bridge

end
-- ==== Proof.Region1.lean ====
/-
  The finalize region's two output arrays, as functions of the arrays the region finds.

  Point t reads rows 4000·t … of the aggregate, of the scaled features and of the scale column, and the whole bias
  row; it writes the same rows of both outputs. At (n, f) the first output ends holding
  max (d(n)·(a(n,f) + s(n,f)) + b(f)) 0 and the second that value times d(n).
-/
import proofs.«111905_j23845658427756_2_alg».proof.Proof.Gen.KernelIdeal.Frame
import proofs.«111905_j23845658427756_2_alg».proof.Proof.Payloads
import proofs.«111905_j23845658427756_2_alg».proof.Proof.Region0

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

namespace Cert.KernelIdeal.Bridge

open Cert.KernelIdeal Cert.KernelIdeal.Gen Idealize.ShloMosaic.ValueIdx

variable (V : (c : Dev nD) → (b : Ref sig .tc) → Buf (Elt Ideal) ((c : Thread nD τ).loc b))

/-- The rectified, bias-shifted, row-scaled sum of two arrays. -/
def finalized (a s : S100000x64.Idx → EReal) (d : S100000x1.Idx → EReal) (b : S1x64.Idx → EReal) : S100000x64.Idx → EReal :=
  fun i => max (d (ix2 (i 0) (0 : Fin 1)) * (a i + s i) + b (ix2 (0 : Fin 1) (i 1))) (Ideal.ofBits .f32 0x00000000#32)

/-- The same, scaled again by the row's factor. -/
def finalizedScaled (a s : S100000x64.Idx → EReal) (d : S100000x1.Idx → EReal) (b : S1x64.Idx → EReal) : S100000x64.Idx → EReal :=
  fun i => finalized a s d b i * d (ix2 (i 0) (0 : Fin 1))

/-- The index maps over the grid: the row-blocked windows move together, the bias row stays. -/
theorem maps1 : ∀ t : Fin cfg1.N, win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_5.index t (0 : Fin 2) = win1_4.index t (0 : Fin 2) ∧ win1_5.index t (1 : Fin 2) = 0 :=
  (by decide +kernel : ∀ t : Fin grid1.N, _)

theorem onto1_4 : ∀ q0 : Fin 25, ∃ t : Fin cfg1.N, win1_4.index t = ![q0.val, 0] :=
  (by decide +kernel : ∀ q0 : Fin 25, ∃ t : Fin grid1.N, win1_4.index t = ![q0.val, 0])

theorem onto1_5 : ∀ q0 : Fin 25, ∃ t : Fin cfg1.N, win1_5.index t = ![q0.val, 0] :=
  (by decide +kernel : ∀ q0 : Fin 25, ∃ t : Fin grid1.N, win1_5.index t = ![q0.val, 0])

/-- What point t writes back to the first output is block t of the finalized array. -/
theorem flushed1_4 (c : Dev nD) (t : Fin cfg1.N) :
    (dat1 V c).flushed 4 t = ((cfg1.win 4).blk t).view.read (Elt Ideal) (finalized (V c main_v26) (V c main_v16) (V c main_v11) (V c main_v12)) := by
  show (cfg1.win 4).cut (grid1.coords t) ((dat1 V c).after 4 t) = _
  rw [after1_4]
  unfold out1_4
  rw [View.canon_unit_zero origin2]
  simp only [View.ld_unit_zero (S := S4000x64) origin2, View.ld_unit_zero (S := S1x64) origin2, View.ld_unit_zero (S := S4000x1) origin2]
  obtain ⟨e0, e1, e2, e3, e4, e5, e6, e7, e8, e9, e10⟩ := maps1 t
  funext j
  obtain ⟨p, q, rfl⟩ : ∃ (p : Fin 4000) (q : Fin 64), j = ix2 p q := ⟨j 0, j 1, eq_ix2 j⟩
  refine (finalize_apply _ _ _ _ p q).trans ?_
  have ha : iblk1 V c 0 t (ix2 p q) = V c main_v26 (((cfg1.win 4).blk t).view.emb (ix2 p q)) := by
    show V c main_v26 (((cfg1.win 0).blk t).view.emb (ix2 p q)) = _
    refine congrArg (V c main_v26) ?_
    funext a; apply Fin.ext
    match a with
    | ⟨0, _⟩ => show win1_0.index t (0 : Fin 2) * 4000 + 1 * p.val = win1_4.index t (0 : Fin 2) * 4000 + 1 * p.val; omega
    | ⟨1, _⟩ => show win1_0.index t (1 : Fin 2) * 64 + 1 * q.val = win1_4.index t (1 : Fin 2) * 64 + 1 * q.val; omega
  have hs : iblk1 V c 1 t (ix2 p q) = V c main_v16 (((cfg1.win 4).blk t).view.emb (ix2 p q)) := by
    show V c main_v16 (((cfg1.win 1).blk t).view.emb (ix2 p q)) = _
    refine congrArg (V c main_v16) ?_
    funext a; apply Fin.ext
    match a with
    | ⟨0, _⟩ => show win1_1.index t (0 : Fin 2) * 4000 + 1 * p.val = win1_4.index t (0 : Fin 2) * 4000 + 1 * p.val; omega
    | ⟨1, _⟩ => show win1_1.index t (1 : Fin 2) * 64 + 1 * q.val = win1_4.index t (1 : Fin 2) * 64 + 1 * q.val; omega
  have hd : iblk1 V c 2 t (ix2 p (0 : Fin 1)) = V c main_v11 (ix2 ((((cfg1.win 4).blk t).view.emb (ix2 p q)) 0) (0 : Fin 1)) := by
    show V c main_v11 (((cfg1.win 2).blk t).view.emb (ix2 p (0 : Fin 1))) = _
    refine congrArg (V c main_v11) ?_
    funext a; apply Fin.ext
    match a with
    | ⟨0, _⟩ => show win1_2.index t (0 : Fin 2) * 4000 + 1 * p.val = win1_4.index t (0 : Fin 2) * 4000 + 1 * p.val; omega
    | ⟨1, _⟩ => show win1_2.index t (1 : Fin 2) * 1 + 1 * 0 = 0; omega
  have hb : iblk1 V c 3 t (ix2 (0 : Fin 1) q) = V c main_v12 (ix2 (0 : Fin 1) ((((cfg1.win 4).blk t).view.emb (ix2 p q)) 1)) := by
    show V c main_v12 (((cfg1.win 3).blk t).view.emb (ix2 (0 : Fin 1) q)) = _
    refine congrArg (V c main_v12) ?_
    funext a; apply Fin.ext
    match a with
    | ⟨0, _⟩ => show win1_3.index t (0 : Fin 2) * 1 + 1 * 0 = 0; omega
    | ⟨1, _⟩ => show win1_3.index t (1 : Fin 2) * 64 + 1 * q.val = win1_4.index t (1 : Fin 2) * 64 + 1 * q.val; omega
  exact congrArg (fun z : EReal => max z (Ideal.ofBits .f32 0x00000000#32))
    (congrArg₂ (fun a b : EReal => a + b) (congrArg₂ (fun a b : EReal => a * b) hd (congrArg₂ (fun a b : EReal => a + b) ha hs)) hb)

/-- What point t writes back to the second output is block t of the finalized array scaled again. -/
theorem flushed1_5 (c : Dev nD) (t : Fin cfg1.N) :
    (dat1 V c).flushed 5 t = ((cfg1.win 5).blk t).view.read (Elt Ideal) (finalizedScaled (V c main_v26) (V c main_v16) (V c main_v11) (V c main_v12)) := by
  show (cfg1.win 5).cut (grid1.coords t) ((dat1 V c).after 5 t) = _
  rw [after1_5]
  unfold out1_5
  rw [View.canon_unit_zero origin2]
  simp only [View.ld_unit_zero (S := S4000x64) origin2, View.ld_unit_zero (S := S1x64) origin2, View.ld_unit_zero (S := S4000x1) origin2]
  obtain ⟨e0, e1, e2, e3, e4, e5, e6, e7, e8, e9, e10⟩ := maps1 t
  funext j
  obtain ⟨p, q, rfl⟩ : ∃ (p : Fin 4000) (q : Fin 64), j = ix2 p q := ⟨j 0, j 1, eq_ix2 j⟩
  refine (finalize_scaled_apply _ _ _ _ _ p q).trans ?_
  refine ((congrArg (fun z : EReal => z * _) (finalize_apply _ _ _ _ p q))).trans ?_
  have ha : iblk1 V c 0 t (ix2 p q) = V c main_v26 (((cfg1.win 5).blk t).view.emb (ix2 p q)) := by
    show V c main_v26 (((cfg1.win 0).blk t).view.emb (ix2 p q)) = _
    refine congrArg (V c main_v26) ?_
    funext a; apply Fin.ext
    match a with
    | ⟨0, _⟩ => show win1_0.index t (0 : Fin 2) * 4000 + 1 * p.val = win1_5.index t (0 : Fin 2) * 4000 + 1 * p.val; omega
    | ⟨1, _⟩ => show win1_0.index t (1 : Fin 2) * 64 + 1 * q.val = win1_5.index t (1 : Fin 2) * 64 + 1 * q.val; omega
  have hs : iblk1 V c 1 t (ix2 p q) = V c main_v16 (((cfg1.win 5).blk t).view.emb (ix2 p q)) := by
    show V c main_v16 (((cfg1.win 1).blk t).view.emb (ix2 p q)) = _
    refine congrArg (V c main_v16) ?_
    funext a; apply Fin.ext
    match a with
    | ⟨0, _⟩ => show win1_1.index t (0 : Fin 2) * 4000 + 1 * p.val = win1_5.index t (0 : Fin 2) * 4000 + 1 * p.val; omega
    | ⟨1, _⟩ => show win1_1.index t (1 : Fin 2) * 64 + 1 * q.val = win1_5.index t (1 : Fin 2) * 64 + 1 * q.val; omega
  have hd : iblk1 V c 2 t (ix2 p (0 : Fin 1)) = V c main_v11 (ix2 ((((cfg1.win 5).blk t).view.emb (ix2 p q)) 0) (0 : Fin 1)) := by
    show V c main_v11 (((cfg1.win 2).blk t).view.emb (ix2 p (0 : Fin 1))) = _
    refine congrArg (V c main_v11) ?_
    funext a; apply Fin.ext
    match a with
    | ⟨0, _⟩ => show win1_2.index t (0 : Fin 2) * 4000 + 1 * p.val = win1_5.index t (0 : Fin 2) * 4000 + 1 * p.val; omega
    | ⟨1, _⟩ => show win1_2.index t (1 : Fin 2) * 1 + 1 * 0 = 0; omega
  have hb : iblk1 V c 3 t (ix2 (0 : Fin 1) q) = V c main_v12 (ix2 (0 : Fin 1) ((((cfg1.win 5).blk t).view.emb (ix2 p q)) 1)) := by
    show V c main_v12 (((cfg1.win 3).blk t).view.emb (ix2 (0 : Fin 1) q)) = _
    refine congrArg (V c main_v12) ?_
    funext a; apply Fin.ext
    match a with
    | ⟨0, _⟩ => show win1_3.index t (0 : Fin 2) * 1 + 1 * 0 = 0; omega
    | ⟨1, _⟩ => show win1_3.index t (1 : Fin 2) * 64 + 1 * q.val = win1_5.index t (1 : Fin 2) * 64 + 1 * q.val; omega
  exact congrArg₂ (fun a b : EReal => a * b) (congrArg (fun z : EReal => max z (Ideal.ofBits .f32 0x00000000#32))
    (congrArg₂ (fun a b : EReal => a + b) (congrArg₂ (fun a b : EReal => a * b) hd (congrArg₂ (fun a b : EReal => a + b) ha hs)) hb)) hd

/-- An index of the array lies in point t's block of window 4 iff its row does. -/
theorem mem_blk1_4 (t : Fin cfg1.N) (i : S100000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v27_0).slice (win1_4.rect t)).set ↔ _
  rw [View.set_slice_whole, Rect.mem_set_unit]
  exact Iff.rfl

/-- The 25 blocks of 4000 rows of window 4 tile its array. -/
theorem cover1_4 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := onto1_4 ⟨(i 0).val / 4000, by omega⟩
  have q0 : win1_4.index t (0 : Fin 2) = (i 0).val / 4000 := congrFun ht 0
  have q1 : win1_4.index t (1 : Fin 2) = 0 := congrFun ht 1
  refine ⟨t, flush1_4 t, ?_⟩
  rw [mem_blk1_4]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 64 ≤ (i 1).val ∧ (i 1).val < win1_4.index t (1 : Fin 2) * 64 + 64; omega

/-- An index of the array lies in point t's block of window 5 iff its row does. -/
theorem mem_blk1_5 (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v27_1).slice (win1_5.rect t)).set ↔ _
  rw [View.set_slice_whole, Rect.mem_set_unit]
  exact Iff.rfl

/-- The 25 blocks of 4000 rows of window 5 tile its array. -/
theorem cover1_5 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := onto1_5 ⟨(i 0).val / 4000, by omega⟩
  have q0 : win1_5.index t (0 : Fin 2) = (i 0).val / 4000 := congrFun ht 0
  have q1 : win1_5.index t (1 : Fin 2) = 0 := congrFun ht 1
  refine ⟨t, flush1_5 t, ?_⟩
  rw [mem_blk1_5]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 64 ≤ (i 1).val ∧ (i 1).val < win1_5.index t (1 : Fin 2) * 64 + 64; omega

/-- The first output array after the region. -/
theorem finalize_array (c : Dev nD) :
    (dat1 V c).arrAt 4 cfg1.N = finalized (V c main_v26) (V c main_v16) (V c main_v11) (V c main_v12) :=
  (dat1 V c).arrAt_eq_of_cover 4 _ (fun t _ => flushed1_4 V c t) cover1_4

/-- The second output array after the region. -/
theorem finalize_scaled_array (c : Dev nD) :
    (dat1 V c).arrAt 5 cfg1.N = finalizedScaled (V c main_v26) (V c main_v16) (V c main_v11) (V c main_v12) :=
  (dat1 V c).arrAt_eq_of_cover 5 _ (fun t _ => flushed1_5 V c t) cover1_5

end Cert.KernelIdeal.Bridge

end
-- ==== Proof.Region2.lean ====
/-
  The aggregate region's output array, as a function of the arrays the region finds.

  Point t reads rows 4000·t … of the raw aggregate, of the scaled activations and of the scale column, and writes
  the same rows of the output: at (n, f) the output ends holding d(n)·(a(n,f) + s(n,f)).
-/
import proofs.«111905_j23845658427756_2_alg».proof.Proof.Gen.KernelIdeal.Frame
import proofs.«111905_j23845658427756_2_alg».proof.Proof.Payloads
import proofs.«111905_j23845658427756_2_alg».proof.Proof.Region0

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

namespace Cert.KernelIdeal.Bridge

open Cert.KernelIdeal Cert.KernelIdeal.Gen Idealize.ShloMosaic.ValueIdx

variable (V : (c : Dev nD) → (b : Ref sig .tc) → Buf (Elt Ideal) ((c : Thread nD τ).loc b))

/-- The row-scaled sum of two arrays. -/
def aggregated (a s : S100000x64.Idx → EReal) (d : S100000x1.Idx → EReal) : S100000x64.Idx → EReal :=
  fun i => d (ix2 (i 0) (0 : Fin 1)) * (a i + s i)

/-- The index maps over the grid: all four windows move together. -/
theorem maps2 : ∀ t : Fin cfg2.N, win2_0.index t (0 : Fin 2) = win2_3.index t (0 : Fin 2) ∧ win2_0.index t (1 : Fin 2) = 0
    ∧ win2_1.index t (0 : Fin 2) = win2_3.index t (0 : Fin 2) ∧ win2_1.index t (1 : Fin 2) = 0
    ∧ win2_2.index t (0 : Fin 2) = win2_3.index t (0 : Fin 2) ∧ win2_2.index t (1 : Fin 2) = 0
    ∧ win2_3.index t (1 : Fin 2) = 0 :=
  (by decide +kernel : ∀ t : Fin grid2.N, _)

theorem onto2_3 : ∀ q0 : Fin 25, ∃ t : Fin cfg2.N, win2_3.index t = ![q0.val, 0] :=
  (by decide +kernel : ∀ q0 : Fin 25, ∃ t : Fin grid2.N, win2_3.index t = ![q0.val, 0])

/-- What point t writes back is block t of the aggregated array. -/
theorem flushed2_3 (c : Dev nD) (t : Fin cfg2.N) :
    (dat2 V c).flushed 3 t = ((cfg2.win 3).blk t).view.read (Elt Ideal) (aggregated (V c main_v37) (V c main_v27_1) (V c main_v11)) := by
  show (cfg2.win 3).cut (grid2.coords t) ((dat2 V c).after 3 t) = _
  rw [after2_3]
  unfold out2_3
  rw [View.canon_unit_zero origin2]
  simp only [View.ld_unit_zero (S := S4000x64) origin2, View.ld_unit_zero (S := S4000x1) origin2]
  obtain ⟨e0, e1, e2, e3, e4, e5, e6⟩ := maps2 t
  funext j
  obtain ⟨p, q, rfl⟩ : ∃ (p : Fin 4000) (q : Fin 64), j = ix2 p q := ⟨j 0, j 1, eq_ix2 j⟩
  refine (aggregate_apply _ _ _ p q).trans ?_
  have ha : iblk2 V c 0 t (ix2 p q) = V c main_v37 (((cfg2.win 3).blk t).view.emb (ix2 p q)) := by
    show V c main_v37 (((cfg2.win 0).blk t).view.emb (ix2 p q)) = _
    refine congrArg (V c main_v37) ?_
    funext a; apply Fin.ext
    match a with
    | ⟨0, _⟩ => show win2_0.index t (0 : Fin 2) * 4000 + 1 * p.val = win2_3.index t (0 : Fin 2) * 4000 + 1 * p.val; omega
    | ⟨1, _⟩ => show win2_0.index t (1 : Fin 2) * 64 + 1 * q.val = win2_3.index t (1 : Fin 2) * 64 + 1 * q.val; omega
  have hs : iblk2 V c 1 t (ix2 p q) = V c main_v27_1 (((cfg2.win 3).blk t).view.emb (ix2 p q)) := by
    show V c main_v27_1 (((cfg2.win 1).blk t).view.emb (ix2 p q)) = _
    refine congrArg (V c main_v27_1) ?_
    funext a; apply Fin.ext
    match a with
    | ⟨0, _⟩ => show win2_1.index t (0 : Fin 2) * 4000 + 1 * p.val = win2_3.index t (0 : Fin 2) * 4000 + 1 * p.val; omega
    | ⟨1, _⟩ => show win2_1.index t (1 : Fin 2) * 64 + 1 * q.val = win2_3.index t (1 : Fin 2) * 64 + 1 * q.val; omega
  have hd : iblk2 V c 2 t (ix2 p (0 : Fin 1)) = V c main_v11 (ix2 ((((cfg2.win 3).blk t).view.emb (ix2 p q)) 0) (0 : Fin 1)) := by
    show V c main_v11 (((cfg2.win 2).blk t).view.emb (ix2 p (0 : Fin 1))) = _
    refine congrArg (V c main_v11) ?_
    funext a; apply Fin.ext
    match a with
    | ⟨0, _⟩ => show win2_2.index t (0 : Fin 2) * 4000 + 1 * p.val = win2_3.index t (0 : Fin 2) * 4000 + 1 * p.val; omega
    | ⟨1, _⟩ => show win2_2.index t (1 : Fin 2) * 1 + 1 * 0 = 0; omega
  exact congrArg₂ (fun a b : EReal => a * b) hd (congrArg₂ (fun a b : EReal => a + b) ha hs)

/-- An index of the array lies in point t's block of window 3 iff its row does. -/
theorem mem_blk2_3 (t : Fin cfg2.N) (i : S100000x64.Idx) :
    i ∈ ((cfg2.win 3).blk t).view.set ↔ ∀ a : Fin 2, win2_3.index t a * S4000x64.size a ≤ (i a).val ∧ (i a).val < win2_3.index t a * S4000x64.size a + S4000x64.size a := by
  show i ∈ ((View.whole main_v38).slice (win2_3.rect t)).set ↔ _
  rw [View.set_slice_whole, Rect.mem_set_unit]
  exact Iff.rfl

/-- The 25 blocks of 4000 rows of window 3 tile its array. -/
theorem cover2_3 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := onto2_3 ⟨(i 0).val / 4000, by omega⟩
  have q0 : win2_3.index t (0 : Fin 2) = (i 0).val / 4000 := congrFun ht 0
  have q1 : win2_3.index t (1 : Fin 2) = 0 := congrFun ht 1
  refine ⟨t, flush2_3 t, ?_⟩
  rw [mem_blk2_3]
  intro a
  match a with
  | ⟨0, _⟩ => show win2_3.index t (0 : Fin 2) * 4000 ≤ (i 0).val ∧ (i 0).val < win2_3.index t (0 : Fin 2) * 4000 + 4000; omega
  | ⟨1, _⟩ => show win2_3.index t (1 : Fin 2) * 64 ≤ (i 1).val ∧ (i 1).val < win2_3.index t (1 : Fin 2) * 64 + 64; omega

/-- The output array after the region. -/
theorem aggregate_array (c : Dev nD) :
    (dat2 V c).arrAt 3 cfg2.N = aggregated (V c main_v37) (V c main_v27_1) (V c main_v11) :=
  (dat2 V c).arrAt_eq_of_cover 3 _ (fun t _ => flushed2_3 V c t) cover2_3

end Cert.KernelIdeal.Bridge

end
-- ==== Proof.Region3.lean ====
/-
  The decode region's three output arrays, as functions of the arrays the region finds.

  Point t reads rows 4000·t … of the aggregated activations g and of the noise, and the whole weight matrices and
  bias rows; it writes the same rows of the three outputs. At (n, f):
    mean:    ∑ₖ g(n,k)·wmu(k,f) + bmu(f),      log-variance: the same with wlv, blv,
    reconstruction: logistic (∑ₖ (mean(n,k) + eps(n,k)·exp logvar(n,k))·wdec(k,f) + bdec(f)).
-/
import proofs.«111905_j23845658427756_2_alg».proof.Proof.Gen.KernelIdeal.Frame
import proofs.«111905_j23845658427756_2_alg».proof.Proof.Payloads
import proofs.«111905_j23845658427756_2_alg».proof.Proof.Region0

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

namespace Cert.KernelIdeal.Bridge

open Cert.KernelIdeal Cert.KernelIdeal.Gen Idealize.ShloMosaic.ValueIdx

variable (V : (c : Dev nD) → (b : Ref sig .tc) → Buf (Elt Ideal) ((c : Thread nD τ).loc b))

/-- A product's rows plus a bias row. -/
def affineRows (g : S100000x64.Idx → EReal) (w : S64x64.Idx → EReal) (b : S1x64.Idx → EReal) : S100000x64.Idx → EReal :=
  fun i => (∑ k : Fin 64, g (ix2 (i 0) k) * w (ix2 k (i 1))) + b (ix2 (0 : Fin 1) (i 1))

/-- The sampled latent through the decoder, squashed. -/
def decoded (mu lv eps : S100000x64.Idx → EReal) (wdec : S64x128.Idx → EReal) (bdec : S1x128.Idx → EReal) : S100000x128.Idx → EReal :=
  fun i => Ideal.logistic ((∑ k : Fin 64, (mu (ix2 (i 0) k) + eps (ix2 (i 0) k) * Ideal.exp (lv (ix2 (i 0) k))) * wdec (ix2 k (i 1)))
    + bdec (ix2 (0 : Fin 1) (i 1)))

/-- The index maps over the grid: the row-blocked windows move together, the weights and biases stay. -/
theorem maps3 : ∀ t : Fin cfg3.N, win3_0.index t (0 : Fin 2) = win3_8.index t (0 : Fin 2) ∧ win3_0.index t (1 : Fin 2) = 0
    ∧ win3_1.index t (0 : Fin 2) = win3_8.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (1 : Fin 2) = 0
    ∧ win3_9.index t (0 : Fin 2) = win3_8.index t (0 : Fin 2) ∧ win3_9.index t (1 : Fin 2) = 0
    ∧ win3_10.index t (0 : Fin 2) = win3_8.index t (0 : Fin 2) ∧ win3_10.index t (1 : Fin 2) = 0 :=
  (by decide +kernel : ∀ t : Fin grid3.N, _)

theorem onto3_8 : ∀ q0 : Fin 25, ∃ t : Fin cfg3.N, win3_8.index t = ![q0.val, 0] :=
  (by decide +kernel : ∀ q0 : Fin 25, ∃ t : Fin grid3.N, win3_8.index t = ![q0.val, 0])

theorem onto3_9 : ∀ q0 : Fin 25, ∃ t : Fin cfg3.N, win3_9.index t = ![q0.val, 0] :=
  (by decide +kernel : ∀ q0 : Fin 25, ∃ t : Fin grid3.N, win3_9.index t = ![q0.val, 0])

theorem onto3_10 : ∀ q0 : Fin 25, ∃ t : Fin cfg3.N, win3_10.index t = ![q0.val, 0] :=
  (by decide +kernel : ∀ q0 : Fin 25, ∃ t : Fin grid3.N, win3_10.index t = ![q0.val, 0])

/-- What point t writes back to the mean is block t of the affine rows. -/
theorem flushed3_8 (c : Dev nD) (t : Fin cfg3.N) :
    (dat3 V c).flushed 8 t = ((cfg3.win 8).blk t).view.read (Elt Ideal) (affineRows (V c main_v38) (V c main_arg5) (V c main_v13)) := by
  show (cfg3.win 8).cut (grid3.coords t) ((dat3 V c).after 8 t) = _
  rw [after3_8]
  unfold out3_8
  rw [View.canon_unit_zero origin2]
  simp only [View.ld_unit_zero (S := S4000x64) origin2, View.ld_unit_zero (S := S64x64) origin2, View.ld_unit_zero (S := S1x64) origin2]
  obtain ⟨e0, e1, e2, e3, e4, e5, e6, e7, e8, e9, e10, e11, e12, e13, e14, e15, e16, e17, e18, e19, e20⟩ := maps3 t
  funext j
  obtain ⟨p, q, rfl⟩ : ∃ (p : Fin 4000) (q : Fin 64), j = ix2 p q := ⟨j 0, j 1, eq_ix2 j⟩
  refine (mean_apply _ _ _ p q).trans ?_
  have hg : ∀ k : Fin 64, iblk3 V c 0 t (ix2 p k) = V c main_v38 (ix2 ((((cfg3.win 8).blk t).view.emb (ix2 p q)) 0) k) := fun k => by
    show V c main_v38 (((cfg3.win 0).blk t).view.emb (ix2 p k)) = _
    refine congrArg (V c main_v38) ?_
    funext a; apply Fin.ext
    match a with
    | ⟨0, _⟩ => show win3_0.index t (0 : Fin 2) * 4000 + 1 * p.val = win3_8.index t (0 : Fin 2) * 4000 + 1 * p.val; omega
    | ⟨1, _⟩ => show win3_0.index t (1 : Fin 2) * 64 + 1 * k.val = k.val; omega
  have hw : ∀ k : Fin 64, iblk3 V c 2 t (ix2 k q) = V c main_arg5 (ix2 k ((((cfg3.win 8).blk t).view.emb (ix2 p q)) 1)) := fun k => by
    show V c main_arg5 (((cfg3.win 2).blk t).view.emb (ix2 k q)) = _
    refine congrArg (V c main_arg5) ?_
    funext a; apply Fin.ext
    match a with
    | ⟨0, _⟩ => show win3_2.index t (0 : Fin 2) * 64 + 1 * k.val = k.val; omega
    | ⟨1, _⟩ => show win3_2.index t (1 : Fin 2) * 64 + 1 * q.val = win3_8.index t (1 : Fin 2) * 64 + 1 * q.val; omega
  have hb : iblk3 V c 3 t (ix2 (0 : Fin 1) q) = V c main_v13 (ix2 (0 : Fin 1) ((((cfg3.win 8).blk t).view.emb (ix2 p q)) 1)) := by
    show V c main_v13 (((cfg3.win 3).blk t).view.emb (ix2 (0 : Fin 1) q)) = _
    refine congrArg (V c main_v13) ?_
    funext a; apply Fin.ext
    match a with
    | ⟨0, _⟩ => show win3_3.index t (0 : Fin 2) * 1 + 1 * 0 = 0; omega
    | ⟨1, _⟩ => show win3_3.index t (1 : Fin 2) * 64 + 1 * q.val = win3_8.index t (1 : Fin 2) * 64 + 1 * q.val; omega
  exact congrArg₂ (fun a b : EReal => a + b) (Finset.sum_congr rfl fun k _ => congrArg₂ (fun a b : EReal => a * b) (hg k) (hw k)) hb

/-- What point t writes back to the log-variance is block t of the affine rows with the other weights. -/
theorem flushed3_9 (c : Dev nD) (t : Fin cfg3.N) :
    (dat3 V c).flushed 9 t = ((cfg3.win 9).blk t).view.read (Elt Ideal) (affineRows (V c main_v38) (V c main_arg7) (V c main_v14)) := by
  show (cfg3.win 9).cut (grid3.coords t) ((dat3 V c).after 9 t) = _
  rw [after3_9]
  unfold out3_9
  rw [View.canon_unit_zero origin2]
  simp only [View.ld_unit_zero (S := S4000x64) origin2, View.ld_unit_zero (S := S64x64) origin2, View.ld_unit_zero (S := S1x64) origin2]
  obtain ⟨e0, e1, e2, e3, e4, e5, e6, e7, e8, e9, e10, e11, e12, e13, e14, e15, e16, e17, e18, e19, e20⟩ := maps3 t
  funext j
  obtain ⟨p, q, rfl⟩ : ∃ (p : Fin 4000) (q : Fin 64), j = ix2 p q := ⟨j 0, j 1, eq_ix2 j⟩
  refine (logvar_apply _ _ _ p q).trans ?_
  have hg : ∀ k : Fin 64, iblk3 V c 0 t (ix2 p k) = V c main_v38 (ix2 ((((cfg3.win 9).blk t).view.emb (ix2 p q)) 0) k) := fun k => by
    show V c main_v38 (((cfg3.win 0).blk t).view.emb (ix2 p k)) = _
    refine congrArg (V c main_v38) ?_
    funext a; apply Fin.ext
    match a with
    | ⟨0, _⟩ => show win3_0.index t (0 : Fin 2) * 4000 + 1 * p.val = win3_9.index t (0 : Fin 2) * 4000 + 1 * p.val; omega
    | ⟨1, _⟩ => show win3_0.index t (1 : Fin 2) * 64 + 1 * k.val = k.val; omega
  have hw : ∀ k : Fin 64, iblk3 V c 4 t (ix2 k q) = V c main_arg7 (ix2 k ((((cfg3.win 9).blk t).view.emb (ix2 p q)) 1)) := fun k => by
    show V c main_arg7 (((cfg3.win 4).blk t).view.emb (ix2 k q)) = _
    refine congrArg (V c main_arg7) ?_
    funext a; apply Fin.ext
    match a with
    | ⟨0, _⟩ => show win3_4.index t (0 : Fin 2) * 64 + 1 * k.val = k.val; omega
    | ⟨1, _⟩ => show win3_4.index t (1 : Fin 2) * 64 + 1 * q.val = win3_9.index t (1 : Fin 2) * 64 + 1 * q.val; omega
  have hb : iblk3 V c 5 t (ix2 (0 : Fin 1) q) = V c main_v14 (ix2 (0 : Fin 1) ((((cfg3.win 9).blk t).view.emb (ix2 p q)) 1)) := by
    show V c main_v14 (((cfg3.win 5).blk t).view.emb (ix2 (0 : Fin 1) q)) = _
    refine congrArg (V c main_v14) ?_
    funext a; apply Fin.ext
    match a with
    | ⟨0, _⟩ => show win3_5.index t (0 : Fin 2) * 1 + 1 * 0 = 0; omega
    | ⟨1, _⟩ => show win3_5.index t (1 : Fin 2) * 64 + 1 * q.val = win3_9.index t (1 : Fin 2) * 64 + 1 * q.val; omega
  exact congrArg₂ (fun a b : EReal => a + b) (Finset.sum_congr rfl fun k _ => congrArg₂ (fun a b : EReal => a * b) (hg k) (hw k)) hb

/-- What point t writes back to the reconstruction is block t of the decoded array of the two affine arrays. -/
theorem flushed3_10 (c : Dev nD) (t : Fin cfg3.N) :
    (dat3 V c).flushed 10 t = ((cfg3.win 10).blk t).view.read (Elt Ideal)
      (decoded (affineRows (V c main_v38) (V c main_arg5) (V c main_v13)) (affineRows (V c main_v38) (V c main_arg7) (V c main_v14))
        (V c main_arg2) (V c main_arg9) (V c main_v15)) := by
  show (cfg3.win 10).cut (grid3.coords t) ((dat3 V c).after 10 t) = _
  rw [after3_10]
  unfold out3_10
  rw [View.canon_unit_zero origin2]
  simp only [View.ld_unit_zero (S := S4000x64) origin2, View.ld_unit_zero (S := S64x64) origin2, View.ld_unit_zero (S := S1x64) origin2,
    View.ld_unit_zero (S := S64x128) origin2, View.ld_unit_zero (S := S1x128) origin2]
  obtain ⟨e0, e1, e2, e3, e4, e5, e6, e7, e8, e9, e10, e11, e12, e13, e14, e15, e16, e17, e18, e19, e20⟩ := maps3 t
  funext j
  obtain ⟨p, q, rfl⟩ : ∃ (p : Fin 4000) (q : Fin 128), j = ix2 p q := ⟨j 0, j 1, eq_ix2 j⟩
  refine (recon_apply _ _ _ _ _ _ _ _ p q).trans ?_
  have hg : ∀ k : Fin 64, iblk3 V c 0 t (ix2 p k) = V c main_v38 (ix2 ((((cfg3.win 10).blk t).view.emb (ix2 p q)) 0) k) := fun k => by
    show V c main_v38 (((cfg3.win 0).blk t).view.emb (ix2 p k)) = _
    refine congrArg (V c main_v38) ?_
    funext a; apply Fin.ext
    match a with
    | ⟨0, _⟩ => show win3_0.index t (0 : Fin 2) * 4000 + 1 * p.val = win3_10.index t (0 : Fin 2) * 4000 + 1 * p.val; omega
    | ⟨1, _⟩ => show win3_0.index t (1 : Fin 2) * 64 + 1 * k.val = k.val; omega
  have he : ∀ k : Fin 64, iblk3 V c 1 t (ix2 p k) = V c main_arg2 (ix2 ((((cfg3.win 10).blk t).view.emb (ix2 p q)) 0) k) := fun k => by
    show V c main_arg2 (((cfg3.win 1).blk t).view.emb (ix2 p k)) = _
    refine congrArg (V c main_arg2) ?_
    funext a; apply Fin.ext
    match a with
    | ⟨0, _⟩ => show win3_1.index t (0 : Fin 2) * 4000 + 1 * p.val = win3_10.index t (0 : Fin 2) * 4000 + 1 * p.val; omega
    | ⟨1, _⟩ => show win3_1.index t (1 : Fin 2) * 64 + 1 * k.val = k.val; omega
  have hwmu : ∀ (k : Fin 64) (k2 : Fin 64), iblk3 V c 2 t (ix2 k k2) = V c main_arg5 (ix2 k k2) := fun k k2 => by
    show V c main_arg5 (((cfg3.win 2).blk t).view.emb (ix2 k k2)) = _
    refine congrArg (V c main_arg5) ?_
    funext a; apply Fin.ext
    match a with
    | ⟨0, _⟩ => show win3_2.index t (0 : Fin 2) * 64 + 1 * k.val = k.val; omega
    | ⟨1, _⟩ => show win3_2.index t (1 : Fin 2) * 64 + 1 * k2.val = k2.val; omega
  have hbmu : ∀ k2 : Fin 64, iblk3 V c 3 t (ix2 (0 : Fin 1) k2) = V c main_v13 (ix2 (0 : Fin 1) k2) := fun k2 => by
    show V c main_v13 (((cfg3.win 3).blk t).view.emb (ix2 (0 : Fin 1) k2)) = _
    refine congrArg (V c main_v13) ?_
    funext a; apply Fin.ext
    match a with
    | ⟨0, _⟩ => show win3_3.index t (0 : Fin 2) * 1 + 1 * 0 = 0; omega
    | ⟨1, _⟩ => show win3_3.index t (1 : Fin 2) * 64 + 1 * k2.val = k2.val; omega
  have hwlv : ∀ (k : Fin 64) (k2 : Fin 64), iblk3 V c 4 t (ix2 k k2) = V c main_arg7 (ix2 k k2) := fun k k2 => by
    show V c main_arg7 (((cfg3.win 4).blk t).view.emb (ix2 k k2)) = _
    refine congrArg (V c main_arg7) ?_
    funext a; apply Fin.ext
    match a with
    | ⟨0, _⟩ => show win3_4.index t (0 : Fin 2) * 64 + 1 * k.val = k.val; omega
    | ⟨1, _⟩ => show win3_4.index t (1 : Fin 2) * 64 + 1 * k2.val = k2.val; omega
  have hblv : ∀ k2 : Fin 64, iblk3 V c 5 t (ix2 (0 : Fin 1) k2) = V c main_v14 (ix2 (0 : Fin 1) k2) := fun k2 => by
    show V c main_v14 (((cfg3.win 5).blk t).view.emb (ix2 (0 : Fin 1) k2)) = _
    refine congrArg (V c main_v14) ?_
    funext a; apply Fin.ext
    match a with
    | ⟨0, _⟩ => show win3_5.index t (0 : Fin 2) * 1 + 1 * 0 = 0; omega
    | ⟨1, _⟩ => show win3_5.index t (1 : Fin 2) * 64 + 1 * k2.val = k2.val; omega
  have hwd : ∀ k : Fin 64, iblk3 V c 6 t (ix2 k q) = V c main_arg9 (ix2 k ((((cfg3.win 10).blk t).view.emb (ix2 p q)) 1)) := fun k => by
    show V c main_arg9 (((cfg3.win 6).blk t).view.emb (ix2 k q)) = _
    refine congrArg (V c main_arg9) ?_
    funext a; apply Fin.ext
    match a with
    | ⟨0, _⟩ => show win3_6.index t (0 : Fin 2) * 64 + 1 * k.val = k.val; omega
    | ⟨1, _⟩ => show win3_6.index t (1 : Fin 2) * 128 + 1 * q.val = win3_10.index t (1 : Fin 2) * 128 + 1 * q.val; omega
  have hbd : iblk3 V c 7 t (ix2 (0 : Fin 1) q) = V c main_v15 (ix2 (0 : Fin 1) ((((cfg3.win 10).blk t).view.emb (ix2 p q)) 1)) := by
    show V c main_v15 (((cfg3.win 7).blk t).view.emb (ix2 (0 : Fin 1) q)) = _
    refine congrArg (V c main_v15) ?_
    funext a; apply Fin.ext
    match a with
    | ⟨0, _⟩ => show win3_7.index t (0 : Fin 2) * 1 + 1 * 0 = 0; omega
    | ⟨1, _⟩ => show win3_7.index t (1 : Fin 2) * 128 + 1 * q.val = win3_10.index t (1 : Fin 2) * 128 + 1 * q.val; omega
  have hmu : ∀ k : Fin 64, k3_pay2 (F := Ideal) (iblk3 V c 0 t) (iblk3 V c 2 t) (iblk3 V c 3 t) (ix2 p k)
      = affineRows (V c main_v38) (V c main_arg5) (V c main_v13) (ix2 ((((cfg3.win 10).blk t).view.emb (ix2 p q)) 0) k) := fun k =>
    (mean_apply _ _ _ p k).trans
      (congrArg₂ (fun a b : EReal => a + b) (Finset.sum_congr rfl fun k' _ => congrArg₂ (fun a b : EReal => a * b) (hg k') (hwmu k' k)) (hbmu k))
  have hlv : ∀ k : Fin 64, k3_pay3 (F := Ideal) (iblk3 V c 0 t) (iblk3 V c 4 t) (iblk3 V c 5 t) (ix2 p k)
      = affineRows (V c main_v38) (V c main_arg7) (V c main_v14) (ix2 ((((cfg3.win 10).blk t).view.emb (ix2 p q)) 0) k) := fun k =>
    (logvar_apply _ _ _ p k).trans
      (congrArg₂ (fun a b : EReal => a + b) (Finset.sum_congr rfl fun k' _ => congrArg₂ (fun a b : EReal => a * b) (hg k') (hwlv k' k)) (hblv k))
  exact congrArg Ideal.logistic (congrArg₂ (fun a b : EReal => a + b)
    (Finset.sum_congr rfl fun k _ => congrArg₂ (fun a b : EReal => a * b)
      (congrArg₂ (fun a b : EReal => a + b) (hmu k) (congrArg₂ (fun a b : EReal => a * b) (he k) (congrArg Ideal.exp (hlv k)))) (hwd k)) hbd)

/-- An index of the array lies in point t's block of window 8 iff its row does. -/
theorem mem_blk3_8 (t : Fin cfg3.N) (i : S100000x64.Idx) :
    i ∈ ((cfg3.win 8).blk t).view.set ↔ ∀ a : Fin 2, win3_8.index t a * S4000x64.size a ≤ (i a).val ∧ (i a).val < win3_8.index t a * S4000x64.size a + S4000x64.size a := by
  show i ∈ ((View.whole main_v39_0).slice (win3_8.rect t)).set ↔ _
  rw [View.set_slice_whole, Rect.mem_set_unit]
  exact Iff.rfl

/-- The 25 blocks of 4000 rows of window 8 tile its array. -/
theorem cover3_8 (i : S100000x64.Idx) : ∃ t : Fin cfg3.N, (cfg3.win 8).flush t = true ∧ i ∈ ((cfg3.win 8).blk t).view.set := by
  have hi0 : (i 0).val < 100000 := (i 0).isLt
  have hi1 : (i 1).val < 64 := (i 1).isLt
  obtain ⟨t, ht⟩ := onto3_8 ⟨(i 0).val / 4000, by omega⟩
  have q0 : win3_8.index t (0 : Fin 2) = (i 0).val / 4000 := congrFun ht 0
  have q1 : win3_8.index t (1 : Fin 2) = 0 := congrFun ht 1
  refine ⟨t, flush3_8 t, ?_⟩
  rw [mem_blk3_8]
  intro a
  match a with
  | ⟨0, _⟩ => show win3_8.index t (0 : Fin 2) * 4000 ≤ (i 0).val ∧ (i 0).val < win3_8.index t (0 : Fin 2) * 4000 + 4000; omega
  | ⟨1, _⟩ => show win3_8.index t (1 : Fin 2) * 64 ≤ (i 1).val ∧ (i 1).val < win3_8.index t (1 : Fin 2) * 64 + 64; omega

/-- An index of the array lies in point t's block of window 9 iff its row does. -/
theorem mem_blk3_9 (t : Fin cfg3.N) (i : S100000x64.Idx) :
    i ∈ ((cfg3.win 9).blk t).view.set ↔ ∀ a : Fin 2, win3_9.index t a * S4000x64.size a ≤ (i a).val ∧ (i a).val < win3_9.index t a * S4000x64.size a + S4000x64.size a := by
  show i ∈ ((View.whole main_v39_1).slice (win3_9.rect t)).set ↔ _
  rw [View.set_slice_whole, Rect.mem_set_unit]
  exact Iff.rfl

/-- The 25 blocks of 4000 rows of window 9 tile its array. -/
theorem cover3_9 (i : S100000x64.Idx) : ∃ t : Fin cfg3.N, (cfg3.win 9).flush t = true ∧ i ∈ ((cfg3.win 9).blk t).view.set := by
  have hi0 : (i 0).val < 100000 := (i 0).isLt
  have hi1 : (i 1).val < 64 := (i 1).isLt
  obtain ⟨t, ht⟩ := onto3_9 ⟨(i 0).val / 4000, by omega⟩
  have q0 : win3_9.index t (0 : Fin 2) = (i 0).val / 4000 := congrFun ht 0
  have q1 : win3_9.index t (1 : Fin 2) = 0 := congrFun ht 1
  refine ⟨t, flush3_9 t, ?_⟩
  rw [mem_blk3_9]
  intro a
  match a with
  | ⟨0, _⟩ => show win3_9.index t (0 : Fin 2) * 4000 ≤ (i 0).val ∧ (i 0).val < win3_9.index t (0 : Fin 2) * 4000 + 4000; omega
  | ⟨1, _⟩ => show win3_9.index t (1 : Fin 2) * 64 ≤ (i 1).val ∧ (i 1).val < win3_9.index t (1 : Fin 2) * 64 + 64; omega

/-- An index of the array lies in point t's block of window 10 iff its row does. -/
theorem mem_blk3_10 (t : Fin cfg3.N) (i : S100000x128.Idx) :
    i ∈ ((cfg3.win 10).blk t).view.set ↔ ∀ a : Fin 2, win3_10.index t a * S4000x128.size a ≤ (i a).val ∧ (i a).val < win3_10.index t a * S4000x128.size a + S4000x128.size a := by
  show i ∈ ((View.whole main_v39_2).slice (win3_10.rect t)).set ↔ _
  rw [View.set_slice_whole, Rect.mem_set_unit]
  exact Iff.rfl

/-- The 25 blocks of 4000 rows of window 10 tile its array. -/
theorem cover3_10 (i : S100000x128.Idx) : ∃ t : Fin cfg3.N, (cfg3.win 10).flush t = true ∧ i ∈ ((cfg3.win 10).blk t).view.set := by
  have hi0 : (i 0).val < 100000 := (i 0).isLt
  have hi1 : (i 1).val < 128 := (i 1).isLt
  obtain ⟨t, ht⟩ := onto3_10 ⟨(i 0).val / 4000, by omega⟩
  have q0 : win3_10.index t (0 : Fin 2) = (i 0).val / 4000 := congrFun ht 0
  have q1 : win3_10.index t (1 : Fin 2) = 0 := congrFun ht 1
  refine ⟨t, flush3_10 t, ?_⟩
  rw [mem_blk3_10]
  intro a
  match a with
  | ⟨0, _⟩ => show win3_10.index t (0 : Fin 2) * 4000 ≤ (i 0).val ∧ (i 0).val < win3_10.index t (0 : Fin 2) * 4000 + 4000; omega
  | ⟨1, _⟩ => show win3_10.index t (1 : Fin 2) * 128 ≤ (i 1).val ∧ (i 1).val < win3_10.index t (1 : Fin 2) * 128 + 128; omega

/-- The mean array after the region. -/
theorem mean_array (c : Dev nD) :
    (dat3 V c).arrAt 8 cfg3.N = affineRows (V c main_v38) (V c main_arg5) (V c main_v13) :=
  (dat3 V c).arrAt_eq_of_cover 8 _ (fun t _ => flushed3_8 V c t) cover3_8

/-- The log-variance array after the region. -/
theorem logvar_array (c : Dev nD) :
    (dat3 V c).arrAt 9 cfg3.N = affineRows (V c main_v38) (V c main_arg7) (V c main_v14) :=
  (dat3 V c).arrAt_eq_of_cover 9 _ (fun t _ => flushed3_9 V c t) cover3_9

/-- The reconstruction array after the region. -/
theorem recon_array (c : Dev nD) :
    (dat3 V c).arrAt 10 cfg3.N = decoded (affineRows (V c main_v38) (V c main_arg5) (V c main_v13))
      (affineRows (V c main_v38) (V c main_arg7) (V c main_v14)) (V c main_arg2) (V c main_arg9) (V c main_v15) :=
  (dat3 V c).arrAt_eq_of_cover 10 _ (fun t _ => flushed3_10 V c t) cover3_10

end Cert.KernelIdeal.Bridge

end
-- ==== Proof.KernelValue.lean ====
/-
  The kernel program's three results as functions of its arguments.

  Walking the boundary contents back through the program: the first stretch of host operations computes, from the
  edge list, the inverse square root of each node's degree (counting a self-loop) as a column d, and lays the four
  bias vectors out as rows. The first region writes s₁ = (x·W₁) scaled by d; the next stretch gathers the rows of s₁
  at the edges' sources and adds them up at the edges' targets; the second region writes h₁ = relu(d·(that + s₁) + b₁)
  and s₂ = h₁ scaled by d; the third stretch does the same gather and add on s₂; the third region writes
  g = d·(that + s₂); the last region writes mean = g·Wmu + bmu, logvar = g·Wlv + blv and
  logistic((mean + eps·exp logvar)·Wdec + bdec). Every other buffer is carried unchanged across a stretch that does
  not write it and across a region that only reads it.
-/
import proofs.«111905_j23845658427756_2_alg».proof.Proof.Gen.KernelIdeal.Frame
import proofs.«111905_j23845658427756_2_alg».proof.Proof.Region1
import proofs.«111905_j23845658427756_2_alg».proof.Proof.Region2
import proofs.«111905_j23845658427756_2_alg».proof.Proof.Region3
import Idealize.ShloMosaic.Lib.StableHlo.Run

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

namespace Cert.KernelIdeal.Bridge

open Cert.KernelIdeal Cert.KernelIdeal.Gen Idealize.ShloMosaic.ValueIdx

/-! ## The host stretches' functions -/

/-- The edges' targets, as a column of start indices. -/
def dstIdx (ei : IVec S2x1600000 32) : IVec S1600000x1 32 :=
  broadcastInDim S1600000x1 ![0] bcast_S1600000_S1600000x1_0
    (shapeCast S1600000 (extractStridedSlice S1x1600000 ![1, 0] ei slices_S2x1600000_S1x1600000_1_0) shapeCasts_S1x1600000_S1600000)

/-- The edges' sources. -/
def srcRaw (ei : IVec S2x1600000 32) : IVec S1600000 32 :=
  shapeCast S1600000 (extractStridedSlice S1x1600000 ![0, 0] ei slices_S2x1600000_S1x1600000_0_0) shapeCasts_S1x1600000_S1600000

/-- The edges' sources with a negative index wrapped by the node count, as a column of start indices. -/
def srcIdx (ei : IVec S2x1600000 32) : IVec S1600000x1 32 :=
  broadcastInDim S1600000x1 ![0] bcast_S1600000_S1600000x1_0
    (select (cmpi .slt (srcRaw ei) (broadcastInDim S1600000 ![] bcast_S_S1600000 (constantI S_ 32 0#32)))
      (addi (srcRaw ei) (broadcastInDim S1600000 ![] bcast_S_S1600000 (constantI S_ 32 100000#32))) (srcRaw ei))

/-- The inverse square root of (in-degree + 1), as a column. -/
def degScale (ei : IVec S2x1600000 32) : S100000x1.Idx → EReal :=
  broadcastInDim S100000x1 ![0] bcast_S100000_S100000x1_0
    (Host.rsqrt (addf (Host.scatterAdd scatter_S100000_S1600000x1_S1600000_n_0_0_1
        (broadcastInDim S100000 ![] bcast_S_S100000 (constant (F := Ideal) S_ .f32 0x00000000#32)) (dstIdx ei)
        (broadcastInDim S1600000 ![] bcast_S_S1600000 (constant (F := Ideal) S_ .f32 0x3F800000#32)))
      (broadcastInDim S100000 ![] bcast_S_S100000 (constant (F := Ideal) S_ .f32 0x3F800000#32))))

/-- The rows of u at the edges' sources, added up at the edges' targets. -/
def edgeSum (ei : IVec S2x1600000 32) (u : S100000x64.Idx → EReal) : S100000x64.Idx → EReal :=
  Host.scatterAdd scatter_S100000x64_S1600000x1_S1600000x64_1_0_0_1
    (broadcastInDim S100000x64 ![] bcast_S_S100000x64 (constant (F := Ideal) S_ .f32 0x00000000#32)) (dstIdx ei)
    (Host.gather gather_S100000x64_S1600000x1_S1600000x64_1_0_n_n_0_1_164 u (srcIdx ei))

/-- A bias vector as a row. -/
def biasRow64 (b : S64.Idx → EReal) : S1x64.Idx → EReal := broadcastInDim S1x64 ![1] bcast_S64_S1x64_1 b
/-- A bias vector as a row. -/
def biasRow128 (b : S128.Idx → EReal) : S1x128.Idx → EReal := broadcastInDim S1x128 ![1] bcast_S128_S1x128_1 b

/-! ## The kernel's arrays, region by region -/

/-- First region: the transformed features scaled by d. -/
def kScaled (x : S100000x128.Idx → EReal) (ei : IVec S2x1600000 32) (w1 : S128x64.Idx → EReal) : S100000x64.Idx → EReal :=
  scaledRows x w1 (degScale ei)
/-- Second region, second output: the first layer's activations scaled by d. -/
def kHidScaled (x : S100000x128.Idx → EReal) (ei : IVec S2x1600000 32) (w1 : S128x64.Idx → EReal) (b1 : S64.Idx → EReal) :
    S100000x64.Idx → EReal :=
  finalizedScaled (edgeSum ei (kScaled x ei w1)) (kScaled x ei w1) (degScale ei) (biasRow64 b1)
/-- Third region: the normalised aggregation of the first layer's activations. -/
def kAgg (x : S100000x128.Idx → EReal) (ei : IVec S2x1600000 32) (w1 : S128x64.Idx → EReal) (b1 : S64.Idx → EReal) :
    S100000x64.Idx → EReal :=
  aggregated (edgeSum ei (kHidScaled x ei w1 b1)) (kHidScaled x ei w1 b1) (degScale ei)

variable (m : (ℓ : Loc nD τ sig) → Buf (Elt Ideal) ℓ) (ρ : Dev nD → PrngReg)

/-- A stretch of host operations leaves a buffer it does not write as it was. -/
macro "host_keep " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## After the first stretch -/

/-- An argument the first stretch leaves alone. -/
theorem at1_arg0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := by host_keep hostOps0

/-- An argument the first stretch leaves alone. -/
theorem at1_arg3 (c : Dev nD) : W1 m ρ c (Proc.devRef .tc main_arg3) = W0 m ρ c (Proc.devRef .tc main_arg3) :=
  calc W1 m ρ c (Proc.devRef .tc main_arg3)
    _ = W0 m ρ c (Proc.devRef .tc main_arg3) := by host_keep hostOps0

/-- The edges' targets after the first stretch. -/
theorem at1_v3 (c : Dev nD) : W1 m ρ c (Proc.devRef .tc main_v3)
    = shapeCast S1600000 (extractStridedSlice S1x1600000 ![1, 0] (m ((c : Thread nD τ).loc main_arg1)) slices_S2x1600000_S1x1600000_1_0) shapeCasts_S1x1600000_S1600000 := by
  show StableHlo.after hostOps0 (W0 m ρ c) (Proc.devRef .tc main_v3) = _
  after_results
  rfl

/-- The edges' sources after the first stretch. -/
theorem at1_v1 (c : Dev nD) : W1 m ρ c (Proc.devRef .tc main_v1) = srcRaw (m ((c : Thread nD τ).loc main_arg1)) := by
  show StableHlo.after hostOps0 (W0 m ρ c) (Proc.devRef .tc main_v1) = _
  after_results
  rfl

/-- The scale column after the first stretch. -/
theorem at1_v11 (c : Dev nD) : W1 m ρ c (Proc.devRef .tc main_v11) = degScale (m ((c : Thread nD τ).loc main_arg1)) := by
  show StableHlo.after hostOps0 (W0 m ρ c) (Proc.devRef .tc main_v11) = _
  after_results
  rfl

/-- The four bias rows after the first stretch. -/
theorem at1_v12 (c : Dev nD) : W1 m ρ c (Proc.devRef .tc main_v12) = biasRow64 (m ((c : Thread nD τ).loc main_arg4)) := by
  show StableHlo.after hostOps0 (W0 m ρ c) (Proc.devRef .tc main_v12) = _
  after_results
  rfl
theorem at1_v13 (c : Dev nD) : W1 m ρ c (Proc.devRef .tc main_v13) = biasRow64 (m ((c : Thread nD τ).loc main_arg6)) := by
  show StableHlo.after hostOps0 (W0 m ρ c) (Proc.devRef .tc main_v13) = _
  after_results
  rfl
theorem at1_v14 (c : Dev nD) : W1 m ρ c (Proc.devRef .tc main_v14) = biasRow64 (m ((c : Thread nD τ).loc main_arg8)) := by
  show StableHlo.after hostOps0 (W0 m ρ c) (Proc.devRef .tc main_v14) = _
  after_results
  rfl
theorem at1_v15 (c : Dev nD) : W1 m ρ c (Proc.devRef .tc main_v15) = biasRow128 (m ((c : Thread nD τ).loc main_arg10)) := by
  show StableHlo.after hostOps0 (W0 m ρ c) (Proc.devRef .tc main_v15) = _
  after_results
  rfl

/-! ## Buffers carried unchanged -/

/-- The sources across the first region. -/
theorem keep2_v1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

/-- The targets across the first region. -/
theorem keep2_v3 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

/-- The sources up to the third stretch. -/
theorem keep4_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by host_keep hostOps1
    _ = W1 m ρ c (Proc.devRef .tc main_v1) := W2_of_ne m ρ c main_v1 (by decide)

/-- The targets up to the third stretch. -/
theorem keep4_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by host_keep hostOps1
    _ = W1 m ρ c (Proc.devRef .tc main_v3) := W2_of_ne m ρ c main_v3 (by decide)

/-- The scale column up to the second region. -/
theorem keep3_v11 (c : Dev nD) : W3 m ρ c (Proc.devRef .tc main_v11) = W1 m ρ c (Proc.devRef .tc main_v11) :=
  calc W3 m ρ c (Proc.devRef .tc main_v11)
    _ = W2 m ρ c (Proc.devRef .tc main_v11) := by host_keep hostOps1
    _ = W1 m ρ c (Proc.devRef .tc main_v11) := (W2_arr m ρ c 2).trans (((dat0 (V1 m ρ) c).arrAt_in 2 rfl _).trans (A_eq0 (V1 m ρ) c 2))

/-- The scale column up to the third region. -/
theorem keep5_v11 (c : Dev nD) : W5 m ρ c (Proc.devRef .tc main_v11) = W1 m ρ c (Proc.devRef .tc main_v11) :=
  calc W5 m ρ c (Proc.devRef .tc main_v11)
    _ = W4 m ρ c (Proc.devRef .tc main_v11) := by host_keep hostOps2
    _ = W3 m ρ c (Proc.devRef .tc main_v11) := (W4_arr m ρ c 2).trans (((dat1 (V3 m ρ) c).arrAt_in 2 rfl _).trans (A_eq1 (V3 m ρ) c 2))
    _ = W2 m ρ c (Proc.devRef .tc main_v11) := by host_keep hostOps1
    _ = W1 m ρ c (Proc.devRef .tc main_v11) := (W2_arr m ρ c 2).trans (((dat0 (V1 m ρ) c).arrAt_in 2 rfl _).trans (A_eq0 (V1 m ρ) c 2))

/-- The first bias row up to the second region. -/
theorem keep3_v12 (c : Dev nD) : W3 m ρ c (Proc.devRef .tc main_v12) = W1 m ρ c (Proc.devRef .tc main_v12) :=
  calc W3 m ρ c (Proc.devRef .tc main_v12)
    _ = W2 m ρ c (Proc.devRef .tc main_v12) := by host_keep hostOps1
    _ = W1 m ρ c (Proc.devRef .tc main_v12) := W2_of_ne m ρ c main_v12 (by decide)

/-- The first region's output across the second stretch. -/
theorem keep3_v16 (c : Dev nD) : W3 m ρ c (Proc.devRef .tc main_v16) = W2 m ρ c (Proc.devRef .tc main_v16) :=
  calc W3 m ρ c (Proc.devRef .tc main_v16)
    _ = W2 m ρ c (Proc.devRef .tc main_v16) := by host_keep hostOps1

/-- The second region's scaled output across the third stretch. -/
theorem keep5_v27_1 (c : Dev nD) : W5 m ρ c (Proc.devRef .tc main_v27_1) = W4 m ρ c (Proc.devRef .tc main_v27_1) :=
  calc W5 m ρ c (Proc.devRef .tc main_v27_1)
    _ = W4 m ρ c (Proc.devRef .tc main_v27_1) := by host_keep hostOps2

/-- An argument nothing writes before the last region. -/
theorem at6_arg2 (c : Dev nD) : W6 m ρ c (Proc.devRef .tc main_arg2) = W0 m ρ c (Proc.devRef .tc main_arg2) :=
  calc W6 m ρ c (Proc.devRef .tc main_arg2)
    _ = W5 m ρ c (Proc.devRef .tc main_arg2) := W6_of_ne m ρ c main_arg2 (by decide)
    _ = W4 m ρ c (Proc.devRef .tc main_arg2) := by host_keep hostOps2
    _ = W3 m ρ c (Proc.devRef .tc main_arg2) := W4_of_ne m ρ c main_arg2 (by decide)
    _ = W2 m ρ c (Proc.devRef .tc main_arg2) := by host_keep hostOps1
    _ = W1 m ρ c (Proc.devRef .tc main_arg2) := W2_of_ne m ρ c main_arg2 (by decide)
    _ = W0 m ρ c (Proc.devRef .tc main_arg2) := by host_keep hostOps0

/-- An argument nothing writes before the last region. -/
theorem at6_arg5 (c : Dev nD) : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := by host_keep hostOps2
    _ = W3 m ρ c (Proc.devRef .tc main_arg5) := W4_of_ne m ρ c main_arg5 (by decide)
    _ = W2 m ρ c (Proc.devRef .tc main_arg5) := by host_keep hostOps1
    _ = W1 m ρ c (Proc.devRef .tc main_arg5) := W2_of_ne m ρ c main_arg5 (by decide)
    _ = W0 m ρ c (Proc.devRef .tc main_arg5) := by host_keep hostOps0

/-- An argument nothing writes before the last region. -/
theorem at6_arg7 (c : Dev nD) : W6 m ρ c (Proc.devRef .tc main_arg7) = W0 m ρ c (Proc.devRef .tc main_arg7) :=
  calc W6 m ρ c (Proc.devRef .tc main_arg7)
    _ = W5 m ρ c (Proc.devRef .tc main_arg7) := W6_of_ne m ρ c main_arg7 (by decide)
    _ = W4 m ρ c (Proc.devRef .tc main_arg7) := by host_keep hostOps2
    _ = W3 m ρ c (Proc.devRef .tc main_arg7) := W4_of_ne m ρ c main_arg7 (by decide)
    _ = W2 m ρ c (Proc.devRef .tc main_arg7) := by host_keep hostOps1
    _ = W1 m ρ c (Proc.devRef .tc main_arg7) := W2_of_ne m ρ c main_arg7 (by decide)
    _ = W0 m ρ c (Proc.devRef .tc main_arg7) := by host_keep hostOps0

/-- An argument nothing writes before the last region. -/
theorem at6_arg9 (c : Dev nD) : W6 m ρ c (Proc.devRef .tc main_arg9) = W0 m ρ c (Proc.devRef .tc main_arg9) :=
  calc W6 m ρ c (Proc.devRef .tc main_arg9)
    _ = W5 m ρ c (Proc.devRef .tc main_arg9) := W6_of_ne m ρ c main_arg9 (by decide)
    _ = W4 m ρ c (Proc.devRef .tc main_arg9) := by host_keep hostOps2
    _ = W3 m ρ c (Proc.devRef .tc main_arg9) := W4_of_ne m ρ c main_arg9 (by decide)
    _ = W2 m ρ c (Proc.devRef .tc main_arg9) := by host_keep hostOps1
    _ = W1 m ρ c (Proc.devRef .tc main_arg9) := W2_of_ne m ρ c main_arg9 (by decide)
    _ = W0 m ρ c (Proc.devRef .tc main_arg9) := by host_keep hostOps0

/-- A bias row the first stretch makes and nothing writes afterwards. -/
theorem keep6_v13 (c : Dev nD) : W6 m ρ c (Proc.devRef .tc main_v13) = W1 m ρ c (Proc.devRef .tc main_v13) :=
  calc W6 m ρ c (Proc.devRef .tc main_v13)
    _ = W5 m ρ c (Proc.devRef .tc main_v13) := W6_of_ne m ρ c main_v13 (by decide)
    _ = W4 m ρ c (Proc.devRef .tc main_v13) := by host_keep hostOps2
    _ = W3 m ρ c (Proc.devRef .tc main_v13) := W4_of_ne m ρ c main_v13 (by decide)
    _ = W2 m ρ c (Proc.devRef .tc main_v13) := by host_keep hostOps1
    _ = W1 m ρ c (Proc.devRef .tc main_v13) := W2_of_ne m ρ c main_v13 (by decide)

/-- A bias row the first stretch makes and nothing writes afterwards. -/
theorem keep6_v14 (c : Dev nD) : W6 m ρ c (Proc.devRef .tc main_v14) = W1 m ρ c (Proc.devRef .tc main_v14) :=
  calc W6 m ρ c (Proc.devRef .tc main_v14)
    _ = W5 m ρ c (Proc.devRef .tc main_v14) := W6_of_ne m ρ c main_v14 (by decide)
    _ = W4 m ρ c (Proc.devRef .tc main_v14) := by host_keep hostOps2
    _ = W3 m ρ c (Proc.devRef .tc main_v14) := W4_of_ne m ρ c main_v14 (by decide)
    _ = W2 m ρ c (Proc.devRef .tc main_v14) := by host_keep hostOps1
    _ = W1 m ρ c (Proc.devRef .tc main_v14) := W2_of_ne m ρ c main_v14 (by decide)

/-- A bias row the first stretch makes and nothing writes afterwards. -/
theorem keep6_v15 (c : Dev nD) : W6 m ρ c (Proc.devRef .tc main_v15) = W1 m ρ c (Proc.devRef .tc main_v15) :=
  calc W6 m ρ c (Proc.devRef .tc main_v15)
    _ = W5 m ρ c (Proc.devRef .tc main_v15) := W6_of_ne m ρ c main_v15 (by decide)
    _ = W4 m ρ c (Proc.devRef .tc main_v15) := by host_keep hostOps2
    _ = W3 m ρ c (Proc.devRef .tc main_v15) := W4_of_ne m ρ c main_v15 (by decide)
    _ = W2 m ρ c (Proc.devRef .tc main_v15) := by host_keep hostOps1
    _ = W1 m ρ c (Proc.devRef .tc main_v15) := W2_of_ne m ρ c main_v15 (by decide)

/-! ## The regions' outputs -/

/-- After the first region: the scaled transformed features. -/
theorem at2_v16 (c : Dev nD) : W2 m ρ c (Proc.devRef .tc main_v16)
    = kScaled (m ((c : Thread nD τ).loc main_arg0)) (m ((c : Thread nD τ).loc main_arg1)) (m ((c : Thread nD τ).loc main_arg3)) := by
  refine (W2_arr m ρ c 3).trans ((scale_array (V1 m ρ) c).trans ?_)
  show scaledRows (W1 m ρ c (Proc.devRef .tc main_arg0)) (W1 m ρ c (Proc.devRef .tc main_arg3)) (W1 m ρ c (Proc.devRef .tc main_v11)) = _
  rw [at1_arg0, at1_arg3, at1_v11]
  rfl

/-- After the second stretch: the first aggregation. -/
theorem at3_v26 (c : Dev nD) : W3 m ρ c (Proc.devRef .tc main_v26)
    = edgeSum (m ((c : Thread nD τ).loc main_arg1)) (kScaled (m ((c : Thread nD τ).loc main_arg0)) (m ((c : Thread nD τ).loc main_arg1)) (m ((c : Thread nD τ).loc main_arg3))) := by
  show StableHlo.after hostOps1 (W2 m ρ c) (Proc.devRef .tc main_v26) = _
  after_results
  rw [(keep2_v3 m ρ c).trans (at1_v3 m ρ c), (keep2_v1 m ρ c).trans (at1_v1 m ρ c), at2_v16]
  rfl

/-- After the second region: the scaled activations. -/
theorem at4_v27_1 (c : Dev nD) : W4 m ρ c (Proc.devRef .tc main_v27_1)
    = kHidScaled (m ((c : Thread nD τ).loc main_arg0)) (m ((c : Thread nD τ).loc main_arg1)) (m ((c : Thread nD τ).loc main_arg3)) (m ((c : Thread nD τ).loc main_arg4)) := by
  refine (W4_arr m ρ c 5).trans ((finalize_scaled_array (V3 m ρ) c).trans ?_)
  show finalizedScaled (W3 m ρ c (Proc.devRef .tc main_v26)) (W3 m ρ c (Proc.devRef .tc main_v16)) (W3 m ρ c (Proc.devRef .tc main_v11))
      (W3 m ρ c (Proc.devRef .tc main_v12)) = _
  rw [at3_v26, (keep3_v16 m ρ c).trans (at2_v16 m ρ c), (keep3_v11 m ρ c).trans (at1_v11 m ρ c), (keep3_v12 m ρ c).trans (at1_v12 m ρ c)]
  rfl

/-- After the third stretch: the second aggregation. -/
theorem at5_v37 (c : Dev nD) : W5 m ρ c (Proc.devRef .tc main_v37)
    = edgeSum (m ((c : Thread nD τ).loc main_arg1)) (kHidScaled (m ((c : Thread nD τ).loc main_arg0)) (m ((c : Thread nD τ).loc main_arg1)) (m ((c : Thread nD τ).loc main_arg3)) (m ((c : Thread nD τ).loc main_arg4))) := by
  show StableHlo.after hostOps2 (W4 m ρ c) (Proc.devRef .tc main_v37) = _
  generalize hX : edgeSum (m ((c : Thread nD τ).loc main_arg1)) (kHidScaled (m ((c : Thread nD τ).loc main_arg0)) (m ((c : Thread nD τ).loc main_arg1)) (m ((c : Thread nD τ).loc main_arg3)) (m ((c : Thread nD τ).loc main_arg4))) = X
  after_results
  rw [(keep4_v3 m ρ c).trans (at1_v3 m ρ c), (keep4_v1 m ρ c).trans (at1_v1 m ρ c), at4_v27_1]
  exact hX

/-- After the third region: the normalised aggregation. -/
theorem at6_v38 (c : Dev nD) : W6 m ρ c (Proc.devRef .tc main_v38)
    = kAgg (m ((c : Thread nD τ).loc main_arg0)) (m ((c : Thread nD τ).loc main_arg1)) (m ((c : Thread nD τ).loc main_arg3)) (m ((c : Thread nD τ).loc main_arg4)) := by
  refine (W6_arr m ρ c 3).trans ((aggregate_array (V5 m ρ) c).trans ?_)
  show aggregated (W5 m ρ c (Proc.devRef .tc main_v37)) (W5 m ρ c (Proc.devRef .tc main_v27_1)) (W5 m ρ c (Proc.devRef .tc main_v11)) = _
  rw [at5_v37, (keep5_v27_1 m ρ c).trans (at4_v27_1 m ρ c), (keep5_v11 m ρ c).trans (at1_v11 m ρ c)]
  rfl

/-! ## The three results -/

/-- The mean. -/
theorem result_mean (c : Dev nD) : W7 m ρ c (Proc.devRef .tc main_v39_0)
    = affineRows (kAgg (m ((c : Thread nD τ).loc main_arg0)) (m ((c : Thread nD τ).loc main_arg1)) (m ((c : Thread nD τ).loc main_arg3)) (m ((c : Thread nD τ).loc main_arg4)))
        (m ((c : Thread nD τ).loc main_arg5)) (biasRow64 (m ((c : Thread nD τ).loc main_arg6))) := by
  refine (W7_arr m ρ c 8).trans ((mean_array (V6 m ρ) c).trans ?_)
  show affineRows (W6 m ρ c (Proc.devRef .tc main_v38)) (W6 m ρ c (Proc.devRef .tc main_arg5)) (W6 m ρ c (Proc.devRef .tc main_v13)) = _
  rw [at6_v38, at6_arg5, (keep6_v13 m ρ c).trans (at1_v13 m ρ c)]

/-- The log-variance. -/
theorem result_logvar (c : Dev nD) : W7 m ρ c (Proc.devRef .tc main_v39_1)
    = affineRows (kAgg (m ((c : Thread nD τ).loc main_arg0)) (m ((c : Thread nD τ).loc main_arg1)) (m ((c : Thread nD τ).loc main_arg3)) (m ((c : Thread nD τ).loc main_arg4)))
        (m ((c : Thread nD τ).loc main_arg7)) (biasRow64 (m ((c : Thread nD τ).loc main_arg8))) := by
  refine (W7_arr m ρ c 9).trans ((logvar_array (V6 m ρ) c).trans ?_)
  show affineRows (W6 m ρ c (Proc.devRef .tc main_v38)) (W6 m ρ c (Proc.devRef .tc main_arg7)) (W6 m ρ c (Proc.devRef .tc main_v14)) = _
  rw [at6_v38, at6_arg7, (keep6_v14 m ρ c).trans (at1_v14 m ρ c)]

/-- The reconstruction. -/
theorem result_recon (c : Dev nD) : W7 m ρ c (Proc.devRef .tc main_v39_2)
    = decoded
        (affineRows (kAgg (m ((c : Thread nD τ).loc main_arg0)) (m ((c : Thread nD τ).loc main_arg1)) (m ((c : Thread nD τ).loc main_arg3)) (m ((c : Thread nD τ).loc main_arg4)))
          (m ((c : Thread nD τ).loc main_arg5)) (biasRow64 (m ((c : Thread nD τ).loc main_arg6))))
        (affineRows (kAgg (m ((c : Thread nD τ).loc main_arg0)) (m ((c : Thread nD τ).loc main_arg1)) (m ((c : Thread nD τ).loc main_arg3)) (m ((c : Thread nD τ).loc main_arg4)))
          (m ((c : Thread nD τ).loc main_arg7)) (biasRow64 (m ((c : Thread nD τ).loc main_arg8))))
        (m ((c : Thread nD τ).loc main_arg2)) (m ((c : Thread nD τ).loc main_arg9)) (biasRow128 (m ((c : Thread nD τ).loc main_arg10))) := by
  refine (W7_arr m ρ c 10).trans ((recon_array (V6 m ρ) c).trans ?_)
  show decoded (affineRows (W6 m ρ c (Proc.devRef .tc main_v38)) (W6 m ρ c (Proc.devRef .tc main_arg5)) (W6 m ρ c (Proc.devRef .tc main_v13)))
      (affineRows (W6 m ρ c (Proc.devRef .tc main_v38)) (W6 m ρ c (Proc.devRef .tc main_arg7)) (W6 m ρ c (Proc.devRef .tc main_v14)))
      (W6 m ρ c (Proc.devRef .tc main_arg2)) (W6 m ρ c (Proc.devRef .tc main_arg9)) (W6 m ρ c (Proc.devRef .tc main_v15)) = _
  rw [at6_v38, at6_arg5, at6_arg7, at6_arg2, at6_arg9, (keep6_v13 m ρ c).trans (at1_v13 m ρ c), (keep6_v14 m ρ c).trans (at1_v14 m ρ c),
    (keep6_v15 m ρ c).trans (at1_v15 m ρ c)]

end Cert.KernelIdeal.Bridge

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.FiniteInputs.lean ====
/-
  From the precondition "every float input is finite" to "every entry of each float argument array is a real number",
  on the extended reals.

  The precondition is one bit: the conjunction (`and`) of ten bits, one per float argument `x`, each the reduction by
  `and` over all axes of the elementwise test `|x| < +inf`. The conjunction being 1 makes each of the ten bits 1; a
  reduction by `and` into a single result being 1 makes the elementwise test 1 at every entry; and `|a| < +inf` for an
  extended real `a` excludes `a = +inf` and `a = -inf`, so `a` is a real number. Nothing here depends on the size of the
  arrays: every step is a general lemma applied at an arbitrary entry.
-/
import proofs.«111905_j23845658427756_2_alg».proof.Pre_finite_inputs
import proofs.«111905_j23845658427756_2_alg».proof.Proof.LibFiniteEntry
import Idealize.ShloMosaic.PureOps.Ideal
import Idealize.ShloMosaic.Lib.ReduceAll
import Idealize.ShloMosaic.Lib.ValueIdx

noncomputable section

namespace Cert.FiniteInputs

open Idealize.ShloMosaic Cert.Pre_finite_inputs Cert.Lib.FiniteEntry

/-- One argument's bit: the test `|x| < +inf` reduced by `and` over all axes to one result. If it is 1, every entry of
    `x` is a real number. Generic in the argument's shape and in the reduced axes. -/
theorem all_real {s : Shape} {axes : List (Fin s.rank)}
    (hb : (⟨0, ![]⟩ : Shape).BroadcastsInDim s (![] : Fin 0 → Fin s.rank))
    (hr : s.ReducesTo axes (⟨0, ![]⟩ : Shape)) (hS : 0 < (⟨0, ![]⟩ : Shape).numel)
    (x : FVec Ideal s .f32) (j : (⟨0, ![]⟩ : Shape).Idx)
    (h : Host.reduce IntOp.andi
          (cmpf .olt (Host.absf x) (broadcastInDim s ![] hb (constant (F := Ideal) ⟨0, ![]⟩ .f32 0x7F800000#32)))
          (constantI ⟨0, ![]⟩ 1 1#1) hr hS j = 1#1) :
    ∀ i, ∃ r : ℝ, x i = (r : EReal) :=
  fun i => entry_real hb x i (Host.reduce_andi_all _ _ hr hS j h i)

/-- The precondition's value being all ones makes every entry of each of the ten float arguments a real number
    (the integer argument `a1` is not tested and not constrained). -/
theorem reals_of_pre [Cert.Pre_finite_inputs.Facts]
    (a0 : FVec Ideal S100000x128 .f32) (a1 : IVec S2x1600000 32) (a2 : FVec Ideal S100000x64 .f32)
    (a3 : FVec Ideal S128x64 .f32) (a4 : FVec Ideal S64 .f32) (a5 : FVec Ideal S64x64 .f32)
    (a6 : FVec Ideal S64 .f32) (a7 : FVec Ideal S64x64 .f32) (a8 : FVec Ideal S64 .f32)
    (a9 : FVec Ideal S64x128 .f32) (a10 : FVec Ideal S128 .f32)
    (h : Cert.Pre_finite_inputs.fn (F := Ideal) a0 a1 a2 a3 a4 a5 a6 a7 a8 a9 a10 = (fun _ => 1#1)) :
    (∀ i, ∃ r : ℝ, a0 i = (r : EReal)) ∧ (∀ i, ∃ r : ℝ, a2 i = (r : EReal)) ∧
    (∀ i, ∃ r : ℝ, a3 i = (r : EReal)) ∧ (∀ i, ∃ r : ℝ, a4 i = (r : EReal)) ∧
    (∀ i, ∃ r : ℝ, a5 i = (r : EReal)) ∧ (∀ i, ∃ r : ℝ, a6 i = (r : EReal)) ∧
    (∀ i, ∃ r : ℝ, a7 i = (r : EReal)) ∧ (∀ i, ∃ r : ℝ, a8 i = (r : EReal)) ∧
    (∀ i, ∃ r : ℝ, a9 i = (r : EReal)) ∧ (∀ i, ∃ r : ℝ, a10 i = (r : EReal)) := by
  have h0 := congrFun h ValueIdx.ix0
  dsimp only [fn, fn_part1, fn_part2, andi] at h0
  simp only [IntOp.andi_eq_one] at h0
  obtain ⟨⟨⟨⟨⟨⟨⟨⟨⟨h0, h2⟩, h3⟩, h4⟩, h5⟩, h6⟩, h7⟩, h8⟩, h9⟩, h10⟩ := h0
  exact ⟨all_real _ _ _ a0 _ h0, all_real _ _ _ a2 _ h2, all_real _ _ _ a3 _ h3, all_real _ _ _ a4 _ h4,
    all_real _ _ _ a5 _ h5, all_real _ _ _ a6 _ h6, all_real _ _ _ a7 _ h7, all_real _ _ _ a8 _ h8,
    all_real _ _ _ a9 _ h9, all_real _ _ _ a10 _ h10⟩

end Cert.FiniteInputs

end
-- ==== Proof.LibEdgeIndex.lean ====
/-
  A row gather and a row scatter of StableHLO, read at coordinates.

  For an operand of N rows (of C columns, or of scalars) and a column of E integer start indices, the gather's
  result row e is the operand's row at the e-th start index, read as a signed integer and clamped into [0, N − 1];
  and the e-th update row of a scatter lands on operand row n exactly when the e-th index, read as a signed
  integer, IS n (no clamp: an index outside [0, N − 1] drops the update), column for column.
  Joined: an index that reads n with 0 ≤ n < N is left alone by the wrap of negative indices (add N below zero) and by
  the gather's clamp, so the gather through both reads row n. And the updates that land on one operand element are
  one per update row whose index reads that element's row, so a sum over them is a sum over those rows.
-/
import Idealize.ShloMosaic.Lib.ValueIdx
import Idealize.ShloMosaic.PureOps.Ideal

open scoped BigOperators

namespace Cert.Lib.EdgeIndex

open Idealize.ShloMosaic Idealize.ShloMosaic.ValueIdx

/-! ## The gather -/

section Gather
variable {α : Type}

/-- The dimension numbers of a gather of whole rows: operand [N, C], start indices [E, 1] (one row number each),
    result [E, C]. -/
abbrev gatherRows (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a gather of scalars: operand [N], start indices [E, 1], result [E]. -/
abbrev gatherElts (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- On the row axis the operand index of result element (e, c) is the e-th start index, read signed and clamped
    into [0, N − 1]: no batching axis, and the row axis is collapsed, so it carries no offset. -/
theorem gatherRows_operandIdx_row {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((gatherRows N E C wf).operandIdx y idx 0).val
      = min (idx (ix2 (y 0) ⟨0, Nat.one_pos⟩)).toInt.toNat (N - 1) := by
  show (gatherRows N E C wf).start y idx 0 + (gatherRows N E C wf).batchCoord y 0 + (gatherRows N E C wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gatherRows N E C wf).startIndexMap from List.mem_singleton.mpr rfl)]
  have hsi : (gatherRows N E C wf).siIdx y ⟨List.idxOf (0 : Fin 2) (gatherRows N E C wf).startIndexMap,
      List.idxOf_lt_length_iff.2 (List.mem_singleton.mpr rfl)⟩ = ix2 (y 0) ⟨0, Nat.one_pos⟩ := by
    funext b; refine Fin.ext ?_
    match b with
    | ⟨0, _⟩ => rfl
    | ⟨1, _⟩ => rfl
  rw [hsi]
  rfl

/-- On the column axis the operand index of result element (e, c) is c: the start index does not name that axis,
    and the whole row is the slice, so the offset is the result's column. -/
theorem gatherRows_operandIdx_col {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((gatherRows N E C wf).operandIdx y idx 1).val = (y 1).val := by
  show (gatherRows N E C wf).start y idx 1 + (gatherRows N E C wf).batchCoord y 1 + (gatherRows N E C wf).offCoord y 1 = _
  rw [GatherDims.batchCoord_eq_zero _ _ _ List.not_mem_nil]
  have h10 : (1 : Fin 2) ∉ ([0] : List (Fin 2)) := by decide
  have hs : (gatherRows N E C wf).start y idx 1 = 0 := by
    unfold GatherDims.start
    rw [dif_neg (show (1 : Fin 2) ∉ (gatherRows N E C wf).startIndexMap from h10)]
  rw [hs]
  simp only [Nat.add_zero, Nat.zero_add]
  unfold GatherDims.offCoord
  rw [dif_pos (show (1 : Fin 2) ∈ (gatherRows N E C wf).sKept from
    (GatherDims.mem_sKept _ _).mpr ⟨h10, List.not_mem_nil⟩)]
  rfl

/-- THE ROW GATHER READ AT (e, c): the operand's element in column c of the row whose number is the e-th start
    index, read signed and clamped into [0, N − 1]. -/
theorem gatherRows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (gatherRows N E C wf) x idx y
      = x (ix2 ⟨min (idx (ix2 (y 0) ⟨0, Nat.one_pos⟩)).toInt.toNat (N - 1), by omega⟩ (y 1)) := by
  unfold Host.gather
  congr 1
  funext a
  refine Fin.ext ?_
  match a with
  | ⟨0, _⟩ => exact gatherRows_operandIdx_row wf idx y
  | ⟨1, _⟩ => exact gatherRows_operandIdx_col wf idx y

/-- THE SCALAR GATHER READ AT e: the operand's element whose number is the e-th start index, read signed and
    clamped into [0, N − 1]. -/
theorem gatherElts_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (gatherElts N E wf) x idx y
      = x (ix1 ⟨min (idx (ix2 (y 0) ⟨0, Nat.one_pos⟩)).toInt.toNat (N - 1), by omega⟩) := by
  unfold Host.gather
  congr 1
  funext a
  obtain rfl : a = 0 := Subsingleton.elim _ _
  refine Fin.ext ?_
  show (gatherElts N E wf).start y idx 0 + (gatherElts N E wf).batchCoord y 0 + (gatherElts N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherElts N E wf).startIndexMap from List.mem_singleton.mpr rfl)]
  have hsi : (gatherElts N E wf).siIdx y ⟨List.idxOf (0 : Fin 1) (gatherElts N E wf).startIndexMap,
      List.idxOf_lt_length_iff.2 (List.mem_singleton.mpr rfl)⟩ = ix2 (y 0) ⟨0, Nat.one_pos⟩ := by
    funext b; refine Fin.ext ?_
    match b with
    | ⟨0, _⟩ => rfl
    | ⟨1, _⟩ => rfl
  rw [hsi]
  rfl

end Gather

/-! ## The scatter -/

section Scatter

/-- The dimension numbers of a scatter of whole rows: operand [N, C], scatter indices [E, 1] (one row number each),
    updates [E, C]. -/
abbrev scatterRows (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a scatter of scalars: operand [N], scatter indices [E, 1], updates [E]. -/
abbrev scatterElts (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (j : (⟨2, ![E, C]⟩ : Shape).Idx)

/-- The window of update row e starts, on the row axis, at the e-th scatter index read signed (not clamped). -/
theorem scatterRows_start_row :
    (scatterRows N E C wf).start j idx 0 = (idx (ix2 (j 0) ⟨0, Nat.one_pos⟩)).toInt := by
  unfold ScatterDims.start
  rw [dif_pos (show (0 : Fin 2) ∈ (scatterRows N E C wf).scatterDimsToOperandDims from List.mem_singleton.mpr rfl)]
  have hsi : (scatterRows N E C wf).siIdx j ⟨List.idxOf (0 : Fin 2) (scatterRows N E C wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the column axis, which the scatter index does not name, it starts at 0. -/
theorem scatterRows_start_col : (scatterRows N E C wf).start j idx 1 = 0 := by
  have h10 : (1 : Fin 2) ∉ ([0] : List (Fin 2)) := by decide
  unfold ScatterDims.start
  rw [dif_neg (show (1 : Fin 2) ∉ (scatterRows N E C wf).scatterDimsToOperandDims from h10)]

/-- The row axis is inserted: no window coordinate on it. -/
theorem scatterRows_window_row : (scatterRows N E C wf).window j 0 = 0 := by
  unfold ScatterDims.window
  rw [dif_neg (show (0 : Fin 2) ∉ (scatterRows N E C wf).sKept by
    simp [ScatterDims.sKept, Shape.kept, List.mem_filter])]

/-- The window coordinate on the column axis is the update's column. -/
theorem scatterRows_window_col : (scatterRows N E C wf).window j 1 = (j 1).val := by
  have h10 : (1 : Fin 2) ∉ ([0] : List (Fin 2)) := by decide
  unfold ScatterDims.window
  rw [dif_pos (show (1 : Fin 2) ∈ (scatterRows N E C wf).sKept from
    List.mem_filter.mpr ⟨List.mem_finRange _, by simpa using h10⟩)]
  rfl

/-- WHERE A ROW SCATTER'S UPDATE LANDS: update element (e, c) lands on operand element (n, c') exactly when the
    e-th scatter index, read as a signed integer, is n, and c = c'. -/
theorem scatterRows_resultIdx?_eq_some_iff (i : (⟨2, ![N, C]⟩ : Shape).Idx) :
    (scatterRows N E C wf).resultIdx? j idx = some i ↔
      ((idx (ix2 (j 0) ⟨0, Nat.one_pos⟩)).toInt = ((i 0).val : Int) ∧ (j 1).val = (i 1).val) := by
  have e0 : (scatterRows N E C wf).start j idx 0 + (((scatterRows N E C wf).window j 0 : Nat) : Int)
      = (idx (ix2 (j 0) ⟨0, Nat.one_pos⟩)).toInt := by
    rw [scatterRows_start_row, scatterRows_window_row]; simp
  have e1 : (scatterRows N E C wf).start j idx 1 + (((scatterRows N E C wf).window j 1 : Nat) : Int)
      = ((j 1).val : Int) := by
    rw [scatterRows_start_col, scatterRows_window_col]; simp
  have hi0 : (i 0).val < N := idx2_lt0 i
  have hi1 : (i 1).val < C := idx2_lt1 i
  have hj1 : (j 1).val < C := idx2_lt1 j
  unfold ScatterDims.resultIdx?
  constructor
  · intro h
    split at h
    · rename_i hc
      have hi := Option.some.inj h
      have c0 : ((scatterRows N E C wf).start j idx 0 + (((scatterRows N E C wf).window j 0 : Nat) : Int)).toNat
          = (i 0).val := congrArg Fin.val (congrFun hi 0)
      have c1 : ((scatterRows N E C wf).start j idx 1 + (((scatterRows N E C wf).window j 1 : Nat) : Int)).toNat
          = (i 1).val := congrArg Fin.val (congrFun hi 1)
      have b0 := (hc 0).1
      rw [e0] at c0 b0
      rw [e1] at c1
      constructor <;> omega
    · exact absurd h (by simp)
  · rintro ⟨h0, h1⟩
    have hc : ∀ a, 0 ≤ (scatterRows N E C wf).start j idx a + (((scatterRows N E C wf).window j a : Nat) : Int) ∧
        (scatterRows N E C wf).start j idx a + (((scatterRows N E C wf).window j a : Nat) : Int)
          < (((⟨2, ![N, C]⟩ : Shape).size a : Nat) : Int) := by
      intro a
      match a with
      | ⟨0, _⟩ =>
        show 0 ≤ (scatterRows N E C wf).start j idx 0 + (((scatterRows N E C wf).window j 0 : Nat) : Int) ∧
          (scatterRows N E C wf).start j idx 0 + (((scatterRows N E C wf).window j 0 : Nat) : Int) < (N : Int)
        rw [e0]; omega
      | ⟨1, _⟩ =>
        show 0 ≤ (scatterRows N E C wf).start j idx 1 + (((scatterRows N E C wf).window j 1 : Nat) : Int) ∧
          (scatterRows N E C wf).start j idx 1 + (((scatterRows N E C wf).window j 1 : Nat) : Int) < (C : Int)
        rw [e1]; omega
    rw [dif_pos hc]
    congr 1
    funext a
    refine Fin.ext ?_
    match a with
    | ⟨0, _⟩ =>
      show ((scatterRows N E C wf).start j idx 0 + (((scatterRows N E C wf).window j 0 : Nat) : Int)).toNat = (i 0).val
      rw [e0]; omega
    | ⟨1, _⟩ =>
      show ((scatterRows N E C wf).start j idx 1 + (((scatterRows N E C wf).window j 1 : Nat) : Int)).toNat = (i 1).val
      rw [e1]; omega

end Rows

section Elts
variable {N E w : Nat} (wf : ScatterDims.WF ⟨1, ![N]⟩ ⟨2, ![E, 1]⟩ ⟨1, ![E]⟩ [] [0] [0] 1)
  (idx : IVec ⟨2, ![E, 1]⟩ w) (j : (⟨1, ![E]⟩ : Shape).Idx)

/-- The window of update e starts at the e-th scatter index read signed (not clamped). -/
theorem scatterElts_start :
    (scatterElts N E wf).start j idx 0 = (idx (ix2 (j 0) ⟨0, Nat.one_pos⟩)).toInt := by
  unfold ScatterDims.start
  rw [dif_pos (show (0 : Fin 1) ∈ (scatterElts N E wf).scatterDimsToOperandDims from List.mem_singleton.mpr rfl)]
  have hsi : (scatterElts N E wf).siIdx j ⟨List.idxOf (0 : Fin 1) (scatterElts N E wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- The operand's one axis is inserted: no window coordinate on it. -/
theorem scatterElts_window : (scatterElts N E wf).window j 0 = 0 := by
  unfold ScatterDims.window
  rw [dif_neg (show (0 : Fin 1) ∉ (scatterElts N E wf).sKept by
    simp [ScatterDims.sKept, Shape.kept, List.mem_filter])]

/-- WHERE A SCALAR SCATTER'S UPDATE LANDS: update e lands on operand element n exactly when the e-th scatter
    index, read as a signed integer, is n. -/
theorem scatterElts_resultIdx?_eq_some_iff (i : (⟨1, ![N]⟩ : Shape).Idx) :
    (scatterElts N E wf).resultIdx? j idx = some i ↔
      (idx (ix2 (j 0) ⟨0, Nat.one_pos⟩)).toInt = ((i 0).val : Int) := by
  have e0 : (scatterElts N E wf).start j idx 0 + (((scatterElts N E wf).window j 0 : Nat) : Int)
      = (idx (ix2 (j 0) ⟨0, Nat.one_pos⟩)).toInt := by
    rw [scatterElts_start, scatterElts_window]; simp
  have hi0 : (i 0).val < N := (i 0).isLt
  unfold ScatterDims.resultIdx?
  constructor
  · intro h
    split at h
    · rename_i hc
      have hi := Option.some.inj h
      have c0 : ((scatterElts N E wf).start j idx 0 + (((scatterElts N E wf).window j 0 : Nat) : Int)).toNat
          = (i 0).val := congrArg Fin.val (congrFun hi 0)
      have b0 := (hc 0).1
      rw [e0] at c0 b0
      omega
    · exact absurd h (by simp)
  · intro h0
    have hc : ∀ a, 0 ≤ (scatterElts N E wf).start j idx a + (((scatterElts N E wf).window j a : Nat) : Int) ∧
        (scatterElts N E wf).start j idx a + (((scatterElts N E wf).window j a : Nat) : Int)
          < (((⟨1, ![N]⟩ : Shape).size a : Nat) : Int) := by
      intro a
      obtain rfl : a = 0 := Subsingleton.elim _ _
      show 0 ≤ (scatterElts N E wf).start j idx 0 + (((scatterElts N E wf).window j 0 : Nat) : Int) ∧
        (scatterElts N E wf).start j idx 0 + (((scatterElts N E wf).window j 0 : Nat) : Int) < (N : Int)
      rw [e0]; omega
    rw [dif_pos hc]
    congr 1
    funext a
    obtain rfl : a = 0 := Subsingleton.elim _ _
    refine Fin.ext ?_
    show ((scatterElts N E wf).start j idx 0 + (((scatterElts N E wf).window j 0 : Nat) : Int)).toNat = (i 0).val
    rw [e0]; omega

end Elts

end Scatter

/-! ## An update that lands on row n is, read back through the gather, row n

A scatter lands update e on row n when the e-th index read signed IS n, with 0 ≤ n < N. Read back, the same index
first goes through the wrap of negative indices (add N to an index below zero, leave the others), which leaves it
alone, and then through the gather's clamp into [0, N − 1], which leaves it alone too. -/

section Landed
variable {w : Nat}

/-- A word whose signed value is n < N is not moved by the clamp into [0, N − 1]. -/
theorem clamp_of_toInt_eq (b : BitVec w) {n N : Nat} (h : b.toInt = (n : Int)) (hn : n < N) :
    min b.toInt.toNat (N - 1) = n := by
  rw [h, Int.toNat_natCast]; omega

/-- The wrap of negative indices, as a function of one word: c (the number of rows, as a word) is added to a word
    that reads below zero. -/
def wrapNeg (c b : BitVec w) : BitVec w := if b.toInt < 0 then b + c else b

/-- It leaves a word that reads at least zero alone. -/
theorem wrapNeg_of_nonneg (c b : BitVec w) (hb : 0 ≤ b.toInt) : wrapNeg c b = b := by
  unfold wrapNeg; rw [if_neg (by omega)]

/-- In particular one whose signed value is a natural number. -/
theorem wrapNeg_of_toInt_eq (c b : BitVec w) {n : Nat} (h : b.toInt = (n : Int)) : wrapNeg c b = b :=
  wrapNeg_of_nonneg c b (by omega)

/-- The signed comparison "b < 0" of a word that reads at least zero is the bit 0 … -/
theorem cmpi_slt_zero_of_nonneg (b : BitVec w) (hb : 0 ≤ b.toInt) : IntOp.cmpi .slt b 0#w = 0#1 := by
  have : b.slt 0#w = false := by
    rw [BitVec.slt_eq_decide, BitVec.toInt_zero]; simpa using hb
  simp [IntOp.cmpi, this]

/-- … and of one that reads below zero the bit 1. -/
theorem cmpi_slt_zero_of_neg (b : BitVec w) (hb : b.toInt < 0) : IntOp.cmpi .slt b 0#w = 1#1 := by
  have : b.slt 0#w = true := by
    rw [BitVec.slt_eq_decide, BitVec.toInt_zero]; simpa using hb
  simp [IntOp.cmpi, this]

/-- So the select on that comparison is the wrap: the program's own spelling of it, at one element. -/
theorem select_slt_zero_eq_wrapNeg (c b : BitVec w) :
    Scalar.select (IntOp.cmpi .slt b 0#w) (IntOp.addi b c) b = wrapNeg c b := by
  unfold wrapNeg
  by_cases hb : b.toInt < 0
  · rw [if_pos hb, cmpi_slt_zero_of_neg b hb, select_one]; rfl
  · rw [if_neg hb, cmpi_slt_zero_of_nonneg b (by omega), select_zero]

/-- A select on "b < 0" at a word that reads at least zero is its second operand, whatever the operands are. -/
theorem select_slt_zero_of_nonneg {α : Type} (b : BitVec w) (hb : 0 ≤ b.toInt) (a₁ a₂ : α) :
    Scalar.select (IntOp.cmpi .slt b 0#w) a₁ a₂ = a₂ := by
  rw [cmpi_slt_zero_of_nonneg b hb, select_zero]

variable {α : Type}

/-- THE ROW GATHER AT A START INDEX THAT IS A ROW NUMBER: if the e-th start index reads n < N, result element (e, c)
    is the operand's element (n, c). -/
theorem gatherRows_apply_of_toInt_eq {N E C : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx)
    {n : Nat} (hn : n < N) (h : (idx (ix2 (y 0) ⟨0, Nat.one_pos⟩)).toInt = (n : Int)) :
    Host.gather (gatherRows N E C wf) x idx y = x (ix2 ⟨n, hn⟩ (y 1)) := by
  rw [gatherRows_apply (by omega) wf x idx y]
  congr 2
  exact Fin.ext (clamp_of_toInt_eq _ h hn)

/-- The same through the wrap of negative indices applied to every start index first. -/
theorem gatherRows_wrapNeg_apply_of_toInt_eq {N E C : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (c : BitVec w) (y : (⟨2, ![E, C]⟩ : Shape).Idx)
    {n : Nat} (hn : n < N) (h : (idx (ix2 (y 0) ⟨0, Nat.one_pos⟩)).toInt = (n : Int)) :
    Host.gather (gatherRows N E C wf) x (fun k => wrapNeg c (idx k)) y = x (ix2 ⟨n, hn⟩ (y 1)) :=
  gatherRows_apply_of_toInt_eq wf x _ y hn (by rw [wrapNeg_of_toInt_eq c _ h]; exact h)

/-- THE SCALAR GATHER AT A START INDEX THAT IS AN ELEMENT NUMBER. -/
theorem gatherElts_apply_of_toInt_eq {N E : Nat}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx)
    {n : Nat} (hn : n < N) (h : (idx (ix2 (y 0) ⟨0, Nat.one_pos⟩)).toInt = (n : Int)) :
    Host.gather (gatherElts N E wf) x idx y = x (ix1 ⟨n, hn⟩) := by
  rw [gatherElts_apply (by omega) wf x idx y]
  congr 2
  exact Fin.ext (clamp_of_toInt_eq _ h hn)

/-- The same through the wrap of negative indices. -/
theorem gatherElts_wrapNeg_apply_of_toInt_eq {N E : Nat}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (c : BitVec w) (y : (⟨1, ![E]⟩ : Shape).Idx)
    {n : Nat} (hn : n < N) (h : (idx (ix2 (y 0) ⟨0, Nat.one_pos⟩)).toInt = (n : Int)) :
    Host.gather (gatherElts N E wf) x (fun k => wrapNeg c (idx k)) y = x (ix1 ⟨n, hn⟩) :=
  gatherElts_apply_of_toInt_eq wf x _ y hn (by rw [wrapNeg_of_toInt_eq c _ h]; exact h)

end Landed

/-! ## The updates that land on one operand element, as a set and under a sum

The update elements (e, c') that land on operand element (n, c) are the (e, c) with e among the update rows whose
index reads n: one per such row. So a sum over them is a sum over those rows. -/

section Landing
variable {N E C w : Nat}

/-- Update row e ↦ update element (e, c): injective. -/
def colEmb (E C : Nat) (c : Fin C) : Fin E ↪ (⟨2, ![E, C]⟩ : Shape).Idx where
  toFun e := ix2 e c
  inj' a b h := congrFun h 0

@[simp] theorem colEmb_apply (c : Fin C) (e : Fin E) : colEmb E C c e = ix2 e c := rfl

/-- Update row e ↦ update element e of a rank-1 array of updates: injective. -/
def eltEmb (E : Nat) : Fin E ↪ (⟨1, ![E]⟩ : Shape).Idx where
  toFun e := ix1 e
  inj' a b h := congrFun h 0

@[simp] theorem eltEmb_apply (e : Fin E) : eltEmb E e = ix1 e := rfl

/-- THE LANDING SET OF A ROW SCATTER: the update elements that land on operand element i = (n, c) are the elements
    (e, c) of the update rows e whose scatter index reads n. -/
theorem scatterRows_landing_eq_map (wf : ScatterDims.WF ⟨2, ![N, C]⟩ ⟨2, ![E, 1]⟩ ⟨2, ![E, C]⟩ [1] [0] [0] 1)
    (idx : IVec ⟨2, ![E, 1]⟩ w) (i : (⟨2, ![N, C]⟩ : Shape).Idx)
    [DecidablePred fun j => (scatterRows N E C wf).resultIdx? j idx = some i] :
    Finset.univ.filter (fun j => (scatterRows N E C wf).resultIdx? j idx = some i)
      = (Finset.univ.filter (fun e : Fin E => (idx (ix2 e ⟨0, Nat.one_pos⟩)).toInt = ((i 0).val : Int))).map
          (colEmb E C (i 1)) := by
  ext j
  simp only [Finset.mem_filter, Finset.mem_univ, true_and, Finset.mem_map, colEmb_apply,
    scatterRows_resultIdx?_eq_some_iff]
  constructor
  · rintro ⟨h0, h1⟩
    refine ⟨j 0, h0, ?_⟩
    conv_rhs => rw [eq_ix2 j]
    have : i 1 = j 1 := Fin.ext h1.symm
    rw [this]
    rfl
  · rintro ⟨e, he, rfl⟩
    exact ⟨he, rfl⟩

/-- A SUM OVER THE UPDATES THAT LAND ON ONE OPERAND ELEMENT of a row scatter is the sum over the update rows whose
    scatter index reads that element's row, each taken at that element's column. -/
theorem scatterRows_sum_landing {M : Type*} [AddCommMonoid M]
    (wf : ScatterDims.WF ⟨2, ![N, C]⟩ ⟨2, ![E, 1]⟩ ⟨2, ![E, C]⟩ [1] [0] [0] 1)
    (idx : IVec ⟨2, ![E, 1]⟩ w) (i : (⟨2, ![N, C]⟩ : Shape).Idx)
    [DecidablePred fun j => (scatterRows N E C wf).resultIdx? j idx = some i]
    (f : (⟨2, ![E, C]⟩ : Shape).Idx → M) :
    ∑ j ∈ Finset.univ.filter (fun j => (scatterRows N E C wf).resultIdx? j idx = some i), f j
      = ∑ e ∈ Finset.univ.filter (fun e : Fin E => (idx (ix2 e ⟨0, Nat.one_pos⟩)).toInt = ((i 0).val : Int)),
          f (ix2 e (i 1)) := by
  rw [scatterRows_landing_eq_map, Finset.sum_map]
  rfl

/-- THE LANDING SET OF A SCALAR SCATTER: the updates that land on operand element n are the e whose scatter index
    reads n. -/
theorem scatterElts_landing_eq_map (wf : ScatterDims.WF ⟨1, ![N]⟩ ⟨2, ![E, 1]⟩ ⟨1, ![E]⟩ [] [0] [0] 1)
    (idx : IVec ⟨2, ![E, 1]⟩ w) (i : (⟨1, ![N]⟩ : Shape).Idx)
    [DecidablePred fun j => (scatterElts N E wf).resultIdx? j idx = some i] :
    Finset.univ.filter (fun j => (scatterElts N E wf).resultIdx? j idx = some i)
      = (Finset.univ.filter (fun e : Fin E => (idx (ix2 e ⟨0, Nat.one_pos⟩)).toInt = ((i 0).val : Int))).map
          (eltEmb E) := by
  ext j
  simp only [Finset.mem_filter, Finset.mem_univ, true_and, Finset.mem_map, eltEmb_apply,
    scatterElts_resultIdx?_eq_some_iff]
  constructor
  · intro h0
    exact ⟨j 0, h0, (eq_ix1 j).symm⟩
  · rintro ⟨e, he, rfl⟩
    exact he

/-- A SUM OVER THE UPDATES THAT LAND ON ONE OPERAND ELEMENT of a scalar scatter is the sum over the updates whose
    scatter index reads that element's number. -/
theorem scatterElts_sum_landing {M : Type*} [AddCommMonoid M]
    (wf : ScatterDims.WF ⟨1, ![N]⟩ ⟨2, ![E, 1]⟩ ⟨1, ![E]⟩ [] [0] [0] 1)
    (idx : IVec ⟨2, ![E, 1]⟩ w) (i : (⟨1, ![N]⟩ : Shape).Idx)
    [DecidablePred fun j => (scatterElts N E wf).resultIdx? j idx = some i]
    (f : (⟨1, ![E]⟩ : Shape).Idx → M) :
    ∑ j ∈ Finset.univ.filter (fun j => (scatterElts N E wf).resultIdx? j idx = some i), f j
      = ∑ e ∈ Finset.univ.filter (fun e : Fin E => (idx (ix2 e ⟨0, Nat.one_pos⟩)).toInt = ((i 0).val : Int)),
          f (ix1 e) := by
  rw [scatterElts_landing_eq_map, Finset.sum_map]
  rfl

end Landing

end Cert.Lib.EdgeIndex
-- ==== Proof.EdgeSpec.lean ====
/-
  The graph quantities both programs compute, index by index.

  For an edge list (row 0 the sources, row 1 the targets, as 32-bit words read as signed integers): the edges LANDING on
  node n are those whose target reads exactly n (a target outside the node range lands nowhere); an edge's SOURCE NODE
  is its source with a negative value wrapped by the node count and then clamped into the node range; d(n) is the
  inverse square root of (the number of edges landing on n, plus one). The degree-normalised convolution of a feature
  array H with bias b is, at (n, f),
      ∑_{e lands on n} H(src e, f)·(d(src e)·d(n))  +  H(n, f)·(d(n)·d(n))  +  b(f).
-/
import proofs.«111905_j23845658427756_2_alg».proof.Proof.LibEdgeIndex
import Idealize.ShloMosaic.PureOps.Ideal.Laws

noncomputable section

open scoped BigOperators

namespace Cert.EdgeSpec

open Idealize.ShloMosaic Idealize.ShloMosaic.ValueIdx Cert.Lib.EdgeIndex

/-- The edge list's shape, the node-by-feature shape, and friends, as literals. -/
abbrev SEdges : Shape := ⟨2, ![2, 1600000]⟩
abbrev SNodes64 : Shape := ⟨2, ![100000, 64]⟩

/-- The edges landing on node n. -/
def landing (ei : IVec SEdges 32) (n : Fin 100000) : Finset (Fin 1600000) :=
  Finset.univ.filter fun e => (ei (ix2 (1 : Fin 2) e)).toInt = (n.val : Int)

/-- An edge's source node: the source word, a negative value wrapped by the node count, clamped into the node range. -/
def srcNode (ei : IVec SEdges 32) (e : Fin 1600000) : Fin 100000 :=
  ⟨min (wrapNeg 100000#32 (ei (ix2 (0 : Fin 2) e))).toInt.toNat (100000 - 1), by omega⟩

/-- d(n): the inverse square root of the number of edges landing on n, plus one. -/
def invDeg (ei : IVec SEdges 32) (n : Fin 100000) : EReal :=
  Ideal.rsqrt ((Ideal.ofBits .f32 0x00000000#32 + ∑ _e ∈ landing ei n, Ideal.ofBits .f32 0x3F800000#32) + Ideal.ofBits .f32 0x3F800000#32)

/-- The sum over the edges landing on a node of a function of the edge, from the zero word. -/
def landSum (ei : IVec SEdges 32) (n : Fin 100000) (f : Fin 1600000 → EReal) : EReal :=
  Ideal.ofBits .f32 0x00000000#32 + ∑ e ∈ landing ei n, f e

/-- The degree-normalised convolution of H with bias b, at an index. -/
def conv (ei : IVec SEdges 32) (H : SNodes64.Idx → EReal) (b : (⟨1, ![64]⟩ : Shape).Idx → EReal) : SNodes64.Idx → EReal :=
  fun i => ((landSum ei (i 0) fun e => H (ix2 (srcNode ei e) (i 1)) * (invDeg ei (srcNode ei e) * invDeg ei (i 0)))
      + H i * (invDeg ei (i 0) * invDeg ei (i 0))) + b (ix1 (i 1))

end Cert.EdgeSpec

end
-- ==== Proof.LibERealSum.lean ====
/-
  Finite sums of real numbers inside the extended reals.

  `coe_sum`: the coercion `ℝ → EReal` commutes with a finite sum (Mathlib states it for `+` and for `*`, not for `∑`).
  `lowrank_swap`: for real `s`, `u : ι → ℝ`, `B : ι → κ → ℝ`, `a : κ → ℝ` over finite index types,

      ∑ᵣ (s · ∑ₙ uₙ · Bₙᵣ) · aᵣ  =  ∑ₙ uₙ · (s · ∑ᵣ aᵣ · Bₙᵣ)        (as extended reals)

  — a vector pushed through a rank-κ factorization from either end. It is an identity of REAL numbers (distributivity and an
  exchange of two finite sums); on the extended reals it fails at the infinities, which is why it is stated over
  coercions.
-/
import Mathlib.Data.EReal.Operations
import Mathlib.Algebra.BigOperators.Ring.Finset
import Mathlib.Algebra.BigOperators.Group.Finset.Sigma
import Mathlib.Tactic.Ring

namespace Cert.Lib.ERealSum

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- `∑ᵣ (s · ∑ₙ uₙ·Bₙᵣ) · aᵣ = ∑ₙ uₙ · (s · ∑ᵣ aᵣ·Bₙᵣ)` on real numbers, read in the extended reals: both are
    `s · ∑ₙ ∑ᵣ uₙ·Bₙᵣ·aᵣ`, by distributivity and the exchange of the two finite sums. -/
theorem lowrank_swap {ι κ : Type*} [Fintype ι] [Fintype κ] (s : ℝ) (u : ι → ℝ) (Bm : ι → κ → ℝ) (a : κ → ℝ) :
    ∑ r, ((s : EReal) * ∑ n, (u n : EReal) * (Bm n r : EReal)) * (a r : EReal)
      = ∑ n, (u n : EReal) * ((s : EReal) * ∑ r, (a r : EReal) * (Bm n r : EReal)) := by
  simp only [← EReal.coe_mul, ← coe_sum]
  refine congrArg _ ?_
  simp only [Finset.mul_sum, Finset.sum_mul]
  rw [Finset.sum_comm]
  exact Finset.sum_congr rfl fun n _ => Finset.sum_congr rfl fun r _ => by ring

end Cert.Lib.ERealSum
-- ==== Proof.LibConvAlgebra.lean ====
/-
  The algebra of a degree-normalised graph convolution, on the extended reals, over an abstract finite set of edges.

  One layer multiplies a node's row by c (its own degree factor, a non-negative real), adds the rows gathered along the
  node's incoming edges, each already scaled by its source's factor a e, adds the node's own row times c, and then a
  bias. Scaling the whole aggregate by c afterwards is the same as scaling every incoming term by a e · c and the own
  term by c · c: a non-negative REAL factor distributes over sums of extended reals, whatever infinities the rows
  hold. Where the aggregate is then contracted with a weight matrix, the statement is an identity of real numbers
  (distributivity and an exchange of two finite sums), stated over coercions because it fails at the infinities.
  Around these: the word 0x3F800000 is the real 1, the degree "one per incoming edge, plus one" is a positive real whose
  inverse square root is a non-negative real, and a finite dot product of reals is real.
-/
import Mathlib.Data.EReal.Operations
import Mathlib.Algebra.BigOperators.Ring.Finset
import Mathlib.Algebra.BigOperators.Group.Finset.Sigma
import Mathlib.Tactic.Ring
import Idealize.ShloMosaic.PureOps.Ideal
import Idealize.ShloMosaic.PureOps.Ideal.Laws
import proofs.«111905_j23845658427756_2_alg».proof.Proof.LibERealSum

open scoped BigOperators

namespace Cert.Lib.ConvAlgebra

open Idealize.ShloMosaic
open Cert.Lib.ERealSum (coe_sum)

/-! ## A non-negative real factor through a finite sum of extended reals -/

/-- A non-negative real factor distributes over a finite sum of extended reals (no finiteness of the terms: it is
    the two-term law, which holds for such a factor, by induction on the set). -/
theorem coe_mul_sum_of_nonneg {ε : Type*} (L : Finset ε) (c : ℝ) (hc : 0 ≤ c) (f : ε → EReal) :
    (c : EReal) * ∑ e ∈ L, f e = ∑ e ∈ L, (c : EReal) * f e := by
  classical
  induction L using Finset.induction_on with
  | empty => simp
  | insert x S hx ih =>
    rw [Finset.sum_insert hx, Finset.sum_insert hx,
      EReal.left_distrib_of_nonneg_of_ne_top (EReal.coe_nonneg.mpr hc) (EReal.coe_ne_top c), ih]

/-! ## One layer: the factor c pushed inside the aggregate -/

/-- Scaling the aggregate (incoming terms plus own term) by the non-negative real c, then adding the bias, is the
    aggregate of the incoming terms each scaled by a e · dd e (dd e = c on the edges) and the own term scaled by
    c · c, plus the bias. -/
theorem layer1 {ε : Type*} (L : Finset ε) (c : ℝ) (hc : 0 ≤ c) (Hg a dd : ε → EReal)
    (hdd : ∀ e ∈ L, dd e = (c : EReal)) (Hn b : EReal) :
    (c : EReal) * ((0 + ∑ e ∈ L, Hg e * a e) + Hn * (c : EReal)) + b
      = ((0 + ∑ e ∈ L, Hg e * (a e * dd e)) + Hn * ((c : EReal) * (c : EReal))) + b := by
  refine congrArg (· + b) ?_
  rw [zero_add, zero_add,
    EReal.left_distrib_of_nonneg_of_ne_top (EReal.coe_nonneg.mpr hc) (EReal.coe_ne_top c),
    coe_mul_sum_of_nonneg L c hc]
  congr 1
  · refine Finset.sum_congr rfl fun e he => ?_
    rw [hdd e he, mul_left_comm, mul_comm (c : EReal) (a e)]
  · rw [mul_left_comm]

/-- With real rows, factors and bias the layer's value, and its maximum with a real, is a real number. -/
theorem layer1_real {ε : Type*} (L : Finset ε) (c : ℝ) (Hg a : ε → ℝ) (Hn b z : ℝ) :
    ∃ r : ℝ, max ((c : EReal) * ((0 + ∑ e ∈ L, (Hg e : EReal) * (a e : EReal)) + (Hn : EReal) * (c : EReal))
      + (b : EReal)) (z : EReal) = (r : EReal) := by
  refine ⟨max (c * ((0 + ∑ e ∈ L, Hg e * a e) + Hn * c) + b) z, ?_⟩
  simp only [← EReal.coe_mul, ← coe_sum, ← EReal.coe_zero, ← EReal.coe_add]
  exact (EReal.coe_strictMono.monotone.map_max).symm

/-! ## One layer followed by a contraction with a weight matrix: an identity of real numbers -/

/-- The aggregate scaled by c and contracted with the weights w over κ, plus the bias, is the aggregate of the
    contracted incoming rows each scaled by a e · dd e and the contracted own row scaled by c · c, plus the bias:
    distributivity and the exchange of the sums over κ and over the edges, on real numbers. -/
theorem layer2 {ε κ : Type*} [Fintype κ] (L : Finset ε) (c : ℝ) (he : ε → κ → ℝ) (a : ε → ℝ) (dd : ε → EReal)
    (hdd : ∀ e ∈ L, dd e = (c : EReal)) (hn w : κ → ℝ) (b : EReal) :
    (∑ k, ((c : EReal) * ((0 + ∑ e ∈ L, (he e k : EReal) * (a e : EReal)) + (hn k : EReal) * (c : EReal)))
        * (w k : EReal)) + b
      = ((0 + ∑ e ∈ L, (∑ k, (he e k : EReal) * (w k : EReal)) * ((a e : EReal) * dd e))
          + (∑ k, (hn k : EReal) * (w k : EReal)) * ((c : EReal) * (c : EReal))) + b := by
  refine congrArg (· + b) ?_
  have hsum : ∑ e ∈ L, (∑ k, (he e k : EReal) * (w k : EReal)) * ((a e : EReal) * dd e)
      = ∑ e ∈ L, (∑ k, (he e k : EReal) * (w k : EReal)) * ((a e : EReal) * (c : EReal)) :=
    Finset.sum_congr rfl fun e h => by rw [hdd e h]
  rw [hsum]
  simp only [← EReal.coe_mul, ← coe_sum, ← EReal.coe_zero, ← EReal.coe_add]
  refine congrArg _ ?_
  simp only [zero_add, mul_add, add_mul, Finset.mul_sum, Finset.sum_mul, Finset.sum_add_distrib]
  congr 1
  · rw [Finset.sum_comm]
    exact Finset.sum_congr rfl fun e _ => Finset.sum_congr rfl fun k _ => by ring
  · exact Finset.sum_congr rfl fun k _ => by ring

/-! ## The word of 1, the degree, and a real dot product -/

/-- The 32-bit float word 0x3F800000 (sign 0, exponent field 127, significand field 0) is the real number 1. -/
theorem ofBits_one : Ideal.ofBits .f32 0x3F800000#32 = ((1 : ℝ) : EReal) := by
  simp [Ideal.ofBits, Ideal.ieee, -EReal.coe_mul]
  norm_num

/-- The degree of a node — one per incoming edge, counted from 0, plus one for the node itself — is the real number
    |L| + 1 > 0, so its inverse square root is the non-negative real (√(|L| + 1))⁻¹. -/
theorem rsqrt_degree {ε : Type*} (L : Finset ε) :
    ∃ r : ℝ, 0 ≤ r ∧ Ideal.rsqrt ((Ideal.ofBits .f32 0x00000000#32 + ∑ _e ∈ L, Ideal.ofBits .f32 0x3F800000#32)
      + Ideal.ofBits .f32 0x3F800000#32) = (r : EReal) := by
  refine ⟨(Real.sqrt ((L.card : ℝ) + 1))⁻¹, inv_nonneg.mpr (Real.sqrt_nonneg _), ?_⟩
  have harg : (Ideal.ofBits .f32 0x00000000#32 + ∑ _e ∈ L, Ideal.ofBits .f32 0x3F800000#32)
      + Ideal.ofBits .f32 0x3F800000#32 = ((((L.card : ℝ) + 1 : ℝ)) : EReal) := by
    rw [Ideal.ofBits_zero_f32, ofBits_one, zero_add, ← coe_sum, Finset.sum_const, nsmul_eq_mul, mul_one,
      ← EReal.coe_add]
  have hpos : (0 : ℝ) < (L.card : ℝ) + 1 := by positivity
  rw [harg, Ideal.rsqrt_coe, if_neg (not_lt.mpr hpos.le), if_neg hpos.ne']

/-- A finite dot product of two families of real numbers, read in the extended reals, is a real number. -/
theorem real_dot {κ : Type*} [Fintype κ] (u v : κ → EReal) (hu : ∀ k, ∃ r : ℝ, u k = r) (hv : ∀ k, ∃ r : ℝ, v k = r) :
    ∃ r : ℝ, ∑ k, u k * v k = (r : EReal) := by
  choose ru hru using hu
  choose rv hrv using hv
  refine ⟨∑ k, ru k * rv k, ?_⟩
  rw [coe_sum]
  exact Finset.sum_congr rfl fun k _ => by rw [hru k, hrv k, EReal.coe_mul]

end Cert.Lib.ConvAlgebra
-- ==== Proof.RefRead.lean ====
/-
  The reference program's values, read at an index, in the vocabulary of the graph quantities.

  The reference computes, three times over on different feature arrays, the degree-normalised graph convolution: the
  degree vector d by scattering ones along the edges' targets, then, at node n and feature f, the sum over the edges
  landing on n of the feature row of the edge's source node scaled by d(source)·d(n), plus the node's own row scaled by
  d(n)·d(n), plus a bias. Read index by index, its scatters are sums over the edges landing on a node and its gathers
  read the row of an edge's source node (or, on an edge that lands on n, of n itself); the feature arrays are plain matrix
  products, the nonlinearity a maximum with zero, and the last stage the logistic function of an affine map.
-/
import proofs.«111905_j23845658427756_2_alg».proof.Proof.Gen.ReferenceIdeal.Read
import proofs.«111905_j23845658427756_2_alg».proof.Proof.EdgeSpec
import proofs.«111905_j23845658427756_2_alg».proof.Proof.LibEdgeIndex
import proofs.«111905_j23845658427756_2_alg».proof.Proof.LibPlainDot
import proofs.«111905_j23845658427756_2_alg».proof.Proof.LibConvAlgebra
import Idealize.ShloMosaic.Lib.ValueIdx
import Idealize.ShloMosaic.Lib.Pipeline.Value
import Idealize.ShloMosaic.PureOps.Ideal.Laws

noncomputable section

open scoped BigOperators

namespace Cert.ReferenceIdeal.Bridge

open Cert.ReferenceIdeal Cert.ReferenceIdeal.Gen Cert.ReferenceIdeal.Read Idealize.ShloMosaic Idealize.ShloMosaic.ValueIdx
open Cert.Lib.EdgeIndex Cert.EdgeSpec

/-! ## The edge list's columns, at an edge -/

section Columns
variable (x1 : (⟨S2x1600000, .i32⟩ : BufTy).Contents (Elt Ideal))

/-- The sources, as a flat array, at edge e: the word in row 0 of the edge list. -/
theorem src_apply (e : Fin 1600000) : val_main_v1 (F := Ideal) x1 (ix1 e) = x1 (ix2 (0 : Fin 2) e) := by
  rw [val_main_v1_apply, val_main_v0_apply]
  refine congrArg x1 (funext fun a => Fin.ext ?_)
  match a with
  | ⟨0, _⟩ => rfl
  | ⟨1, _⟩ => exact Nat.mod_eq_of_lt e.isLt

/-- The targets, as a flat array, at edge e: the word in row 1 of the edge list. -/
theorem tgt_apply (e : Fin 1600000) : val_main_v3 (F := Ideal) x1 (ix1 e) = x1 (ix2 (1 : Fin 2) e) := by
  rw [val_main_v3_apply, val_main_v2_apply]
  refine congrArg x1 (funext fun a => Fin.ext ?_)
  match a with
  | ⟨0, _⟩ => rfl
  | ⟨1, _⟩ => exact Nat.mod_eq_of_lt e.isLt

/-- The target column (the scatters' index array) at (e, 0): edge e's target word. -/
theorem tgtCol_apply (e : Fin 1600000) :
    val_main_v7 (F := Ideal) x1 (ix2 e ⟨0, Nat.one_pos⟩) = x1 (ix2 (1 : Fin 2) e) := by
  have hi : idx_main_v7 (ix2 e ⟨0, Nat.one_pos⟩) = ix1 e := by
    funext a; match a with | ⟨0, _⟩ => rfl
  rw [val_main_v7_apply, hi, tgt_apply]

/-- The wrapped-source column (a gather's index array) at (e, 0): edge e's source word, the node count added to it
    where it reads below zero. -/
theorem wsrcCol_apply (e : Fin 1600000) :
    val_main_v17 (F := Ideal) x1 (ix2 e ⟨0, Nat.one_pos⟩) = wrapNeg 100000#32 (x1 (ix2 (0 : Fin 2) e)) := by
  have hi : idx_main_v17 (ix2 e ⟨0, Nat.one_pos⟩) = ix1 e := by
    funext a; match a with | ⟨0, _⟩ => rfl
  rw [val_main_v17_apply, hi, val_main_v16_apply, val_main_v13_apply, val_main_v15_apply, val_main_v12_apply,
    val_main_v14_apply, val_main_c_apply, val_main_c_2_apply, src_apply]
  exact select_slt_zero_eq_wrapNeg _ _

/-- The wrapped-target column at (e, 0): edge e's target word, wrapped the same way. -/
theorem wtgtCol_apply (e : Fin 1600000) :
    val_main_v24 (F := Ideal) x1 (ix2 e ⟨0, Nat.one_pos⟩) = wrapNeg 100000#32 (x1 (ix2 (1 : Fin 2) e)) := by
  have hi : idx_main_v24 (ix2 e ⟨0, Nat.one_pos⟩) = ix1 e := by
    funext a; match a with | ⟨0, _⟩ => rfl
  rw [val_main_v24_apply, hi, val_main_v23_apply, val_main_v20_apply, val_main_v22_apply, val_main_v19_apply,
    val_main_v21_apply, val_main_c_3_apply, val_main_c_4_apply, tgt_apply]
  exact select_slt_zero_eq_wrapNeg _ _

/-- The edges whose target column reads n are the edges landing on n. -/
theorem filter_tgtCol_eq_landing (n : Fin 100000) :
    Finset.univ.filter (fun e : Fin 1600000 =>
        (val_main_v7 (F := Ideal) x1 (ix2 e ⟨0, Nat.one_pos⟩)).toInt = ((n.val : Nat) : Int)) = landing x1 n := by
  unfold landing
  refine Finset.filter_congr fun e _ => ?_
  rw [tgtCol_apply]

end Columns

/-! ## The scatter-adds and the gathers, at an index -/

section Ops

/-- A scalar scatter-add at element n: the operand's element plus the sum of the updates whose index reads n. -/
theorem scatterAddElts_apply (v : S100000.Idx → EReal) (idx : IVec S1600000x1 32) (upd : S1600000.Idx → EReal)
    (n : Fin 100000) :
    Host.scatterAdd (F := Ideal) (φ := .f32) scatter_S100000_S1600000x1_S1600000_n_0_0_1 v idx upd (ix1 n)
      = v (ix1 n) + ∑ e ∈ Finset.univ.filter (fun e : Fin 1600000 =>
          (idx (ix2 e ⟨0, Nat.one_pos⟩)).toInt = ((n.val : Nat) : Int)), upd (ix1 e) := by
  exact congrArg (fun t => v (ix1 n) + t)
    (scatterElts_sum_landing Facts₀.scatter_S100000_S1600000x1_S1600000_n_0_0_1_wf idx (ix1 n) upd)

/-- A row scatter-add at element (n, f): the operand's element plus the sum, over the update rows whose index reads
    n, of the update's element in column f. -/
theorem scatterAddRows_apply (v : S100000x64.Idx → EReal) (idx : IVec S1600000x1 32) (upd : S1600000x64.Idx → EReal)
    (n : Fin 100000) (f : Fin 64) :
    Host.scatterAdd (F := Ideal) (φ := .f32) scatter_S100000x64_S1600000x1_S1600000x64_1_0_0_1 v idx upd (ix2 n f)
      = v (ix2 n f) + ∑ e ∈ Finset.univ.filter (fun e : Fin 1600000 =>
          (idx (ix2 e ⟨0, Nat.one_pos⟩)).toInt = ((n.val : Nat) : Int)), upd (ix2 e f) := by
  exact congrArg (fun t => v (ix2 n f) + t)
    (scatterRows_sum_landing Facts₀.scatter_S100000x64_S1600000x1_S1600000x64_1_0_0_1_wf idx (ix2 n f) upd)

variable (x1 : (⟨S2x1600000, .i32⟩ : BufTy).Contents (Elt Ideal))

/-- The scalar gather at the wrapped sources, at edge e: the array at e's source node. -/
theorem gatherSrcElts_apply (v : S100000.Idx → EReal) (e : Fin 1600000) :
    Host.gather gather_S100000_S1600000x1_S1600000_n_0_n_n_0_1_1 v (val_main_v17 (F := Ideal) x1) (ix1 e)
      = v (ix1 (srcNode x1 e)) := by
  refine (gatherElts_apply (by decide) gather_S100000_S1600000x1_S1600000_n_0_n_n_0_1_1.wf v
    (val_main_v17 (F := Ideal) x1) (ix1 e)).trans ?_
  refine congrArg (fun k => v (ix1 k)) (Fin.ext ?_)
  show min (val_main_v17 (F := Ideal) x1 (ix2 e ⟨0, Nat.one_pos⟩)).toInt.toNat (100000 - 1)
    = min (wrapNeg 100000#32 (x1 (ix2 (0 : Fin 2) e))).toInt.toNat (100000 - 1)
  rw [wsrcCol_apply]

/-- The row gather at the wrapped sources, at (e, f): the array's row of e's source node, column f. -/
theorem gatherSrcRows_apply (u : S100000x64.Idx → EReal) (e : Fin 1600000) (f : Fin 64) :
    Host.gather gather_S100000x64_S1600000x1_S1600000x64_1_0_n_n_0_1_164 u (val_main_v17 (F := Ideal) x1) (ix2 e f)
      = u (ix2 (srcNode x1 e) f) := by
  refine (gatherRows_apply (by decide) gather_S100000x64_S1600000x1_S1600000x64_1_0_n_n_0_1_164.wf u
    (val_main_v17 (F := Ideal) x1) (ix2 e f)).trans ?_
  refine congrArg (fun k => u (ix2 k f)) (Fin.ext ?_)
  show min (val_main_v17 (F := Ideal) x1 (ix2 e ⟨0, Nat.one_pos⟩)).toInt.toNat (100000 - 1)
    = min (wrapNeg 100000#32 (x1 (ix2 (0 : Fin 2) e))).toInt.toNat (100000 - 1)
  rw [wsrcCol_apply]

/-- The scalar gather at the wrapped targets, at an edge that lands on n: the array at n itself. -/
theorem gatherTgtElts_apply (v : S100000.Idx → EReal) (n : Fin 100000) (e : Fin 1600000) (he : e ∈ landing x1 n) :
    Host.gather gather_S100000_S1600000x1_S1600000_n_0_n_n_0_1_1 v (val_main_v24 (F := Ideal) x1) (ix1 e)
      = v (ix1 n) := by
  have h : (x1 (ix2 (1 : Fin 2) e)).toInt = ((n.val : Nat) : Int) := (Finset.mem_filter.mp he).2
  have h' : (val_main_v24 (F := Ideal) x1 (ix2 ((ix1 e : S1600000.Idx) 0) ⟨0, Nat.one_pos⟩)).toInt
      = ((n.val : Nat) : Int) := by
    show (val_main_v24 (F := Ideal) x1 (ix2 e ⟨0, Nat.one_pos⟩)).toInt = _
    rw [wtgtCol_apply, wrapNeg_of_toInt_eq _ _ h, h]
  exact gatherElts_apply_of_toInt_eq gather_S100000_S1600000x1_S1600000_n_0_n_n_0_1_1.wf v
    (val_main_v24 (F := Ideal) x1) (ix1 e) n.isLt h'

end Ops

/-! ## The feature arrays: plain matrix products -/

section Features

/-- The first feature array at (n, f): row n of the node features times column f of the first weights. -/
theorem feat1_apply (x0 : (⟨S100000x128, .f32⟩ : BufTy).Contents (Elt Ideal)) (x3 : (⟨S128x64, .f32⟩ : BufTy).Contents (Elt Ideal)) (n : Fin 100000) (f : Fin 64) :
    val_main_v4 (F := Ideal) x0 x3 (ix2 n f) = ∑ k : Fin 128, x0 (ix2 n k) * x3 (ix2 k f) := by
  rw [val_main_v4_apply]
  refine Finset.sum_congr rfl fun k _ => ?_
  have el : lidx_main_v4 (ix2 n f) k = ix2 n k := by
    funext a; match a with | ⟨0, _⟩ => rfl | ⟨1, _⟩ => rfl
  have er : ridx_main_v4 (ix2 n f) k = ix2 k f := by
    funext a; match a with | ⟨0, _⟩ => rfl | ⟨1, _⟩ => rfl
  rw [el, er]

/-- The second feature array at (n, f): row n of the first layer's output times column f of the second weights. -/
theorem feat2_apply (x0 : (⟨S100000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (n : Fin 100000) (f : Fin 64) :
    val_main_v49 (F := Ideal) x0 x1 x3 x4 x5 (ix2 n f)
      = ∑ k : Fin 64, val_main_v48 (F := Ideal) x0 x1 x3 x4 (ix2 n k) * x5 (ix2 k f) := by
  rw [val_main_v49_apply]
  refine Finset.sum_congr rfl fun k _ => ?_
  have el : lidx_main_v49 (ix2 n f) k = ix2 n k := by
    funext a; match a with | ⟨0, _⟩ => rfl | ⟨1, _⟩ => rfl
  have er : ridx_main_v49 (ix2 n f) k = ix2 k f := by
    funext a; match a with | ⟨0, _⟩ => rfl | ⟨1, _⟩ => rfl
  rw [el, er]

/-- The third feature array at (n, f): row n of the first layer's output times column f of the third weights. -/
theorem feat3_apply (x0 : (⟨S100000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal)) (x7 : (⟨S64x64, .f32⟩ : BufTy).Contents (Elt Ideal)) (n : Fin 100000) (f : Fin 64) :
    val_main_v93 (F := Ideal) x0 x1 x3 x4 x7 (ix2 n f)
      = ∑ k : Fin 64, val_main_v48 (F := Ideal) x0 x1 x3 x4 (ix2 n k) * x7 (ix2 k f) := by
  rw [val_main_v93_apply]
  refine Finset.sum_congr rfl fun k _ => ?_
  have el : lidx_main_v93 (ix2 n f) k = ix2 n k := by
    funext a; match a with | ⟨0, _⟩ => rfl | ⟨1, _⟩ => rfl
  have er : ridx_main_v93 (ix2 n f) k = ix2 k f := by
    funext a; match a with | ⟨0, _⟩ => rfl | ⟨1, _⟩ => rfl
  rw [el, er]

/-- The nonlinearity after the first layer: the maximum with the zero word, element by element. -/
theorem relu_apply (x0 : (⟨S100000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal)) (i : S100000x64.Idx) :
    val_main_v48 (F := Ideal) x0 x1 x3 x4 i
      = max (val_main_v47 (F := Ideal) x0 x1 x3 x4 i) (Ideal.ofBits .f32 0x00000000#32) := by
  rw [val_main_v48_apply, val_main_call0_v0_apply]
  rfl

end Features

/-! ## The degree vector -/

section Degree
variable (x1 : (⟨S2x1600000, .i32⟩ : BufTy).Contents (Elt Ideal))

/-- The program's degree vector at node n is d(n): ones scattered along the targets into zeros, plus one,
    inverse square root. -/
theorem deg_apply (n : Fin 100000) : val_main_v11 (F := Ideal) x1 (ix1 n) = invDeg x1 n := by
  have h5 : ∀ e : Fin 1600000, val_main_v5 (F := Ideal) (ix1 e) = Ideal.ofBits .f32 0x3F800000#32 := fun e => by
    rw [val_main_v5_apply]; rfl
  have h8 : val_main_v8 (F := Ideal) x1 (ix1 n)
      = Ideal.ofBits .f32 0x00000000#32 + ∑ _e ∈ landing x1 n, Ideal.ofBits .f32 0x3F800000#32 := by
    unfold val_main_v8
    rw [scatterAddElts_apply, filter_tgtCol_eq_landing, val_main_v6_apply]
    refine congrArg₂ (· + ·) rfl (Finset.sum_congr rfl fun e _ => h5 e)
  have h9 : val_main_v9 (F := Ideal) (ix1 n) = Ideal.ofBits .f32 0x3F800000#32 := by
    rw [val_main_v9_apply]; rfl
  rw [val_main_v11_apply, val_main_v10_apply, h8, h9, Ideal.hostUnary_rsqrt_def, Ideal.addf_def]
  unfold invDeg
  rfl

/-- The second and third copies of the degree vector are the first. -/
theorem deg2_eq : val_main_v56 (F := Ideal) x1 = val_main_v11 (F := Ideal) x1 := rfl
theorem deg3_eq : val_main_v100 (F := Ideal) x1 = val_main_v11 (F := Ideal) x1 := rfl

/-- for the second copy. -/
theorem deg2_apply (n : Fin 100000) : val_main_v56 (F := Ideal) x1 (ix1 n) = invDeg x1 n := by
  rw [deg2_eq]; exact deg_apply x1 n
/-- for the third copy. -/
theorem deg3_apply (n : Fin 100000) : val_main_v100 (F := Ideal) x1 (ix1 n) = invDeg x1 n := by
  rw [deg3_eq]; exact deg_apply x1 n

end Degree

/-! ## The edge sum: a row scatter-add along the targets of rows gathered at the sources -/

section EdgeSum
variable (x1 : (⟨S2x1600000, .i32⟩ : BufTy).Contents (Elt Ideal))

/-- The second and third copies of the index columns, and the row gather's own source column, are the first. -/
theorem tgtCol38_eq : val_main_v38 (F := Ideal) x1 = val_main_v7 (F := Ideal) x1 := rfl
theorem wsrcCol32_eq : val_main_v32 (F := Ideal) x1 = val_main_v17 (F := Ideal) x1 := rfl

/-- A sum over the edges landing on a node only looks at those edges. -/
theorem landSum_congr (n : Fin 100000) {g h : Fin 1600000 → EReal} (hgh : ∀ e ∈ landing x1 n, g e = h e) :
    landSum x1 n g = landSum x1 n h := by
  unfold landSum
  exact congrArg (Ideal.ofBits .f32 0x00000000#32 + ·) (Finset.sum_congr rfl hgh)

/-- The row scatter-add of ANY update array into the zero array along the target column, at (n, f): the sum, over
    the edges landing on n, of the update's element (e, f), from the zero word. -/
theorem edge_sum_upd_apply (upd : S1600000x64.Idx → EReal) (n : Fin 100000) (f : Fin 64) :
    Host.scatterAdd (F := Ideal) (φ := .f32) scatter_S100000x64_S1600000x1_S1600000x64_1_0_0_1 (val_main_v37 (F := Ideal))
        (val_main_v38 (F := Ideal) x1) upd (ix2 n f)
      = landSum x1 n (fun e => upd (ix2 e f)) := by
  rw [tgtCol38_eq, scatterAddRows_apply, filter_tgtCol_eq_landing, val_main_v37_apply]
  rfl

/-- The row scatter-add, along the targets, of the rows of ANY array u gathered at the wrapped sources, at
    (n, f): the sum over the edges landing on n of u at (the edge's source node, f). -/
theorem edge_sum_apply (u : S100000x64.Idx → EReal) (n : Fin 100000) (f : Fin 64) :
    Host.scatterAdd (F := Ideal) (φ := .f32) scatter_S100000x64_S1600000x1_S1600000x64_1_0_0_1 (val_main_v37 (F := Ideal))
        (val_main_v38 (F := Ideal) x1)
        (Host.gather gather_S100000x64_S1600000x1_S1600000x64_1_0_n_n_0_1_164 u (val_main_v32 (F := Ideal) x1)) (ix2 n f)
      = landSum x1 n (fun e => u (ix2 (srcNode x1 e) f)) := by
  rw [edge_sum_upd_apply, wsrcCol32_eq]
  exact landSum_congr x1 n fun e _ => gatherSrcRows_apply x1 u e f

end EdgeSum

/-! ## Three layout reads -/

section Layout

/-- A vector over the nodes, as a one-column array, at (n, 0). -/
theorem bcast_nodes_col_apply (v : S100000.Idx → EReal) (n : Fin 100000) :
    broadcastInDim S100000x1 ![0] bcast_S100000_S100000x1_0 v (ix2 n (0 : Fin 1)) = v (ix1 n) :=
  broadcastInDim_apply _ bcast_S100000_S100000x1_0 v (ix2 n (0 : Fin 1)) (ix1 n) (fun a => match a with
    | ⟨0, _⟩ => by show n.val = if (100000 : Nat) = 1 then 0 else n.val; rw [if_neg (by decide)])

/-- A vector over 64 features, as a one-row array, at (0, f). -/
theorem bcast_row64_apply (b : S64.Idx → EReal) (f : Fin 64) :
    broadcastInDim S1x64 ![1] bcast_S64_S1x64_1 b (ix2 (0 : Fin 1) f) = b (ix1 f) :=
  broadcastInDim_apply _ bcast_S64_S1x64_1 b (ix2 (0 : Fin 1) f) (ix1 f) (fun a => match a with
    | ⟨0, _⟩ => by show f.val = if (64 : Nat) = 1 then 0 else f.val; rw [if_neg (by decide)])

/-- A vector over 128 features, as a one-row array, at (0, q). -/
theorem bcast_row128_apply (b' : S128.Idx → EReal) (q : Fin 128) :
    broadcastInDim S1x128 ![1] bcast_S128_S1x128_1 b' (ix2 (0 : Fin 1) q) = b' (ix1 q) :=
  broadcastInDim_apply _ bcast_S128_S1x128_1 b' (ix2 (0 : Fin 1) q) (ix1 q) (fun a => match a with
    | ⟨0, _⟩ => by show q.val = if (128 : Nat) = 1 then 0 else q.val; rw [if_neg (by decide)])

end Layout

/-! ## The convolution: one operation tree, three times -/

section Tree
variable {F : FTy → Type} [FloatOps F]

/-- The reference's convolution as one operation tree in the edge list, a feature array H and a bias b: the rows of H
    gathered at the wrapped sources, scaled by the gathered d(source)·d(target), scatter-added along the targets into
    zeros; plus H scaled by d·d; plus the bias on every row. (Stated for every float instance, as the program is.) -/
def convTree (x1 : (⟨S2x1600000, .i32⟩ : BufTy).Contents (Elt F)) (H : (⟨S100000x64, .f32⟩ : BufTy).Contents (Elt F))
    (b : (⟨S64, .f32⟩ : BufTy).Contents (Elt F)) : (⟨S100000x64, .f32⟩ : BufTy).Contents (Elt F) :=
  addf (addf (Host.scatterAdd scatter_S100000x64_S1600000x1_S1600000x64_1_0_0_1 (val_main_v37 (F := F))
        (val_main_v38 (F := F) x1)
        (mulf (Host.gather gather_S100000x64_S1600000x1_S1600000x64_1_0_n_n_0_1_164 H (val_main_v32 (F := F) x1))
          (val_main_v35 (F := F) x1)))
      (mulf H (val_main_v42 (F := F) x1)))
    (val_main_v46 (F := F) b)

/-- The tree at an index, operation by operation. -/
theorem convTree_apply (x1 : (⟨S2x1600000, .i32⟩ : BufTy).Contents (Elt F)) (H : (⟨S100000x64, .f32⟩ : BufTy).Contents (Elt F))
    (b : (⟨S64, .f32⟩ : BufTy).Contents (Elt F)) (i : S100000x64.Idx) :
    convTree (F := F) x1 H b i
      = FloatOps.addf (FloatOps.addf
          (Host.scatterAdd scatter_S100000x64_S1600000x1_S1600000x64_1_0_0_1
            (val_main_v37 (F := F)) (val_main_v38 (F := F) x1)
            (mulf (Host.gather gather_S100000x64_S1600000x1_S1600000x64_1_0_n_n_0_1_164 H (val_main_v32 (F := F) x1))
              (val_main_v35 (F := F) x1)) i)
          (FloatOps.mulf (H i) (val_main_v42 (F := F) x1 i)))
        (val_main_v46 (F := F) b i) := rfl

/-- The update array of the tree's scatter-add, at an index. -/
theorem convUpd_apply (x1 : (⟨S2x1600000, .i32⟩ : BufTy).Contents (Elt F)) (H : (⟨S100000x64, .f32⟩ : BufTy).Contents (Elt F)) (j : S1600000x64.Idx) :
    mulf (Host.gather gather_S100000x64_S1600000x1_S1600000x64_1_0_n_n_0_1_164 H (val_main_v32 (F := F) x1))
        (val_main_v35 (F := F) x1) j
      = FloatOps.mulf (Host.gather gather_S100000x64_S1600000x1_S1600000x64_1_0_n_n_0_1_164 H
          (val_main_v32 (F := F) x1) j) (val_main_v35 (F := F) x1 j) := rfl

/-- The three convolutions of the program are this tree, on three feature arrays and biases. -/
theorem v47_eq_tree (x0 : (⟨S100000x128, .f32⟩ : BufTy).Contents (Elt F)) (x1 : (⟨S2x1600000, .i32⟩ : BufTy).Contents (Elt F)) (x3 : (⟨S128x64, .f32⟩ : BufTy).Contents (Elt F)) (x4 : (⟨S64, .f32⟩ : BufTy).Contents (Elt F)) :
    val_main_v47 (F := F) x0 x1 x3 x4 = convTree (F := F) x1 (val_main_v4 (F := F) x0 x3) x4 := rfl
theorem v92_eq_tree (x0 : (⟨S100000x128, .f32⟩ : BufTy).Contents (Elt F)) (x1 : (⟨S2x1600000, .i32⟩ : BufTy).Contents (Elt F)) (x3 : (⟨S128x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) :
    val_main_v92 (F := F) x0 x1 x3 x4 x5 x6 = convTree (F := F) x1 (val_main_v49 (F := F) x0 x1 x3 x4 x5) x6 := rfl
theorem v136_eq_tree (x0 : (⟨S100000x128, .f32⟩ : BufTy).Contents (Elt F)) (x1 : (⟨S2x1600000, .i32⟩ : BufTy).Contents (Elt F)) (x3 : (⟨S128x64, .f32⟩ : BufTy).Contents (Elt F)) (x4 : (⟨S64, .f32⟩ : BufTy).Contents (Elt F)) (x7 : (⟨S64x64, .f32⟩ : BufTy).Contents (Elt F)) (x8 : (⟨S64, .f32⟩ : BufTy).Contents (Elt F)) :
    val_main_v136 (F := F) x0 x1 x3 x4 x7 x8 = convTree (F := F) x1 (val_main_v93 (F := F) x0 x1 x3 x4 x7) x8 := rfl

end Tree

/-! ## The tree's pieces at the ideal values -/

section Conv
variable (x1 : (⟨S2x1600000, .i32⟩ : BufTy).Contents (Elt Ideal))

/-- The weight of edge e in the sum at node n, where e lands on n: d(source of e)·d(n). -/
theorem edgeWeight_apply (n : Fin 100000) (e : Fin 1600000) (he : e ∈ landing x1 n) (f : Fin 64) :
    val_main_v35 (F := Ideal) x1 (ix2 e f) = invDeg x1 (srcNode x1 e) * invDeg x1 n := by
  have hi : idx_main_v34 (idx_main_v35 (ix2 e f)) = ix1 e := by
    funext a; match a with | ⟨0, _⟩ => rfl
  have h18 : val_main_v18 (F := Ideal) x1 (ix1 e) = invDeg x1 (srcNode x1 e) := by
    unfold val_main_v18
    rw [gatherSrcElts_apply, deg_apply]
  have h25 : val_main_v25 (F := Ideal) x1 (ix1 e) = invDeg x1 n := by
    unfold val_main_v25
    rw [gatherTgtElts_apply x1 _ n e he, deg_apply]
  rw [val_main_v35_apply, val_main_v34_apply, hi, val_main_v26_apply, h18, h25, Ideal.mulf_def]

/-- The weight of a node's own row: d(n)·d(n). -/
theorem selfWeight_apply (n : Fin 100000) (f : Fin 64) :
    val_main_v42 (F := Ideal) x1 (ix2 n f) = invDeg x1 n * invDeg x1 n := by
  have hi : idx_main_v41 (idx_main_v42 (ix2 n f)) = ix1 n := by
    funext a; match a with | ⟨0, _⟩ => rfl
  rw [val_main_v42_apply, val_main_v41_apply, hi, val_main_v40_apply, deg_apply, Ideal.mulf_def]

/-- The bias on every row: at (n, f), the bias's element f. -/
theorem bias_apply (b : (⟨S64, .f32⟩ : BufTy).Contents (Elt Ideal)) (n : Fin 100000) (f : Fin 64) :
    val_main_v46 (F := Ideal) b (ix2 n f) = b (ix1 f) := by
  have hi : idx_main_v45 (idx_main_v46 (ix2 n f)) = ix1 f := by
    funext a; match a with | ⟨0, _⟩ => rfl
  rw [val_main_v46_apply, val_main_v45_apply, hi]

/-- The convolution of the graph quantities at (n, f), written out. -/
theorem conv_apply (H : SNodes64.Idx → EReal) (b : (⟨1, ![64]⟩ : Shape).Idx → EReal) (n : Fin 100000) (f : Fin 64) :
    conv x1 H b (ix2 n f)
      = ((landSum x1 n fun e => H (ix2 (srcNode x1 e) f) * (invDeg x1 (srcNode x1 e) * invDeg x1 n))
          + H (ix2 n f) * (invDeg x1 n * invDeg x1 n)) + b (ix1 f) := rfl

/-- THE TREE IS THE CONVOLUTION: at (n, f), the sum over the edges landing on n of H(source, f)·(d(source)·d(n)), plus
    H(n, f)·(d(n)·d(n)), plus b(f). -/
theorem convTree_eq_conv (H : (⟨S100000x64, .f32⟩ : BufTy).Contents (Elt Ideal))
    (b : (⟨S64, .f32⟩ : BufTy).Contents (Elt Ideal)) : convTree (F := Ideal) x1 H b = conv x1 H b := by
  funext i
  obtain ⟨n, f, rfl⟩ : ∃ (n : Fin 100000) (f : Fin 64), i = ix2 n f := ⟨i 0, i 1, eq_ix2 i⟩
  have hsum : Host.scatterAdd (F := Ideal) (φ := .f32) scatter_S100000x64_S1600000x1_S1600000x64_1_0_0_1
      (val_main_v37 (F := Ideal)) (val_main_v38 (F := Ideal) x1)
      (mulf (F := Ideal) (φ := .f32)
        (Host.gather gather_S100000x64_S1600000x1_S1600000x64_1_0_n_n_0_1_164 H (val_main_v32 (F := Ideal) x1))
        (val_main_v35 (F := Ideal) x1)) (ix2 n f)
      = landSum x1 n (fun e => H (ix2 (srcNode x1 e) f) * (invDeg x1 (srcNode x1 e) * invDeg x1 n)) := by
    rw [edge_sum_upd_apply]
    refine landSum_congr x1 n fun e he => ?_
    rw [convUpd_apply, wsrcCol32_eq, gatherSrcRows_apply, edgeWeight_apply x1 n e he f, Ideal.mulf_def]
  rw [convTree_apply, hsum, selfWeight_apply, bias_apply, Ideal.addf_def, Ideal.addf_def, Ideal.mulf_def, conv_apply]

end Conv

/-- The first layer's pre-activation is the convolution of the first feature array with the first bias. -/
theorem conv1 (x0 : (⟨S100000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal)) :
    val_main_v47 (F := Ideal) x0 x1 x3 x4 = conv x1 (val_main_v4 (F := Ideal) x0 x3) x4 := by
  rw [v47_eq_tree]; exact convTree_eq_conv x1 _ x4

/-- The second convolution: of the second feature array with the second bias. -/
theorem conv2 (x0 : (⟨S100000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v92 (F := Ideal) x0 x1 x3 x4 x5 x6 = conv x1 (val_main_v49 (F := Ideal) x0 x1 x3 x4 x5) x6 := by
  rw [v92_eq_tree]; exact convTree_eq_conv x1 _ x6

/-- The third convolution: of the third feature array with the third bias. -/
theorem conv3 (x0 : (⟨S100000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal)) (x7 : (⟨S64x64, .f32⟩ : BufTy).Contents (Elt Ideal)) (x8 : (⟨S64, .f32⟩ : BufTy).Contents (Elt Ideal)) :
    val_main_v136 (F := Ideal) x0 x1 x3 x4 x7 x8 = conv x1 (val_main_v93 (F := Ideal) x0 x1 x3 x4 x7) x8 := by
  rw [v136_eq_tree]; exact convTree_eq_conv x1 _ x8

/-! ## The last stage: the logistic function of an affine map of the two convolutions -/

section Recon

/-- The word of 1, as the extended real 1. -/
theorem ofBits_one_eq_one : Ideal.ofBits .f32 0x3F800000#32 = (1 : EReal) := by
  rw [Cert.Lib.ConvAlgebra.ofBits_one, EReal.coe_one]

/-- The program's result at (n, q): the logistic function of row n of (second convolution + the noise array
    times the exponential of the third convolution), times column q of the last weights, plus the last bias's
    element q. -/
theorem recon_apply (x0 : (⟨S100000x128, .f32⟩ : BufTy).Contents (Elt Ideal)) (x1 : (⟨S2x1600000, .i32⟩ : BufTy).Contents (Elt Ideal)) (x2 : (⟨S100000x64, .f32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x128, .f32⟩ : BufTy).Contents (Elt Ideal)) (x10 : (⟨S128, .f32⟩ : BufTy).Contents (Elt Ideal))
    (n : Fin 100000) (q : Fin 128) :
    val_main_v149 (F := Ideal) x0 x1 x2 x3 x4 x5 x6 x7 x8 x9 x10 (ix2 n q)
      = Ideal.logistic ((∑ k : Fin 64, (val_main_v92 (F := Ideal) x0 x1 x3 x4 x5 x6 (ix2 n k)
            + x2 (ix2 n k) * Ideal.exp (val_main_v136 (F := Ideal) x0 x1 x3 x4 x7 x8 (ix2 n k))) * x9 (ix2 k q))
          + x10 (ix1 q)) := by
  have h148 : val_main_v148 (F := Ideal) (ix2 n q) = (1 : EReal) := by
    rw [val_main_v148_apply, val_main_cst_29_apply, Ideal.ofBits_def, ofBits_one_eq_one]
  have h146 : val_main_v146 (F := Ideal) (ix2 n q) = (1 : EReal) := by
    rw [val_main_v146_apply, val_main_cst_28_apply, Ideal.ofBits_def, ofBits_one_eq_one]
  have h142 : val_main_v142 (F := Ideal) x10 (ix2 n q) = x10 (ix1 q) := by
    have hi : idx_main_v141 (idx_main_v142 (ix2 n q)) = ix1 q := by
      funext a; match a with | ⟨0, _⟩ => rfl
    rw [val_main_v142_apply, val_main_v141_apply, hi]
  have h140 : val_main_v140 (F := Ideal) x0 x1 x2 x3 x4 x5 x6 x7 x8 x9 (ix2 n q)
      = ∑ k : Fin 64, (val_main_v92 (F := Ideal) x0 x1 x3 x4 x5 x6 (ix2 n k)
          + x2 (ix2 n k) * Ideal.exp (val_main_v136 (F := Ideal) x0 x1 x3 x4 x7 x8 (ix2 n k))) * x9 (ix2 k q) := by
    rw [val_main_v140_apply]
    refine Finset.sum_congr rfl fun k _ => ?_
    have el : lidx_main_v140 (ix2 n q) k = ix2 n k := by
      funext a; match a with | ⟨0, _⟩ => rfl | ⟨1, _⟩ => rfl
    have er : ridx_main_v140 (ix2 n q) k = ix2 k q := by
      funext a; match a with | ⟨0, _⟩ => rfl | ⟨1, _⟩ => rfl
    rw [el, er, val_main_v139_apply, val_main_v138_apply, val_main_v137_apply, Ideal.addf_def, Ideal.mulf_def,
      Ideal.hostUnary_exp_def]
  rw [val_main_v149_apply, val_main_v147_apply, val_main_v145_apply, val_main_v144_apply, val_main_v143_apply,
    h148, h146, h142, h140, Ideal.hostDivf_def, Ideal.addf_def, Ideal.addf_def, Ideal.hostUnary_exp_def,
    Ideal.hostNegf_def, Ideal.negf_def, Ideal.logistic]

end Recon

end Cert.ReferenceIdeal.Bridge

end
-- ==== Proof.Bridge.lean ====
/-
  The kernel's value is the reference's, index by index, for finite inputs.

  Write d(n) for the inverse root degree, L(n) for the edges landing on n, s(e) for an edge's source node, and
  F = x·W₁. The reference's first layer is relu(conv F b₁) with
      conv H b (n,f) = ∑_{e∈L(n)} H(s e,f)·(d(s e)·d(n)) + H(n,f)·(d(n)·d(n)) + b(f);
  the kernel's is relu(d(n)·(∑_{e∈L(n)} (F(s e,f)·d(s e)) + F(n,f)·d(n)) + b₁(f)). They agree because d(n) is a
  non-negative real number, which distributes over sums of extended reals. Call the common value h; for finite inputs it
  is a real number. In the second layer the reference convolves h·W (W = Wmu or Wlv) while the kernel first aggregates h,
  g(n,k) = d(n)·(∑_{e∈L(n)} h(s e,k)·d(s e) + h(n,k)·d(n)), and then multiplies by W: ∑ₖ g(n,k)·W(k,f) + b(f). These agree
  as identities of real numbers (the convolution is linear, so it commutes with the right multiplication by W). The
  reconstruction is the same function of mean, log-variance, noise and decoder weights on both sides.
-/
import proofs.«111905_j23845658427756_2_alg».proof.Proof.KernelValue
import proofs.«111905_j23845658427756_2_alg».proof.Proof.RefRead
import proofs.«111905_j23845658427756_2_alg».proof.Proof.LibConvAlgebra

set_option maxRecDepth 16384

noncomputable section

open scoped BigOperators

namespace Cert.Bridge

open Idealize.ShloMosaic Idealize.ShloMosaic.ValueIdx
open Cert.EdgeSpec Cert.KernelIdeal.Bridge Cert.ReferenceIdeal.Read Cert.ReferenceIdeal.Bridge Cert.Lib.ConvAlgebra

/-- d(n) is a non-negative real number. -/
theorem invDeg_real (ei : IVec SEdges 32) (n : Fin 100000) : ∃ r : ℝ, 0 ≤ r ∧ invDeg ei n = (r : EReal) :=
  rsqrt_degree (landing ei n)

variable (x : Cert.KernelIdeal.S100000x128.Idx → EReal) (ei : IVec Cert.KernelIdeal.S2x1600000 32)
  (w1 : Cert.KernelIdeal.S128x64.Idx → EReal) (b1 : Cert.KernelIdeal.S64.Idx → EReal)

/-- The kernel's scale column is d. -/
theorem degScale_apply (n : Fin 100000) : degScale ei (ix2 n (0 : Fin 1)) = invDeg ei n :=
  (bcast_nodes_col_apply (val_main_v11 (F := Ideal) ei) n).trans (deg_apply ei n)

/-- The kernel's gather-and-add is the sum over the landing edges. -/
theorem edgeSum_apply (u : Cert.KernelIdeal.S100000x64.Idx → EReal) (n : Fin 100000) (f : Fin 64) :
    edgeSum ei u (ix2 n f) = landSum ei n (fun e => u (ix2 (srcNode ei e) f)) :=
  edge_sum_apply ei u n f

/-- A bias row at coordinates. -/
theorem biasRow64_apply (b : Cert.KernelIdeal.S64.Idx → EReal) (f : Fin 64) : biasRow64 b (ix2 (0 : Fin 1) f) = b (ix1 f) :=
  bcast_row64_apply b f
/-- A bias row at coordinates. -/
theorem biasRow128_apply (b : Cert.KernelIdeal.S128.Idx → EReal) (q : Fin 128) : biasRow128 b (ix2 (0 : Fin 1) q) = b (ix1 q) :=
  bcast_row128_apply b q

/-- The first region's array at coordinates: the transformed features times d. -/
theorem kScaled_apply (n : Fin 100000) (f : Fin 64) :
    kScaled x ei w1 (ix2 n f) = val_main_v4 (F := Ideal) x w1 (ix2 n f) * invDeg ei n := by
  show (∑ k : Fin 128, x (ix2 n k) * w1 (ix2 k f)) * degScale ei (ix2 n (0 : Fin 1)) = _
  rw [degScale_apply, feat1_apply]

/-- The kernel's first-layer activations (the second region's first output). -/
def kHid : Cert.KernelIdeal.S100000x64.Idx → EReal :=
  finalized (edgeSum ei (kScaled x ei w1)) (kScaled x ei w1) (degScale ei) (biasRow64 b1)

theorem kHid_apply (n : Fin 100000) (f : Fin 64) :
    kHid x ei w1 b1 (ix2 n f) = max (invDeg ei n * ((landSum ei n fun e => val_main_v4 (F := Ideal) x w1 (ix2 (srcNode ei e) f) * invDeg ei (srcNode ei e))
        + val_main_v4 (F := Ideal) x w1 (ix2 n f) * invDeg ei n) + b1 (ix1 f)) (Ideal.ofBits .f32 0x00000000#32) := by
  show max (degScale ei (ix2 n (0 : Fin 1)) * (edgeSum ei (kScaled x ei w1) (ix2 n f) + kScaled x ei w1 (ix2 n f))
      + biasRow64 b1 (ix2 (0 : Fin 1) f)) (Ideal.ofBits .f32 0x00000000#32) = _
  rw [degScale_apply, edgeSum_apply, kScaled_apply, biasRow64_apply]
  simp only [kScaled_apply]

/-- First layer: the kernel's activations are the reference's. -/
theorem kHid_eq (n : Fin 100000) (f : Fin 64) : kHid x ei w1 b1 (ix2 n f) = val_main_v48 (F := Ideal) x ei w1 b1 (ix2 n f) := by
  rw [kHid_apply, relu_apply, conv1, conv_apply]
  obtain ⟨c, hc0, hc⟩ := invDeg_real ei n
  unfold landSum
  rw [hc, Ideal.ofBits_zero_f32]
  exact congrArg (fun z : EReal => max z 0)
    (layer1 (landing ei n) c hc0 (fun e => val_main_v4 (F := Ideal) x w1 (ix2 (srcNode ei e) f)) (fun e => invDeg ei (srcNode ei e))
      (fun _ => (c : EReal)) (fun _ _ => rfl) (val_main_v4 (F := Ideal) x w1 (ix2 n f)) (b1 (ix1 f)))

variable (hx : ∀ i, ∃ r : ℝ, x i = (r : EReal)) (hw1 : ∀ i, ∃ r : ℝ, w1 i = (r : EReal)) (hb1 : ∀ i, ∃ r : ℝ, b1 i = (r : EReal))

include hx hw1 hb1 in
/-- For finite inputs the first-layer activations are real numbers. -/
theorem kHid_real (n : Fin 100000) (f : Fin 64) : ∃ r : ℝ, kHid x ei w1 b1 (ix2 n f) = (r : EReal) := by
  have hF : ∀ (p : Fin 100000) (q : Fin 64), ∃ r : ℝ, val_main_v4 (F := Ideal) x w1 (ix2 p q) = (r : EReal) := fun p q => by
    rw [feat1_apply]; exact real_dot _ _ (fun k => hx _) (fun k => hw1 _)
  choose Fr hFr using hF
  choose dr hdr0 hdr using invDeg_real ei
  obtain ⟨br, hbr⟩ := hb1 (ix1 f)
  rw [kHid_apply]
  unfold landSum
  simp only [hFr, hdr, hbr, Ideal.ofBits_zero_f32]
  have := layer1_real (landing ei n) (dr n) (fun e => Fr (srcNode ei e) f) (fun e => dr (srcNode ei e)) (Fr n f) br 0
  simpa using this

/-! ## Second layer -/

/-- The kernel's scaled activations at coordinates. -/
theorem kHidScaled_apply (n : Fin 100000) (k : Fin 64) :
    kHidScaled x ei w1 b1 (ix2 n k) = kHid x ei w1 b1 (ix2 n k) * invDeg ei n := by
  show kHid x ei w1 b1 (ix2 n k) * degScale ei (ix2 n (0 : Fin 1)) = _
  rw [degScale_apply]

/-- The kernel's aggregated activations at coordinates. -/
theorem kAgg_apply (n : Fin 100000) (k : Fin 64) :
    kAgg x ei w1 b1 (ix2 n k) = invDeg ei n * ((landSum ei n fun e => kHid x ei w1 b1 (ix2 (srcNode ei e) k) * invDeg ei (srcNode ei e))
      + kHid x ei w1 b1 (ix2 n k) * invDeg ei n) := by
  show degScale ei (ix2 n (0 : Fin 1)) * (edgeSum ei (kHidScaled x ei w1 b1) (ix2 n k) + kHidScaled x ei w1 b1 (ix2 n k)) = _
  rw [degScale_apply, edgeSum_apply, kHidScaled_apply]
  simp only [kHidScaled_apply]

include hx hw1 hb1 in
/-- Aggregating the activations and then multiplying by real weights W is convolving the activations times W: for a
    feature array G that reads as (reference activations)·W. -/
theorem second_layer (w : Cert.KernelIdeal.S64x64.Idx → EReal) (b : Cert.KernelIdeal.S64.Idx → EReal) (hw : ∀ i, ∃ r : ℝ, w i = (r : EReal))
    (G : SNodes64.Idx → EReal) (hG : ∀ (p : Fin 100000) (q : Fin 64), G (ix2 p q) = ∑ k : Fin 64, val_main_v48 (F := Ideal) x ei w1 b1 (ix2 p k) * w (ix2 k q))
    (n : Fin 100000) (f : Fin 64) :
    affineRows (kAgg x ei w1 b1) w (biasRow64 b) (ix2 n f) = conv ei G b (ix2 n f) := by
  show (∑ k : Fin 64, kAgg x ei w1 b1 (ix2 n k) * w (ix2 k f)) + biasRow64 b (ix2 (0 : Fin 1) f) = _
  rw [conv_apply, biasRow64_apply]
  simp only [kAgg_apply, hG, ← kHid_eq]
  choose hr hhr using kHid_real x ei w1 b1 hx hw1 hb1
  choose dr hdr0 hdr using invDeg_real ei
  choose wr hwr using hw
  unfold landSum
  simp only [hhr, hdr, hwr, Ideal.ofBits_zero_f32]
  exact layer2 (landing ei n) (dr n) (fun e k => hr (srcNode ei e) k) (fun e => dr (srcNode ei e)) (fun _ => ((dr n : ℝ) : EReal))
    (fun _ _ => rfl) (fun k => hr n k) (fun k => wr (ix2 k f)) (b (ix1 f))

variable (eps : Cert.KernelIdeal.S100000x64.Idx → EReal) (wmu : Cert.KernelIdeal.S64x64.Idx → EReal) (bmu : Cert.KernelIdeal.S64.Idx → EReal)
  (wlv : Cert.KernelIdeal.S64x64.Idx → EReal) (blv : Cert.KernelIdeal.S64.Idx → EReal)
  (wdec : Cert.KernelIdeal.S64x128.Idx → EReal) (bdec : Cert.KernelIdeal.S128.Idx → EReal)
  (hwmu : ∀ i, ∃ r : ℝ, wmu i = (r : EReal)) (hwlv : ∀ i, ∃ r : ℝ, wlv i = (r : EReal))

include hx hw1 hb1 hwmu in
/-- The mean: the kernel's array is the reference's. -/
theorem mean_eq : affineRows (kAgg x ei w1 b1) wmu (biasRow64 bmu) = val_main_v92 (F := Ideal) x ei w1 b1 wmu bmu := by
  funext i
  obtain ⟨n, f, rfl⟩ : ∃ (n : Fin 100000) (f : Fin 64), i = ix2 n f := ⟨i 0, i 1, eq_ix2 i⟩
  rw [conv2]
  exact second_layer x ei w1 b1 hx hw1 hb1 wmu bmu hwmu _ (fun p q => feat2_apply x ei w1 b1 wmu p q) n f

include hx hw1 hb1 hwlv in
/-- The log-variance: the kernel's array is the reference's. -/
theorem logvar_eq : affineRows (kAgg x ei w1 b1) wlv (biasRow64 blv) = val_main_v136 (F := Ideal) x ei w1 b1 wlv blv := by
  funext i
  obtain ⟨n, f, rfl⟩ : ∃ (n : Fin 100000) (f : Fin 64), i = ix2 n f := ⟨i 0, i 1, eq_ix2 i⟩
  rw [conv3]
  exact second_layer x ei w1 b1 hx hw1 hb1 wlv blv hwlv _ (fun p q => feat3_apply x ei w1 b1 wlv p q) n f

include hx hw1 hb1 hwmu hwlv in
/-- The reconstruction: the kernel's array is the reference's. -/
theorem recon_eq :
    decoded (affineRows (kAgg x ei w1 b1) wmu (biasRow64 bmu)) (affineRows (kAgg x ei w1 b1) wlv (biasRow64 blv)) eps wdec (biasRow128 bdec)
      = val_main_v149 (F := Ideal) x ei eps w1 b1 wmu bmu wlv blv wdec bdec := by
  rw [mean_eq x ei w1 b1 hx hw1 hb1 wmu bmu hwmu, logvar_eq x ei w1 b1 hx hw1 hb1 wlv blv hwlv]
  funext i
  obtain ⟨n, q, rfl⟩ : ∃ (n : Fin 100000) (q : Fin 128), i = ix2 n q := ⟨i 0, i 1, eq_ix2 i⟩
  rw [Cert.ReferenceIdeal.Bridge.recon_apply]
  show Ideal.logistic ((∑ k : Fin 64, (val_main_v92 (F := Ideal) x ei w1 b1 wmu bmu (ix2 n k)
      + eps (ix2 n k) * Ideal.exp (val_main_v136 (F := Ideal) x ei w1 b1 wlv blv (ix2 n k))) * wdec (ix2 k q)) + biasRow128 bdec (ix2 (0 : Fin 1) q)) = _
  rw [biasRow128_apply]

end Cert.Bridge

end
-- ==== Proof.lean ====
/-
  The certificate of a two-layer graph-convolutional variational autoencoder forward pass, four fused kernels against a
  plain reference.

  The reference applies the degree-normalised convolution conv H b = Â·H + b three times (Â = D^{-1/2}(A+I)D^{-1/2}, with
  A the edge list's adjacency counted with multiplicity): h = relu(conv (x·W₁) b₁), mean = conv (h·Wmu) bmu,
  logvar = conv (h·Wlv) blv, and returns logistic((mean + eps·exp logvar)·Wdec + bdec), mean, logvar. The kernel program
  pulls the normalisation out of the edge sums as row scalings by d = D^{-1/2} and aggregates h once, multiplying by Wmu
  and Wlv afterwards. On the extended reals the first rewrite holds because d is a non-negative real number; the second
  (Â·(h·W) = (Â·h)·W) is an identity of real numbers, used here for finite inputs, where h and the weights are real.

  The three frames are the generated ones (the reference's is its generated run with the results dropped); no operation
  was rewritten by the idealization, so that conjunct is trivial; the value conjunct puts the kernel's run, read at its three
  result buffers, beside the reference's generated run.
-/
import proofs.«111905_j23845658427756_2_alg».proof.Defs
import proofs.«111905_j23845658427756_2_alg».proof.Proof.Gen.Kernel
import proofs.«111905_j23845658427756_2_alg».proof.Proof.Gen.Kernel.Skeleton
import proofs.«111905_j23845658427756_2_alg».proof.Proof.Gen.Kernel.Launch
import proofs.«111905_j23845658427756_2_alg».proof.Proof.Gen.Kernel.Points
import proofs.«111905_j23845658427756_2_alg».proof.Proof.Gen.Kernel.Frame
import proofs.«111905_j23845658427756_2_alg».proof.Proof.Gen.KernelIdeal
import proofs.«111905_j23845658427756_2_alg».proof.Proof.Gen.KernelIdeal.Skeleton
import proofs.«111905_j23845658427756_2_alg».proof.Proof.Gen.KernelIdeal.Launch
import proofs.«111905_j23845658427756_2_alg».proof.Proof.Gen.KernelIdeal.Points
import proofs.«111905_j23845658427756_2_alg».proof.Proof.Gen.KernelIdeal.Frame
import proofs.«111905_j23845658427756_2_alg».proof.Proof.Gen.ReferenceIdeal
import proofs.«111905_j23845658427756_2_alg».proof.Proof.Gen.Pre_finite_inputs
import proofs.«111905_j23845658427756_2_alg».proof.Proof.Gen.ReferenceIdeal.Run
import proofs.«111905_j23845658427756_2_alg».proof.Proof.Gen.ReferenceIdeal.Read
import proofs.«111905_j23845658427756_2_alg».proof.Proof.KernelRun
import proofs.«111905_j23845658427756_2_alg».proof.Proof.KernelValue
import proofs.«111905_j23845658427756_2_alg».proof.Proof.FiniteInputs
import proofs.«111905_j23845658427756_2_alg».proof.Proof.Bridge
import Idealize.ShloMosaic.Adequacy
import Idealize.ShloMosaic.Init

set_option maxRecDepth 16384

noncomputable section

namespace Cert.Proof

open Idealize.ShloMosaic Idealize.SL.Sem

/-- The word-level kernel runs and keeps its arguments. -/
theorem frame_kernel : @Cert.frame_Kernel Cert.Kernel.Gen.facts Cert.Pre_finite_inputs.Gen.facts :=
  fun m ρ _ => Cert.Kernel.Gen.frame m ρ

/-- The idealized kernel runs and keeps its arguments. -/
theorem frame_kernelIdeal : @Cert.frame_KernelIdeal Cert.KernelIdeal.Gen.facts Cert.Pre_finite_inputs.Gen.facts :=
  fun m ρ _ => Cert.KernelIdeal.Gen.frame m ρ

/-- The idealized reference runs and keeps its arguments: its run, the results dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2.2.2) (Cert.ReferenceIdeal.Value.run (F := Ideal) m ρ)

/-- From memories that agree on the arguments, the idealized kernel and the idealized reference end with equal results:
    the kernel's three result arrays, read off its run, are the reference's three composed terms (`Cert.Bridge`), the inputs
    being real numbers by the precondition. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.W7 m ρ c (Proc.devRef .tc Cert.KernelIdeal.main_v39_2),
    fun c => Cert.KernelIdeal.Gen.W7 m ρ c (Proc.devRef .tc Cert.KernelIdeal.main_v39_0),
    fun c => Cert.KernelIdeal.Gen.W7 m ρ c (Proc.devRef .tc Cert.KernelIdeal.main_v39_1),
    Cert.KernelIdeal.Bridge.run_results m ρ, ?_⟩
  refine (θ_run Cert.ReferenceIdeal.defs _ _).mono (fun r h c => ?_) (Cert.ReferenceIdeal.Value.run (F := Ideal) m' ρ')
  obtain ⟨h0, h1, h2, hargs⟩ := h c
  obtain ⟨e0, e1, e2, e3, e4, e5, e6, e7, e8, e9, e10⟩ := hagree c
  obtain ⟨r0, r2, r3, r4, r5, r6, r7, r8, r9, r10⟩ := Cert.FiniteInputs.reals_of_pre _ _ _ _ _ _ _ _ _ _ _ (hpre c)
  refine ⟨h0.trans ?_, h1.trans ?_, h2.trans ?_, hargs⟩
  · rw [Cert.ReferenceIdeal.Read.val_main_v149_eq, e0, e1, e2, e3, e4, e5, e6, e7, e8, e9, e10]
    exact ((Cert.KernelIdeal.Bridge.result_recon m ρ c).trans
      (Cert.Bridge.recon_eq _ _ _ _ r0 r3 r4 _ _ _ _ _ _ _ r5 r7)).symm
  · rw [Cert.ReferenceIdeal.Read.val_main_v92_eq, e0, e1, e3, e4, e5, e6]
    exact ((Cert.KernelIdeal.Bridge.result_mean m ρ c).trans (Cert.Bridge.mean_eq _ _ _ _ r0 r3 r4 _ _ r5)).symm
  · rw [Cert.ReferenceIdeal.Read.val_main_v136_eq, e0, e1, e3, e4, e7, e8]
    exact ((Cert.KernelIdeal.Bridge.result_logvar m ρ c).trans (Cert.Bridge.logvar_eq _ _ _ _ r0 r3 r4 _ _ r7)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
